-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_scale" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x2048x128 : Shape := ⟨3, ![8, 2048, 128]⟩
abbrev S8x2048 : Shape := ⟨2, ![8, 2048]⟩
abbrev S2048x32x2 : Shape := ⟨3, ![2048, 32, 2]⟩
abbrev S4096x16x2 : Shape := ⟨3, ![4096, 16, 2]⟩
abbrev S64x512 : Shape := ⟨2, ![64, 512]⟩
abbrev S64x128 : Shape := ⟨2, ![64, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S2048x32x2 : S_.BroadcastsInDim S2048x32x2 (![] : Fin 0 → Fin S2048x32x2.rank)
  reducesTo_S2048x32x2_S_d0_1_2 : S2048x32x2.ReducesTo [0, 1, 2] S_
  bcast_S_S4096x16x2 : S_.BroadcastsInDim S4096x16x2 (![] : Fin 0 → Fin S4096x16x2.rank)
  reducesTo_S4096x16x2_S_d0_1_2 : S4096x16x2.ReducesTo [0, 1, 2] S_
  bcast_S_S64x512 : S_.BroadcastsInDim S64x512 (![] : Fin 0 → Fin S64x512.rank)
  reducesTo_S64x512_S_d0_1 : S64x512.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64x512 .f32) (main_v33 : IVec S_ 1) : IVec S_ 1 :=
  let main_v34 : FVec F S64x512 .f32 := Host.absf main_arg8
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  main_v38

def fn_part1 {F : FTy → Type} [FloatOps F] (main_arg5 : FVec F S4096x16x2 .f32) (main_arg6 : FVec F S64x512 .f32) (main_arg7 : FVec F S64x128 .f32) (main_arg8 : FVec F S64x512 .f32) (main_v13 : IVec S_ 1) (main_v16 : IVec S4096x16x2 1) : IVec S_ 1 :=
  let main_c_5 : IVec S_ 1 := constantI S_ 1 1#1
  let main_v17 : IVec S_ 1 := (fun x v => Host.reduce IntOp.andi x v reducesTo_S4096x16x2_S_d0_1_2 h_S_) main_v16 main_c_5
  let main_v18 : IVec S_ 1 := andi main_v13 main_v17
  let main_v19 : FVec F S4096x16x2 .f32 := Host.absf main_arg5
  let main_cst_6 : FVec F S_ .f32 := constant S_ .f32 0x7F800000#32
  let main_v20 : FVec F S4096x16x2 .f32 := broadcastInDim S4096x16x2 ![] bcast_S_S4096x16x2 main_cst_6
  let main_v21 : IVec S4096x16x2 1 := cmpf .olt main_v19 main_v20
  let main_c_7 : IVec S_ 1 := constantI S_ 1 1#1
  let main_v22 : IVec S_ 1 := (fun x v => Host.reduce IntOp.andi x v reducesTo_S4096x16x2_S_d0_1_2 h_S_) main_v21 main_c_7
  let main_v23 : IVec S_ 1 := andi main_v18 main_v22
  let main_v24 : FVec F S64x512 .f32 := Host.absf main_arg6
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_v33

def fn {F : FTy → Type} [FloatOps F] (main_arg0 : FVec F S8x4096x512 .f32) (main_arg1 : FVec F S8x2048x128 .f32) (main_arg2 : IVec S8x2048 32) (main_arg3 : FVec F S2048x32x2 .f32) (main_arg4 : FVec F S4096x16x2 .f32) (main_arg5 : FVec F S4096x16x2 .f32) (main_arg6 : FVec F S64x512 .f32) (main_arg7 : FVec F S64x128 .f32) (main_arg8 : FVec F S64x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S2048x32x2 .f32 := Host.absf main_arg3
  let main_cst_2 : FVec F S_ .f32 := constant S_ .f32 0x7F800000#32
  let main_v10 : FVec F S2048x32x2 .f32 := broadcastInDim S2048x32x2 ![] bcast_S_S2048x32x2 main_cst_2
  let main_v11 : IVec S2048x32x2 1 := cmpf .olt main_v9 main_v10
  let main_c_3 : IVec S_ 1 := constantI S_ 1 1#1
  let main_v12 : IVec S_ 1 := (fun x v => Host.reduce IntOp.andi x v reducesTo_S2048x32x2_S_d0_1_2 h_S_) main_v11 main_c_3
  let main_v13 : IVec S_ 1 := andi main_v8 main_v12
  let main_v14 : FVec F S4096x16x2 .f32 := Host.absf main_arg4
  let main_cst_4 : FVec F S_ .f32 := constant S_ .f32 0x7F800000#32
  let main_v15 : FVec F S4096x16x2 .f32 := broadcastInDim S4096x16x2 ![] bcast_S_S4096x16x2 main_cst_4
  let main_v16 : IVec S4096x16x2 1 := cmpf .olt main_v14 main_v15
  fn_part1 (F := F) main_arg5 main_arg6 main_arg7 main_arg8 main_v13 main_v16
-- ==== Kernel.lean ====
abbrev S8x4096x512 : Shape := ⟨3, ![8, 4096, 512]⟩
abbrev S8x2048x128 : Shape := ⟨3, ![8, 2048, 128]⟩
abbrev S8x2048 : Shape := ⟨2, ![8, 2048]⟩
abbrev S2048x32x2 : Shape := ⟨3, ![2048, 32, 2]⟩
abbrev S4096x16x2 : Shape := ⟨3, ![4096, 16, 2]⟩
abbrev S64x512 : Shape := ⟨2, ![64, 512]⟩
abbrev S64x128 : Shape := ⟨2, ![64, 128]⟩
abbrev S4096x16x1 : Shape := ⟨3, ![4096, 16, 1]⟩
abbrev S4096x16 : Shape := ⟨2, ![4096, 16]⟩
abbrev S4096x32 : Shape := ⟨2, ![4096, 32]⟩
abbrev S4096x64 : Shape := ⟨2, ![4096, 64]⟩
abbrev S2048x32x1 : Shape := ⟨3, ![2048, 32, 1]⟩
abbrev S2048x32 : Shape := ⟨2, ![2048, 32]⟩
abbrev S2048x64 : Shape := ⟨2, ![2048, 64]⟩
abbrev S8x4096x64 : Shape := ⟨3, ![8, 4096, 64]⟩
abbrev S1x1024x512 : Shape := ⟨3, ![1, 1024, 512]⟩
abbrev S1024x64 : Shape := ⟨2, ![1024, 64]⟩
abbrev S1x1024x64 : Shape := ⟨3, ![1, 1024, 64]⟩
abbrev S1024x512 : Shape := ⟨2, ![1024, 512]⟩
abbrev S8x2048x64 : Shape := ⟨3, ![8, 2048, 64]⟩
abbrev S1x2048x128 : Shape := ⟨3, ![1, 2048, 128]⟩
abbrev S1x2048x64 : Shape := ⟨3, ![1, 2048, 64]⟩
abbrev S2048x128 : Shape := ⟨2, ![2048, 128]⟩
abbrev S1x256x64 : Shape := ⟨3, ![1, 256, 64]⟩
abbrev S1x4096x64 : Shape := ⟨3, ![1, 4096, 64]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩

abbrev nBuf : Space → Nat
  | .hbm => 39
  | .vmem => 27
  | .smem => 0
  | _ => 0

abbrev bufTy : (tb : Table) → Fin (tcTables nBuf tb) → BufTy
  | .hbm, ⟨0, _⟩ => ⟨S8x4096x512, .f32⟩
  | .hbm, ⟨1, _⟩ => ⟨S8x2048x128, .f32⟩
  | .hbm, ⟨2, _⟩ => ⟨S8x2048, .i32⟩
  | .hbm, ⟨3, _⟩ => ⟨S2048x32x2, .f32⟩
  | .hbm, ⟨4, _⟩ => ⟨S4096x16x2, .f32⟩
  | .hbm, ⟨5, _⟩ => ⟨S4096x16x2, .f32⟩
  | .hbm, ⟨6, _⟩ => ⟨S64x512, .f32⟩
  | .hbm, ⟨7, _⟩ => ⟨S64x128, .f32⟩
  | .hbm, ⟨8, _⟩ => ⟨S64x512, .f32⟩
  | .hbm, ⟨9, _⟩ => ⟨S4096x16x1, .f32⟩
  | .hbm, ⟨10, _⟩ => ⟨S4096x16, .f32⟩
  | .hbm, ⟨11, _⟩ => ⟨S4096x16x2, .f32⟩
  | .hbm, ⟨12, _⟩ => ⟨S4096x32, .f32⟩
  | .hbm, ⟨13, _⟩ => ⟨S4096x16x1, .f32⟩
  | .hbm, ⟨14, _⟩ => ⟨S4096x16, .f32⟩
  | .hbm, ⟨15, _⟩ => ⟨S4096x16x2, .f32⟩
  | .hbm, ⟨16, _⟩ => ⟨S4096x32, .f32⟩
  | .hbm, ⟨17, _⟩ => ⟨S4096x16x1, .f32⟩
  | .hbm, ⟨18, _⟩ => ⟨S4096x16, .f32⟩
  | .hbm, ⟨19, _⟩ => ⟨S4096x16x2, .f32⟩
  | .hbm, ⟨20, _⟩ => ⟨S4096x32, .f32⟩
  | .hbm, ⟨21, _⟩ => ⟨S4096x16x1, .f32⟩
  | .hbm, ⟨22, _⟩ => ⟨S4096x16, .f32⟩
  | .hbm, ⟨23, _⟩ => ⟨S4096x16x2, .f32⟩
  | .hbm, ⟨24, _⟩ => ⟨S4096x32, .f32⟩
  | .hbm, ⟨25, _⟩ => ⟨S4096x64, .f32⟩
  | .hbm, ⟨26, _⟩ => ⟨S4096x64, .f32⟩
  | .hbm, ⟨27, _⟩ => ⟨S2048x32x1, .f32⟩
  | .hbm, ⟨28, _⟩ => ⟨S2048x32, .f32⟩
  | .hbm, ⟨29, _⟩ => ⟨S2048x32x2, .f32⟩
  | .hbm, ⟨30, _⟩ => ⟨S2048x64, .f32⟩
  | .hbm, ⟨31, _⟩ => ⟨S2048x32x1, .f32⟩
  | .hbm, ⟨32, _⟩ => ⟨S2048x32, .f32⟩
  | .hbm, ⟨33, _⟩ => ⟨S2048x32x2, .f32⟩
  | .hbm, ⟨34, _⟩ => ⟨S2048x64, .f32⟩
  | .hbm, ⟨35, _⟩ => ⟨S8x4096x64, .bf16⟩
  | .hbm, ⟨36, _⟩ => ⟨S8x4096x64, .bf16⟩
  | .hbm, ⟨37, _⟩ => ⟨S8x2048x64, .bf16⟩
  | .hbm, ⟨38, _⟩ => ⟨S8x2048x64, .f32⟩
  | .local _ .vmem, ⟨0, _⟩ => ⟨S1x1024x512, .f32⟩
  | .local _ .vmem, ⟨1, _⟩ => ⟨S1x1024x512, .f32⟩
  | .local _ .vmem, ⟨2, _⟩ => ⟨S64x512, .f32⟩
  | .local _ .vmem, ⟨3, _⟩ => ⟨S64x512, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x2048x128, .f32⟩
  | .local _ .vmem, ⟨13, _⟩ => ⟨S1x2048x128, .f32⟩
  | .local _ .vmem, ⟨14, _⟩ => ⟨S64x128, .f32⟩
  | .local _ .vmem, ⟨15, _⟩ => ⟨S2048x64, .f32⟩
  | .local _ .vmem, ⟨16, _⟩ => ⟨S2048x64, .f32⟩
  | .local _ .vmem, ⟨17, _⟩ => ⟨S1x2048x64, .bf16⟩
  | .local _ .vmem, ⟨18, _⟩ => ⟨S1x2048x64, .bf16⟩
  | .local _ .vmem, ⟨19, _⟩ => ⟨S1x256x64, .bf16⟩
  | .local _ .vmem, ⟨20, _⟩ => ⟨S1x256x64, .bf16⟩
  | .local _ .vmem, ⟨21, _⟩ => ⟨S1x4096x64, .bf16⟩
  | .local _ .vmem, ⟨22, _⟩ => ⟨S1x4096x64, .bf16⟩
  | .local _ .vmem, ⟨23, _⟩ => ⟨S1x4096x64, .bf16⟩
  | .local _ .vmem, ⟨24, _⟩ => ⟨S1x4096x64, .bf16⟩
  | .local _ .vmem, ⟨25, _⟩ => ⟨S1x256x64, .f32⟩
  | .local _ .vmem, ⟨26, _⟩ => ⟨S1x256x64, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x4096x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S4096x16x2_S4096x16x1_0_0_0 : S4096x16x2.Slices ![0, 0, 0] S4096x16x1
  shapeCasts_S4096x16x1_S4096x16 : S4096x16x1.ShapeCasts S4096x16
  bcast_S4096x16_S4096x16x2_0_1 : S4096x16.BroadcastsInDim S4096x16x2 (![0, 1] : Fin 2 → Fin S4096x16x2.rank)
  shapeCasts_S4096x16x2_S4096x32 : S4096x16x2.ShapeCasts S4096x32
  slices_S4096x16x2_S4096x16x1_0_0_1 : S4096x16x2.Slices ![0, 0, 1] S4096x16x1
  concatenates_S4096x32_S4096x32_S4096x64_d1 : Shape.Concatenates [S4096x32, S4096x32] S4096x64 1
  slices_S2048x32x2_S2048x32x1_0_0_0 : S2048x32x2.Slices ![0, 0, 0] S2048x32x1
  shapeCasts_S2048x32x1_S2048x32 : S2048x32x1.ShapeCasts S2048x32
  bcast_S2048x32_S2048x32x2_0_1 : S2048x32.BroadcastsInDim S2048x32x2 (![0, 1] : Fin 2 → Fin S2048x32x2.rank)
  shapeCasts_S2048x32x2_S2048x64 : S2048x32x2.ShapeCasts S2048x64
  slices_S2048x32x2_S2048x32x1_0_0_1 : S2048x32x2.Slices ![0, 0, 1] S2048x32x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S1024x64_d1_w32 : S1024x64.Iotas .tc 32 [1]
  rotates_S1024x64_d1 : S1024x64.Rotates 1 none
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S64x128_S64x128_0_0 : ∀ a, (![0, 0] : Fin 2 → Nat) a + S64x128.size a ≤ S64x128.size a
  h_S64x128 : 0 < S64x128.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x64_d1_w32 : S2048x64.Iotas .tc 32 [1]
  rotates_S2048x64_d1 : S2048x64.Rotates 1 none
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  shapeCasts_S256x64_S1x256x64 : S256x64.ShapeCasts S1x256x64
  dot_S1024x512_S64x512_S1024x64_1_1_0_0_n_n_wf : DotDims.WF S1024x512 S64x512 S1024x64 [1] [1] [0] [0] [] []
  dot_S2048x128_S64x128_S2048x64_1_1_0_0_n_n_wf : DotDims.WF S2048x128 S64x128 S2048x64 [1] [1] [0] [0] [] []
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x4096x512.size a
  hwx0_0 : ∀ i : grid0.Coords, EltTy.bits .f32 = 32 ∨ (Rect.block (s := S8x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S4096x64.size a
  hwx0_3 : ∀ i : grid0.Coords, EltTy.bits .f32 = 32 ∨ (Rect.block (s := S4096x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S8x4096x64.size a
  hwx0_5 : ∀ i : grid0.Coords, EltTy.bits .bf16 = 32 ∨ (Rect.block (s := S8x4096x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S8x4096x64.size a
  hwx0_6 : ∀ i : grid0.Coords, EltTy.bits .bf16 = 32 ∨ (Rect.block (s := S8x4096x64) S1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S8x2048x128.size a
  hwx1_0 : ∀ i : grid1.Coords, EltTy.bits .f32 = 32 ∨ (Rect.block (s := S8x2048x128) S1x2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S2048x64.size a
  hwx1_3 : ∀ i : grid1.Coords, EltTy.bits .f32 = 32 ∨ (Rect.block (s := S2048x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x64.size a ≤ S8x2048x64.size a
  hwx1_4 : ∀ i : grid1.Coords, EltTy.bits .bf16 = 32 ∨ (Rect.block (s := S8x2048x64) S1x2048x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x64.size a ≤ S8x2048x64.size a
  hwx2_0 : ∀ i : grid2.Coords, EltTy.bits .bf16 = 32 ∨ (Rect.block (s := S8x2048x64) S1x256x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x64.size a ≤ S8x4096x64.size a
  hwx2_1 : ∀ i : grid2.Coords, EltTy.bits .bf16 = 32 ∨ (Rect.block (s := S8x4096x64) S1x4096x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4096x64.size a ≤ S8x4096x64.size a
  hwx2_2 : ∀ i : grid2.Coords, EltTy.bits .bf16 = 32 ∨ (Rect.block (s := S8x4096x64) S1x4096x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x64.size a ≤ S8x2048x64.size a
  hwx2_3 : ∀ i : grid2.Coords, EltTy.bits .f32 = 32 ∨ (Rect.block (s := S8x2048x64) S1x256x64.size (cc2_transform_3 i) (hinb2_3 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S2048x128_S64x128_S2048x64_1_1_0_0_n_n : DotDims S2048x128 S64x128 S2048x64 where
  lhsContracting := [1]
  rhsContracting := [1]
  lhsNonContracting := [0]
  rhsNonContracting := [0]
  lhsBatch := []
  rhsBatch := []
  wf := dot_S2048x128_S64x128_S2048x64_1_1_0_0_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2048x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x2048x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S1x256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_0) S1x4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_1) S1x4096x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x256x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x4096x512 : Shape := ⟨3, ![8, 4096, 512]⟩
abbrev S8x2048x128 : Shape := ⟨3, ![8, 2048, 128]⟩
abbrev S8x2048 : Shape := ⟨2, ![8, 2048]⟩
abbrev S2048x32x2 : Shape := ⟨3, ![2048, 32, 2]⟩
abbrev S4096x16x2 : Shape := ⟨3, ![4096, 16, 2]⟩
abbrev S64x512 : Shape := ⟨2, ![64, 512]⟩
abbrev S64x128 : Shape := ⟨2, ![64, 128]⟩
abbrev S8x4096x64 : Shape := ⟨3, ![8, 4096, 64]⟩
abbrev S8x4096x32 : Shape := ⟨3, ![8, 4096, 32]⟩
abbrev S8x4096x16x2 : Shape := ⟨4, ![8, 4096, 16, 2]⟩
abbrev S8x4096x16x1 : Shape := ⟨4, ![8, 4096, 16, 1]⟩
abbrev S8x4096x16 : Shape := ⟨3, ![8, 4096, 16]⟩
abbrev S4096x16x1 : Shape := ⟨3, ![4096, 16, 1]⟩
abbrev S4096x16 : Shape := ⟨2, ![4096, 16]⟩
abbrev S1x4096x16 : Shape := ⟨3, ![1, 4096, 16]⟩
abbrev S8x2048x64 : Shape := ⟨3, ![8, 2048, 64]⟩
abbrev S8x2048x32x2 : Shape := ⟨4, ![8, 2048, 32, 2]⟩
abbrev S8x2048x32x1 : Shape := ⟨4, ![8, 2048, 32, 1]⟩
abbrev S8x2048x32 : Shape := ⟨3, ![8, 2048, 32]⟩
abbrev S2048x32x1 : Shape := ⟨3, ![2048, 32, 1]⟩
abbrev S2048x32 : Shape := ⟨2, ![2048, 32]⟩
abbrev S1x2048x32 : Shape := ⟨3, ![1, 2048, 32]⟩
abbrev S8x2048x4096 : Shape := ⟨3, ![8, 2048, 4096]⟩
abbrev S_ : Shape := ⟨0, ![]⟩
abbrev S8x2048x1 : Shape := ⟨3, ![8, 2048, 1]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x2048x128, .f32⟩
  | .hbm, ⟨2, _⟩ => ⟨S8x2048, .i32⟩
  | .hbm, ⟨3, _⟩ => ⟨S2048x32x2, .f32⟩
  | .hbm, ⟨4, _⟩ => ⟨S4096x16x2, .f32⟩
  | .hbm, ⟨5, _⟩ => ⟨S4096x16x2, .f32⟩
  | .hbm, ⟨6, _⟩ => ⟨S64x512, .f32⟩
  | .hbm, ⟨7, _⟩ => ⟨S64x128, .f32⟩
  | .hbm, ⟨8, _⟩ => ⟨S64x512, .f32⟩
  | .hbm, ⟨9, _⟩ => ⟨S8x4096x64, .f32⟩
  | .hbm, ⟨10, _⟩ => ⟨S8x4096x32, .f32⟩
  | .hbm, ⟨11, _⟩ => ⟨S8x4096x32, .f32⟩
  | .hbm, ⟨12, _⟩ => ⟨S8x4096x16x2, .f32⟩
  | .hbm, ⟨13, _⟩ => ⟨S8x4096x16x1, .f32⟩
  | .hbm, ⟨14, _⟩ => ⟨S8x4096x16, .f32⟩
  | .hbm, ⟨15, _⟩ => ⟨S8x4096x16x1, .f32⟩
  | .hbm, ⟨16, _⟩ => ⟨S8x4096x16, .f32⟩
  | .hbm, ⟨17, _⟩ => ⟨S4096x16x1, .f32⟩
  | .hbm, ⟨18, _⟩ => ⟨S4096x16, .f32⟩
  | .hbm, ⟨19, _⟩ => ⟨S1x4096x16, .f32⟩
  | .hbm, ⟨20, _⟩ => ⟨S4096x16x1, .f32⟩
  | .hbm, ⟨21, _⟩ => ⟨S4096x16, .f32⟩
  | .hbm, ⟨22, _⟩ => ⟨S1x4096x16, .f32⟩
  | .hbm, ⟨23, _⟩ => ⟨S8x4096x16, .f32⟩
  | .hbm, ⟨24, _⟩ => ⟨S8x4096x16, .f32⟩
  | .hbm, ⟨25, _⟩ => ⟨S8x4096x16, .f32⟩
  | .hbm, ⟨26, _⟩ => ⟨S8x4096x16, .f32⟩
  | .hbm, ⟨27, _⟩ => ⟨S8x4096x16, .f32⟩
  | .hbm, ⟨28, _⟩ => ⟨S8x4096x16, .f32⟩
  | .hbm, ⟨29, _⟩ => ⟨S8x4096x16, .f32⟩
  | .hbm, ⟨30, _⟩ => ⟨S8x4096x16, .f32⟩
  | .hbm, ⟨31, _⟩ => ⟨S8x4096x16, .f32⟩
  | .hbm, ⟨32, _⟩ => ⟨S8x4096x16, .f32⟩
  | .hbm, ⟨33, _⟩ => ⟨S8x4096x16x1, .f32⟩
  | .hbm, ⟨34, _⟩ => ⟨S8x4096x16x1, .f32⟩
  | .hbm, ⟨35, _⟩ => ⟨S8x4096x16x2, .f32⟩
  | .hbm, ⟨36, _⟩ => ⟨S8x4096x32, .f32⟩
  | .hbm, ⟨37, _⟩ => ⟨S8x4096x16x2, .f32⟩
  | .hbm, ⟨38, _⟩ => ⟨S8x4096x16x1, .f32⟩
  | .hbm, ⟨39, _⟩ => ⟨S8x4096x16, .f32⟩
  | .hbm, ⟨40, _⟩ => ⟨S8x4096x16x1, .f32⟩
  | .hbm, ⟨41, _⟩ => ⟨S8x4096x16, .f32⟩
  | .hbm, ⟨42, _⟩ => ⟨S4096x16x1, .f32⟩
  | .hbm, ⟨43, _⟩ => ⟨S4096x16, .f32⟩
  | .hbm, ⟨44, _⟩ => ⟨S1x4096x16, .f32⟩
  | .hbm, ⟨45, _⟩ => ⟨S4096x16x1, .f32⟩
  | .hbm, ⟨46, _⟩ => ⟨S4096x16, .f32⟩
  | .hbm, ⟨47, _⟩ => ⟨S1x4096x16, .f32⟩
  | .hbm, ⟨48, _⟩ => ⟨S8x4096x16, .f32⟩
  | .hbm, ⟨49, _⟩ => ⟨S8x4096x16, .f32⟩
  | .hbm, ⟨50, _⟩ => ⟨S8x4096x16, .f32⟩
  | .hbm, ⟨51, _⟩ => ⟨S8x4096x16, .f32⟩
  | .hbm, ⟨52, _⟩ => ⟨S8x4096x16, .f32⟩
  | .hbm, ⟨53, _⟩ => ⟨S8x4096x16, .f32⟩
  | .hbm, ⟨54, _⟩ => ⟨S8x4096x16, .f32⟩
  | .hbm, ⟨55, _⟩ => ⟨S8x4096x16, .f32⟩
  | .hbm, ⟨56, _⟩ => ⟨S8x4096x16, .f32⟩
  | .hbm, ⟨57, _⟩ => ⟨S8x4096x16, .f32⟩
  | .hbm, ⟨58, _⟩ => ⟨S8x4096x16x1, .f32⟩
  | .hbm, ⟨59, _⟩ => ⟨S8x4096x16x1, .f32⟩
  | .hbm, ⟨60, _⟩ => ⟨S8x4096x16x2, .f32⟩
  | .hbm, ⟨61, _⟩ => ⟨S8x4096x32, .f32⟩
  | .hbm, ⟨62, _⟩ => ⟨S8x4096x64, .f32⟩
  | .hbm, ⟨63, _⟩ => ⟨S8x2048x64, .f32⟩
  | .hbm, ⟨64, _⟩ => ⟨S8x2048x32x2, .f32⟩
  | .hbm, ⟨65, _⟩ => ⟨S8x2048x32x1, .f32⟩
  | .hbm, ⟨66, _⟩ => ⟨S8x2048x32, .f32⟩
  | .hbm, ⟨67, _⟩ => ⟨S8x2048x32x1, .f32⟩
  | .hbm, ⟨68, _⟩ => ⟨S8x2048x32, .f32⟩
  | .hbm, ⟨69, _⟩ => ⟨S2048x32x1, .f32⟩
  | .hbm, ⟨70, _⟩ => ⟨S2048x32, .f32⟩
  | .hbm, ⟨71, _⟩ => ⟨S1x2048x32, .f32⟩
  | .hbm, ⟨72, _⟩ => ⟨S2048x32x1, .f32⟩
  | .hbm, ⟨73, _⟩ => ⟨S2048x32, .f32⟩
  | .hbm, ⟨74, _⟩ => ⟨S1x2048x32, .f32⟩
  | .hbm, ⟨75, _⟩ => ⟨S8x2048x32, .f32⟩
  | .hbm, ⟨76, _⟩ => ⟨S8x2048x32, .f32⟩
  | .hbm, ⟨77, _⟩ => ⟨S8x2048x32, .f32⟩
  | .hbm, ⟨78, _⟩ => ⟨S8x2048x32, .f32⟩
  | .hbm, ⟨79, _⟩ => ⟨S8x2048x32, .f32⟩
  | .hbm, ⟨80, _⟩ => ⟨S8x2048x32, .f32⟩
  | .hbm, ⟨81, _⟩ => ⟨S8x2048x32, .f32⟩
  | .hbm, ⟨82, _⟩ => ⟨S8x2048x32, .f32⟩
  | .hbm, ⟨83, _⟩ => ⟨S8x2048x32, .f32⟩
  | .hbm, ⟨84, _⟩ => ⟨S8x2048x32, .f32⟩
  | .hbm, ⟨85, _⟩ => ⟨S8x2048x32x1, .f32⟩
  | .hbm, ⟨86, _⟩ => ⟨S8x2048x32x1, .f32⟩
  | .hbm, ⟨87, _⟩ => ⟨S8x2048x32x2, .f32⟩
  | .hbm, ⟨88, _⟩ => ⟨S8x2048x64, .f32⟩
  | .hbm, ⟨89, _⟩ => ⟨S8x4096x64, .f32⟩
  | .hbm, ⟨90, _⟩ => ⟨S8x2048x4096, .f32⟩
  | .hbm, ⟨91, _⟩ => ⟨S_, .f32⟩
  | .hbm, ⟨92, _⟩ => ⟨S8x2048x4096, .f32⟩
  | .hbm, ⟨93, _⟩ => ⟨S8x2048x4096, .f32⟩
  | .hbm, ⟨94, _⟩ => ⟨S_, .f32⟩
  | .hbm, ⟨95, _⟩ => ⟨S8x2048, .f32⟩
  | .hbm, ⟨96, _⟩ => ⟨S_, .f32⟩
  | .hbm, ⟨97, _⟩ => ⟨S8x2048, .f32⟩
  | .hbm, ⟨98, _⟩ => ⟨S8x2048, .f32⟩
  | .hbm, ⟨99, _⟩ => ⟨S8x2048x1, .f32⟩
  | .hbm, ⟨100, _⟩ => ⟨S8x2048x4096, .f32⟩
  | .hbm, ⟨101, _⟩ => ⟨S8x2048x4096, .f32⟩
  | .hbm, ⟨102, _⟩ => ⟨S8x2048x4096, .f32⟩
  | .hbm, ⟨103, _⟩ => ⟨S_, .f32⟩
  | .hbm, ⟨104, _⟩ => ⟨S8x2048, .f32⟩
  | .hbm, ⟨105, _⟩ => ⟨S8x2048x1, .f32⟩
  | .hbm, ⟨106, _⟩ => ⟨S8x2048x4096, .f32⟩
  | .hbm, ⟨107, _⟩ => ⟨S8x2048x4096, .f32⟩
  | .hbm, ⟨108, _⟩ => ⟨S8x2048x64, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst : Ref sig .tc := ⟨.hbm, 91, rfl⟩
abbrev main_v82 : Ref sig .tc := ⟨.hbm, 92, rfl⟩
abbrev main_v83 : Ref sig .tc := ⟨.hbm, 93, rfl⟩
abbrev main_cst_0 : Ref sig .tc := ⟨.hbm, 94, rfl⟩
abbrev main_v84 : Ref sig .tc := ⟨.hbm, 95, rfl⟩
abbrev main_cst_1 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_2 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]

class Facts₀ : Prop where
  slices_S8x4096x64_S8x4096x32_0_0_0 : S8x4096x64.Slices ![0, 0, 0] S8x4096x32
  slices_S8x4096x64_S8x4096x32_0_0_32 : S8x4096x64.Slices ![0, 0, 32] S8x4096x32
  shapeCasts_S8x4096x32_S8x4096x16x2 : S8x4096x32.ShapeCasts S8x4096x16x2
  slices_S8x4096x16x2_S8x4096x16x1_0_0_0_0 : S8x4096x16x2.Slices ![0, 0, 0, 0] S8x4096x16x1
  shapeCasts_S8x4096x16x1_S8x4096x16 : S8x4096x16x1.ShapeCasts S8x4096x16
  slices_S8x4096x16x2_S8x4096x16x1_0_0_0_1 : S8x4096x16x2.Slices ![0, 0, 0, 1] S8x4096x16x1
  slices_S4096x16x2_S4096x16x1_0_0_0 : S4096x16x2.Slices ![0, 0, 0] S4096x16x1
  shapeCasts_S4096x16x1_S4096x16 : S4096x16x1.ShapeCasts S4096x16
  bcast_S4096x16_S1x4096x16_1_2 : S4096x16.BroadcastsInDim S1x4096x16 (![1, 2] : Fin 2 → Fin S1x4096x16.rank)
  slices_S4096x16x2_S4096x16x1_0_0_1 : S4096x16x2.Slices ![0, 0, 1] S4096x16x1
  bcast_S1x4096x16_S8x4096x16_0_1_2 : S1x4096x16.BroadcastsInDim S8x4096x16 (![0, 1, 2] : Fin 3 → Fin S8x4096x16.rank)
  bcast_S8x4096x16_S8x4096x16x1_0_1_2 : S8x4096x16.BroadcastsInDim S8x4096x16x1 (![0, 1, 2] : Fin 3 → Fin S8x4096x16x1.rank)
  concatenates_S8x4096x16x1_S8x4096x16x1_S8x4096x16x2_d3 : Shape.Concatenates [S8x4096x16x1, S8x4096x16x1] S8x4096x16x2 3
  shapeCasts_S8x4096x16x2_S8x4096x32 : S8x4096x16x2.ShapeCasts S8x4096x32
  concatenates_S8x4096x32_S8x4096x32_S8x4096x64_d2 : Shape.Concatenates [S8x4096x32, S8x4096x32] S8x4096x64 2
  shapeCasts_S8x2048x64_S8x2048x32x2 : S8x2048x64.ShapeCasts S8x2048x32x2
  slices_S8x2048x32x2_S8x2048x32x1_0_0_0_0 : S8x2048x32x2.Slices ![0, 0, 0, 0] S8x2048x32x1
  shapeCasts_S8x2048x32x1_S8x2048x32 : S8x2048x32x1.ShapeCasts S8x2048x32
  slices_S8x2048x32x2_S8x2048x32x1_0_0_0_1 : S8x2048x32x2.Slices ![0, 0, 0, 1] S8x2048x32x1
  slices_S2048x32x2_S2048x32x1_0_0_0 : S2048x32x2.Slices ![0, 0, 0] S2048x32x1
  shapeCasts_S2048x32x1_S2048x32 : S2048x32x1.ShapeCasts S2048x32
  bcast_S2048x32_S1x2048x32_1_2 : S2048x32.BroadcastsInDim S1x2048x32 (![1, 2] : Fin 2 → Fin S1x2048x32.rank)
  slices_S2048x32x2_S2048x32x1_0_0_1 : S2048x32x2.Slices ![0, 0, 1] S2048x32x1
  bcast_S1x2048x32_S8x2048x32_0_1_2 : S1x2048x32.BroadcastsInDim S8x2048x32 (![0, 1, 2] : Fin 3 → Fin S8x2048x32.rank)
  bcast_S8x2048x32_S8x2048x32x1_0_1_2 : S8x2048x32.BroadcastsInDim S8x2048x32x1 (![0, 1, 2] : Fin 3 → Fin S8x2048x32x1.rank)
  concatenates_S8x2048x32x1_S8x2048x32x1_S8x2048x32x2_d3 : Shape.Concatenates [S8x2048x32x1, S8x2048x32x1] S8x2048x32x2 3
  shapeCasts_S8x2048x32x2_S8x2048x64 : S8x2048x32x2.ShapeCasts S8x2048x64
  bcast_S_S8x2048x4096 : S_.BroadcastsInDim S8x2048x4096 (![] : Fin 0 → Fin S8x2048x4096.rank)
  reducesTo_S8x2048x4096_S8x2048_d2 : S8x2048x4096.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x4096x512_S64x512_S8x4096x64_2_1_01_0_n_n_wf : DotDims.WF S8x4096x512 S64x512 S8x4096x64 [2] [1] [0, 1] [0] [] []
  dot_S8x2048x128_S64x128_S8x2048x64_2_1_01_0_n_n_wf : DotDims.WF S8x2048x128 S64x128 S8x2048x64 [2] [1] [0, 1] [0] [] []
  dot_S8x2048x64_S8x4096x64_S8x2048x4096_2_2_1_1_0_0_wf : DotDims.WF S8x2048x64 S8x4096x64 S8x2048x4096 [2] [2] [1] [1] [0] [0]
  dot_S8x2048x4096_S8x4096x64_S8x2048x64_2_1_1_2_0_0_wf : DotDims.WF S8x2048x4096 S8x4096x64 S8x2048x64 [2] [1] [1] [2] [0] [0]

variable [Facts₀]

def dot_S8x4096x512_S64x512_S8x4096x64_2_1_01_0_n_n : DotDims S8x4096x512 S64x512 S8x4096x64 where
  lhsContracting := [2]
  rhsContracting := [1]
  lhsNonContracting := [0, 1]
  rhsNonContracting := [0]
  lhsBatch := []
  rhsBatch := []
  wf := dot_S8x4096x512_S64x512_S8x4096x64_2_1_01_0_n_n_wf
def dot_S8x2048x128_S64x128_S8x2048x64_2_1_01_0_n_n : DotDims S8x2048x128 S64x128 S8x2048x64 where
  lhsContracting := [2]
  rhsContracting := [1]
  lhsNonContracting := [0, 1]
  rhsNonContracting := [0]
  lhsBatch := []
  rhsBatch := []
  wf := dot_S8x2048x128_S64x128_S8x2048x64_2_1_01_0_n_n_wf
def dot_S8x2048x64_S8x4096x64_S8x2048x4096_2_2_1_1_0_0 : DotDims S8x2048x64 S8x4096x64 S8x2048x4096 where
  lhsContracting := [2]
  rhsContracting := [2]
  lhsNonContracting := [1]
  rhsNonContracting := [1]
  lhsBatch := [0]
  rhsBatch := [0]
  wf := dot_S8x2048x64_S8x4096x64_S8x2048x4096_2_2_1_1_0_0_wf
def dot_S8x2048x4096_S8x4096x64_S8x2048x64_2_1_1_2_0_0 : DotDims S8x2048x4096 S8x4096x64 S8x2048x64 where
  lhsContracting := [2]
  rhsContracting := [1]
  lhsNonContracting := [1]
  rhsNonContracting := [2]
  lhsBatch := [0]
  rhsBatch := [0]
  wf := dot_S8x2048x4096_S8x4096x64_S8x2048x64_2_1_1_2_0_0_wf

class Facts : Prop extends Facts₀ where

variable [Facts]
-- ==== Proof.KernelRun.lean ====
/-
  The idealized kernel's run with its result named. Every weakly fair execution of the three regions, after the host
  operations that spread the cosine and sine tables to the lanes, terminates without a fault; the nine argument arrays
  end as launched, and the result array ends at what the third region's write-backs leave: the fold of its grid
  points' output blocks over the array as that region found it.
-/
import proofs.«127364_j36429912605016_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result buffer after the last region is the third pipeline's output array after all its points. -/
theorem result_after (c : Dev nD) :
    W4 m ρ c (Proc.devRef .tc main_v28) = (dat2 (V3 m ρ) c).arrAt 3 cfg2.N :=
  W4_arr m ρ c 3

set_option backward.isDefEq.respectTransparency.types false in
/-- Every weakly fair execution terminates without a fault, and every buffer that outlives the regions ends at the
    contents the last segment boundary names: the launch memory folded through the host operations and, region by
    region, through each pipeline's write-backs. (The library's theorem for a program of host stretches and regions,
    over the generated segments; the launch and the final read are the ones any such program has.) -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c b hb)

/-- The run with the result named: the result array ends at the third pipeline's output after all its points, and the
    nine argument arrays end as launched (no host operation and no region writes an argument). -/
theorem run : θ_run defs (onTc (τ := τ) (main (F := F))) ⟨m, fun _ => 0, ρ⟩ (fun r => ∀ c : Dev nD,
      r.2.mem ((c.tc : Thread nD τ).loc main_v28) = (dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨(h c _ (mem_uc main_v28 (by decide))).trans (result_after m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_buffers m ρ)

end Cert.KernelIdeal.RunValue

end
-- ==== Proof.Spec.lean ====
/-
  The function both programs compute, stated once over plain coordinates and the extended reals; no program is
  mentioned here.

  Inputs, as functions of their coordinates: the image tokens `xi b t c` (8 × 4096 × 512), the text tokens
  `xt b s c` (8 × 2048 × 128), the three weight matrices `wk h c`, `wv h c` (64 × 512) and `wq h c` (64 × 128),
  and three tables of (cosine, sine) pairs: `fl s i p` (2048 × 32 × 2) for the text positions and `fx t i p`,
  `fy t i p` (4096 × 16 × 2) for the two halves of a key row.

  * A projection is a row of the input against each row of the weights: `proj x w b t h = ∑ c, x b t c · w h c`.
  * A row of 64 entries is read as 32 adjacent (even, odd) pairs and each pair (a, b) is turned by the angle whose
    cosine and sine the table gives for that pair: (a, b) ↦ (a·cos − b·sin, a·sin + b·cos). The key rows take the
    first 16 pairs from `fx` and the last 16 from `fy`.
  * The score of text position `s` against image position `t` is the inner product of the turned query and key rows
    over the 64 lanes, times the reciprocal of the scale.
  * Each row of scores is shifted by its maximum, exponentiated and divided by the row's sum; the result weights the
    value rows.
-/
import Idealize.ShloMosaic.PureOps.Ideal
import Idealize.ShloMosaic.Lib.ValueIdx
import Mathlib.Algebra.BigOperators.Fin

noncomputable section

namespace Cert.Attn

open Idealize.ShloMosaic

/-- An array of rank two as a function of its two coordinates. -/
abbrev c2 {n0 n1 : Nat} (x : (⟨2, ![n0, n1]⟩ : Shape).Idx → EReal) : Fin n0 → Fin n1 → EReal :=
  fun a b => x (ValueIdx.ix2 a b)
/-- An array of rank three as a function of its three coordinates. -/
abbrev c3 {n0 n1 n2 : Nat} (x : (⟨3, ![n0, n1, n2]⟩ : Shape).Idx → EReal) : Fin n0 → Fin n1 → Fin n2 → EReal :=
  fun a b c => x (ValueIdx.ix3 a b c)

/-- The pair a lane belongs to. -/
def half (h : Fin 64) : Fin 32 := ⟨h.val / 2, by omega⟩
/-- The next lane, around the end. On an even lane this is the other member of its pair. -/
def next (h : Fin 64) : Fin 64 := ⟨(h.val + 1) % 64, Nat.mod_lt _ (by decide)⟩
/-- The previous lane, around the end. On an odd lane this is the other member of its pair. -/
def prev (h : Fin 64) : Fin 64 := ⟨(h.val + 63) % 64, Nat.mod_lt _ (by decide)⟩

/-- A row against each row of the weights. -/
def proj {B T C : Nat} (x : Fin B → Fin T → Fin C → EReal) (w : Fin 64 → Fin C → EReal)
    (b : Fin B) (t : Fin T) (h : Fin 64) : EReal :=
  ∑ c : Fin C, x b t c * w h c

/-- Each (even, odd) pair (a, b) of the row `k` turned by the pair's angle: the even lane holds a·cos − b·sin, the
    odd lane a·sin + b·cos. -/
def turn (k : Fin 64 → EReal) (cs sn : Fin 32 → EReal) (h : Fin 64) : EReal :=
  if h.val % 2 = 0 then k h * cs (half h) - k (next h) * sn (half h)
  else k (prev h) * sn (half h) + k h * cs (half h)

/-- The same turn spelt lane by lane over tables already spread to the 64 lanes (both lanes of a pair holding the
    pair's cosine, or sine): the row times the cosines, plus the row with the members of each pair exchanged, the
    even lanes negated, times the sines. -/
def laneTurn (k cs sn : Fin 64 → EReal) (h : Fin 64) : EReal :=
  k h * cs h + ((if h.val % 2 = 0 then k (next h) else k (prev h)) * (if h.val % 2 = 0 then (-1 : EReal) else 1)) * sn h

/-- The key rows' table: pairs 0–15 from `fx`, pairs 16–31 from `fy`; `p = 0` the cosine, `p = 1` the sine. -/
def keyTable (fx fy : Fin 4096 → Fin 16 → Fin 2 → EReal) (p : Fin 2) (t : Fin 4096) (i : Fin 32) : EReal :=
  if hi : i.val < 16 then fx t ⟨i.val, hi⟩ p else fy t ⟨i.val - 16, by omega⟩ p

/-- The turned key rows. -/
def keys (xi : Fin 8 → Fin 4096 → Fin 512 → EReal) (wk : Fin 64 → Fin 512 → EReal)
    (fx fy : Fin 4096 → Fin 16 → Fin 2 → EReal) (b : Fin 8) (t : Fin 4096) (h : Fin 64) : EReal :=
  turn (proj xi wk b t) (keyTable fx fy 0 t) (keyTable fx fy 1 t) h

/-- The value rows. -/
def vals (xi : Fin 8 → Fin 4096 → Fin 512 → EReal) (wv : Fin 64 → Fin 512 → EReal)
    (b : Fin 8) (t : Fin 4096) (h : Fin 64) : EReal :=
  proj xi wv b t h

/-- The turned query rows. -/
def queries (xt : Fin 8 → Fin 2048 → Fin 128 → EReal) (wq : Fin 64 → Fin 128 → EReal)
    (fl : Fin 2048 → Fin 32 → Fin 2 → EReal) (b : Fin 8) (s : Fin 2048) (h : Fin 64) : EReal :=
  turn (proj xt wq b s) (fun i => fl s i 0) (fun i => fl s i 1) h

/-- The reciprocal of the scale: one over the number the reference divides by. -/
def invScale : EReal := ((524288 / 11863283 : ℝ) : EReal)

/-- From turned queries, turned keys and values to the result: scaled scores, each row shifted by its maximum,
    exponentiated, normalised by its sum, and the value rows weighted by it. -/
def scores (Q : Fin 8 → Fin 2048 → Fin 64 → EReal) (K : Fin 8 → Fin 4096 → Fin 64 → EReal)
    (b : Fin 8) (s : Fin 2048) (t : Fin 4096) : EReal :=
  (∑ h : Fin 64, Q b s h * K b t h) * invScale

def rowMax (S : Fin 8 → Fin 2048 → Fin 4096 → EReal) (b : Fin 8) (s : Fin 2048) : EReal :=
  max ⊥ ((Finset.univ : Finset (Fin 4096)).fold max ⊥ (S b s))

def expo (S : Fin 8 → Fin 2048 → Fin 4096 → EReal) (b : Fin 8) (s : Fin 2048) (t : Fin 4096) : EReal :=
  Ideal.exp (S b s t - rowMax S b s)

def weights (S : Fin 8 → Fin 2048 → Fin 4096 → EReal) (b : Fin 8) (s : Fin 2048) (t : Fin 4096) : EReal :=
  Ideal.div (expo S b s t) (∑ u : Fin 4096, expo S b s u)

def attend (Q : Fin 8 → Fin 2048 → Fin 64 → EReal) (K V : Fin 8 → Fin 4096 → Fin 64 → EReal)
    (b : Fin 8) (s : Fin 2048) (h : Fin 64) : EReal :=
  ∑ t : Fin 4096, weights (scores Q K) b s t * V b t h

/-- The whole function of the nine inputs (the integer mask input takes no part). -/
def result (xi : Fin 8 → Fin 4096 → Fin 512 → EReal) (xt : Fin 8 → Fin 2048 → Fin 128 → EReal)
    (fl : Fin 2048 → Fin 32 → Fin 2 → EReal) (fx fy : Fin 4096 → Fin 16 → Fin 2 → EReal)
    (wk : Fin 64 → Fin 512 → EReal) (wq : Fin 64 → Fin 128 → EReal) (wv : Fin 64 → Fin 512 → EReal)
    (b : Fin 8) (s : Fin 2048) (h : Fin 64) : EReal :=
  attend (queries xt wq fl) (keys xi wk fx fy) (vals xi wv) b s h

end Cert.Attn

end
-- ==== Proof.Consts.lean ====
/-
  The float words the two programs spell, as the extended reals they denote: zero, one, minus one, minus infinity,
  and the reference's divisor 11863283 / 524288 (the binary value nearest the square root of 512).
-/
import Idealize.ShloMosaic.PureOps.Ideal

noncomputable section

namespace Cert.Attn.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

theorem ofBits_neg_inf : Ideal.ofBits .f32 0xFF800000#32 = ⊥ := by
  simp [Ideal.ofBits, Ideal.ieee]

/-- The reference's divisor: the word 0x41B504F3 is 11863283 · 2⁻¹⁹. -/
theorem ofBits_scale : Ideal.ofBits .f32 0x41B504F3#32 = ((11863283 / 524288 : ℝ) : EReal) := by
  simp [Ideal.ofBits, Ideal.ieee, -EReal.coe_mul]; norm_num

end Cert.Attn.Consts

end
-- ==== Proof.AttnPayload.lean ====
/-
  What the attention body computes from its three loaded blocks, read at an entry. For a block of 256 query rows
  against all 4096 key and value rows of one batch entry: the scores of row r are its inner products with the key
  rows over the 64 lanes, times the reciprocal of the scale; the row is shifted by its maximum, exponentiated and
  divided by its sum; entry (r, h) of the result is the weighted sum of the value rows' lane h. The body's operations
  are named one by one, each read at an index, and the composition is the specification's `attend` at that row.
-/
import proofs.«127364_j36429912605016_1_alg».proof.Proof.Gen.KernelIdeal.Skeleton
import proofs.«127364_j36429912605016_1_alg».proof.Proof.Spec
import proofs.«127364_j36429912605016_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.Attn.Payload

open Cert.KernelIdeal Cert.KernelIdeal.Gen Cert.Attn
open Idealize.ShloMosaic Idealize.ShloMosaic.ValueIdx

/-! ## Column layouts: a vector of row values as a column, and a column spread over the row -/

section Layout
variable {α : Type}

/-- A vector of `a` entries cast to a column reads, at (r, 0), entry r. -/
theorem col_cast {a : ℕ} (z : (⟨1, ![a]⟩ : Shape).Idx → α) (h : (⟨1, ![a]⟩ : Shape).ShapeCasts ⟨2, ![a, 1]⟩)
    (r : Fin a) (u : Fin 1) : shapeCast ⟨2, ![a, 1]⟩ z h (ix2 r u) = z (ix1 r) :=
  shapeCast_apply z h _ _ (by
    have hu : u.val = 0 := by omega
    rw [Shape.rowMajor_val_one, Shape.rowMajor_val_two]
    show r.val = r.val * 1 + u.val
    omega)

/-- A column spread over `b` lanes reads, at (r, t), the column's entry r. -/
theorem col_spread {a b : ℕ} (y : (⟨2, ![a, 1]⟩ : Shape).Idx → α) (h : (⟨2, ![a, 1]⟩ : Shape).Broadcasts ⟨2, ![a, b]⟩)
    (r : Fin a) (t : Fin b) : broadcastTo ⟨2, ![a, b]⟩ y h (ix2 r t) = y (ix2 r (0 : Fin 1)) := by
  refine broadcastTo_apply y h (ix2 r t) (ix2 r (0 : Fin 1)) fun ax => ?_
  match ax with
  | ⟨0, _⟩ =>
    show r.val = if a = 1 then 0 else r.val
    split
    · have := r.isLt; omega
    · rfl
  | ⟨1, _⟩ => rfl

end Layout

/-! ## The named reciprocal -/

/-- The body's scale constant denotes the reciprocal of the reference's divisor. -/
theorem named_inv : Named.named (F := Ideal) κ "inv_scale" (φ := .f32) 0x3D3504F3#32 = invScale :=
  IdealRules.named_const.ideal_named_scalar _ _ _ _ rfl

/-! ## The two products -/

/-- Where the two products read their operands on the axes that are not contracted. -/
theorem qk_lhs0 (i : S256x4096.Idx) (q : dot_S256x64_S4096x64_S256x4096_1_1_0_0_n_n.contr.Idx) : (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide), dif_pos (show (0 : Fin S256x64.rank) ∈ dot_S256x64_S4096x64_S256x4096_1_1_0_0_n_n.lhsNonContracting by decide)]
  rfl
theorem qk_rhs0 (i : S256x4096.Idx) (q : dot_S256x64_S4096x64_S256x4096_1_1_0_0_n_n.contr.Idx) : (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide), dif_pos (show (0 : Fin S4096x64.rank) ∈ dot_S256x64_S4096x64_S256x4096_1_1_0_0_n_n.rhsNonContracting by decide)]
  rfl
theorem pv_lhs0 (i : S256x64.Idx) (q : dot_S256x4096_S4096x64_S256x64_1_0_0_1_n_n.contr.Idx) : (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem pv_rhs1 (i : S256x64.Idx) (q : dot_S256x4096_S4096x64_S256x64_1_0_0_1_n_n.contr.Idx) : (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- A query row against a key row: the product into a zero accumulator, contracted over the lanes. -/
theorem qk_apply (q : FVec Ideal S256x64 .bf16) (k : FVec Ideal S4096x64 .bf16) (r : Fin 256) (t : Fin 4096) :
    matmul dot_S256x64_S4096x64_S256x4096_1_1_0_0_n_n none q k (constant S256x4096 .f32 0x00000000#32) (ix2 r t)
      = ∑ l : Fin 64, q (ix2 r l) * k (ix2 t l) := by
  simp only [matmul]
  rw [Ideal.matmul_constant_zero_apply, ← Equiv.sum_comp (contrEquiv1 dot_S256x64_S4096x64_S256x4096_1_1_0_0_n_n 64 rfl rfl).symm]
  refine Finset.sum_congr rfl fun l _ => ?_
  have hl := contrEquiv1_symm_val dot_S256x64_S4096x64_S256x4096_1_1_0_0_n_n 64 rfl rfl l
  have el : dot_S256x64_S4096x64_S256x4096_1_1_0_0_n_n.lhsIdx (ix2 r t) ((contrEquiv1 dot_S256x64_S4096x64_S256x4096_1_1_0_0_n_n 64 rfl rfl).symm l) = ix2 r l :=
    funext fun a => Fin.ext (by
      match a with
      | ⟨0, _⟩ => exact qk_lhs0 _ _
      | ⟨1, _⟩ => exact (dot_S256x64_S4096x64_S256x4096_1_1_0_0_n_n.lhsIdx_val_of_single rfl _ _).trans hl)
  have er : dot_S256x64_S4096x64_S256x4096_1_1_0_0_n_n.rhsIdx (ix2 r t) ((contrEquiv1 dot_S256x64_S4096x64_S256x4096_1_1_0_0_n_n 64 rfl rfl).symm l) = ix2 t l :=
    funext fun a => Fin.ext (by
      match a with
      | ⟨0, _⟩ => exact qk_rhs0 _ _
      | ⟨1, _⟩ => exact (dot_S256x64_S4096x64_S256x4096_1_1_0_0_n_n.rhsIdx_val_of_single rfl _ _).trans hl)
  rw [el, er]

/-- A row of weights against a lane of the value rows: contracted over the 4096 positions. -/
theorem pv_apply (p : FVec Ideal S256x4096 .bf16) (v : FVec Ideal S4096x64 .bf16) (r : Fin 256) (h : Fin 64) :
    matmul dot_S256x4096_S4096x64_S256x64_1_0_0_1_n_n none p v (constant S256x64 .f32 0x00000000#32) (ix2 r h)
      = ∑ t : Fin 4096, p (ix2 r t) * v (ix2 t h) := by
  simp only [matmul]
  rw [Ideal.matmul_constant_zero_apply, ← Equiv.sum_comp (contrEquiv1 dot_S256x4096_S4096x64_S256x64_1_0_0_1_n_n 4096 rfl rfl).symm]
  refine Finset.sum_congr rfl fun t _ => ?_
  have ht := contrEquiv1_symm_val dot_S256x4096_S4096x64_S256x64_1_0_0_1_n_n 4096 rfl rfl t
  have el : dot_S256x4096_S4096x64_S256x64_1_0_0_1_n_n.lhsIdx (ix2 r h) ((contrEquiv1 dot_S256x4096_S4096x64_S256x64_1_0_0_1_n_n 4096 rfl rfl).symm t) = ix2 r t :=
    funext fun a => Fin.ext (by
      match a with
      | ⟨0, _⟩ => exact pv_lhs0 _ _
      | ⟨1, _⟩ => exact (dot_S256x4096_S4096x64_S256x64_1_0_0_1_n_n.lhsIdx_val_of_single rfl _ _).trans ht)
  have er : dot_S256x4096_S4096x64_S256x64_1_0_0_1_n_n.rhsIdx (ix2 r h) ((contrEquiv1 dot_S256x4096_S4096x64_S256x64_1_0_0_1_n_n 4096 rfl rfl).symm t) = ix2 t h :=
    funext fun a => Fin.ext (by
      match a with
      | ⟨0, _⟩ => exact (dot_S256x4096_S4096x64_S256x64_1_0_0_1_n_n.rhsIdx_val_of_single rfl _ _).trans ht
      | ⟨1, _⟩ => exact pv_rhs1 _ _)
  rw [el, er]

/-! ## The two row reductions -/

/-- The maximum over a row, from minus infinity. -/
theorem rowmax_apply (x : FVec Ideal S256x4096 .f32) (hφ : FKind.Formats FTy.f32)
    (hacc : (0xFF800000#32 : BitVec FTy.f32.bits) = FKind.maximumf.neutral .f32 hφ) (r : Fin 256) :
    multiReduction .maximumf [1] S256 x 0xFF800000#32 reduces_S256x4096_S256 hφ hacc (ix1 r)
      = (Finset.univ : Finset (Fin 4096)).fold max ⊥ (fun t => x (ix2 r t)) := by
  refine (Ideal.multiReduction_maximumf_single x 0xFF800000#32 reduces_S256x4096_S256 hφ hacc (ix1 r)).trans ?_
  show (Finset.univ : Finset (Fin 4096)).fold max (Ideal.ofBits .f32 0xFF800000#32) (x ∘ reduces_S256x4096_S256.lift (ix1 r)) = _
  rw [Consts.ofBits_neg_inf]
  refine congrArg (fun f => (Finset.univ : Finset (Fin 4096)).fold max ⊥ f) (funext fun t => ?_)
  show x (reduces_S256x4096_S256.lift (ix1 r) t) = x (ix2 r t)
  exact congrArg x (funext fun a => Fin.ext (by match a with | ⟨0, _⟩ => rfl | ⟨1, _⟩ => rfl))

/-- The sum over a row. -/
theorem rowsum_apply (x : FVec Ideal S256x4096 .f32) (hφ : FKind.Formats FTy.f32)
    (hacc : (0x00000000#32 : BitVec FTy.f32.bits) = FKind.add.neutral .f32 hφ) (r : Fin 256) :
    multiReduction .add [1] S256 x 0x00000000#32 reduces_S256x4096_S256 hφ hacc (ix1 r)
      = ∑ t : Fin 4096, x (ix2 r t) := by
  refine (Ideal.multiReduction_add_single x 0x00000000#32 reduces_S256x4096_S256 hφ hacc (ix1 r)).trans ?_
  show ∑ t : Fin 4096, x (reduces_S256x4096_S256.lift (ix1 r) t) = _
  refine Finset.sum_congr rfl fun t _ => ?_
  exact congrArg x (funext fun a => Fin.ext (by match a with | ⟨0, _⟩ => rfl | ⟨1, _⟩ => rfl))

/-! ## The body's values, named one by one -/

/-- The scaled scores of the block. -/
def sc (q : FVec Ideal S1x256x64 .bf16) (k : FVec Ideal S1x4096x64 .bf16) : FVec Ideal S256x4096 .f32 :=
  mulf (matmul dot_S256x64_S4096x64_S256x4096_1_1_0_0_n_n none (shapeCast S256x64 q shapeCasts_S1x256x64_S256x64)
      (shapeCast S4096x64 k shapeCasts_S1x4096x64_S4096x64) (constant S256x4096 .f32 0x00000000#32))
    (broadcast S256x4096 (Named.named κ "inv_scale" 0x3D3504F3#32))

/-- Each row's maximum (from minus infinity), spread over the row. -/
def mx (x : FVec Ideal S256x4096 .f32) : FVec Ideal S256x4096 .f32 :=
  broadcastTo S256x4096 (shapeCast S256x1 (maximumf (broadcast S256 (Scalar.ofBits .f32 0xFF800000#32))
      (multiReduction .maximumf [1] S256 x 0xFF800000#32 reduces_S256x4096_S256 (.inl rfl) rfl)) shapeCasts_S256_S256x1)
    broadcasts_S256x1_S256x4096

/-- The exponentials of the rows shifted by their maxima. -/
def ex (x : FVec Ideal S256x4096 .f32) : FVec Ideal S256x4096 .f32 := exp (subf x (mx x))

/-- Each row's sum, spread over the row. -/
def sm (e : FVec Ideal S256x4096 .f32) : FVec Ideal S256x4096 .f32 :=
  broadcastTo S256x4096 (shapeCast S256x1 (multiReduction .add [1] S256 e 0x00000000#32 reduces_S256x4096_S256 (.inl rfl) rfl)
      shapeCasts_S256_S256x1) broadcasts_S256x1_S256x4096

/-- The normalised weights. -/
def wt (x : FVec Ideal S256x4096 .f32) : FVec Ideal S256x4096 .bf16 :=
  truncf .bf16 (divf (ex x) (sm (ex x))) bitsLt_bf16_f32

/-- The block of the result. -/
def outp (q : FVec Ideal S1x256x64 .bf16) (k v : FVec Ideal S1x4096x64 .bf16) : FVec Ideal S1x256x64 .f32 :=
  shapeCast S1x256x64 (matmul dot_S256x4096_S4096x64_S256x64_1_0_0_1_n_n none (wt (sc q k))
      (shapeCast S4096x64 v shapeCasts_S1x4096x64_S4096x64) (constant S256x64 .f32 0x00000000#32)) shapeCasts_S256x64_S1x256x64

/-- The body's one store writes exactly this composition. -/
theorem pay_eq (q : FVec Ideal S1x256x64 .bf16) (k v : FVec Ideal S1x4096x64 .bf16) : k2_pay1 (F := Ideal) q k v = outp q k v := rfl

/-! ## Each of them at an index -/

theorem sc_apply (q : FVec Ideal S1x256x64 .bf16) (k : FVec Ideal S1x4096x64 .bf16) (r : Fin 256) (t : Fin 4096) :
    sc q k (ix2 r t) = (∑ l : Fin 64, q (ix3 (0 : Fin 1) r l) * k (ix3 (0 : Fin 1) t l)) * invScale := by
  unfold sc
  rw [mulf_apply, broadcast_apply, named_inv, qk_apply]
  refine congrArg (· * invScale) (Finset.sum_congr rfl fun l _ => ?_)
  rw [shapeCast_1ab_ab_apply, shapeCast_1ab_ab_apply]

theorem mx_apply (x : FVec Ideal S256x4096 .f32) (r : Fin 256) (t : Fin 4096) :
    mx x (ix2 r t) = max ⊥ ((Finset.univ : Finset (Fin 4096)).fold max ⊥ (fun u => x (ix2 r u))) := by
  unfold mx
  rw [col_spread, col_cast, maximumf_apply, broadcast_apply]
  refine congrArg₂ max ?_ (rowmax_apply x _ _ r)
  show Ideal.ofBits .f32 0xFF800000#32 = ⊥
  exact Consts.ofBits_neg_inf

theorem ex_apply (x : FVec Ideal S256x4096 .f32) (r : Fin 256) (t : Fin 4096) :
    ex x (ix2 r t) = Ideal.exp (x (ix2 r t) - mx x (ix2 r t)) := rfl

theorem sm_apply (e : FVec Ideal S256x4096 .f32) (r : Fin 256) (t : Fin 4096) :
    sm e (ix2 r t) = ∑ u : Fin 4096, e (ix2 r u) := by
  unfold sm
  rw [col_spread, col_cast]
  exact rowsum_apply e _ _ r

theorem wt_apply (x : FVec Ideal S256x4096 .f32) (r : Fin 256) (t : Fin 4096) :
    wt x (ix2 r t) = Ideal.div (ex x (ix2 r t)) (sm (ex x) (ix2 r t)) := rfl

theorem outp_apply (q : FVec Ideal S1x256x64 .bf16) (k v : FVec Ideal S1x4096x64 .bf16) (r : Fin 256) (h : Fin 64) :
    outp q k v (ix3 (0 : Fin 1) r h) = ∑ t : Fin 4096, wt (sc q k) (ix2 r t) * v (ix3 (0 : Fin 1) t h) := by
  unfold outp
  rw [shapeCast_ab_1ab_apply, pv_apply]
  refine Finset.sum_congr rfl fun t _ => ?_
  rw [shapeCast_1ab_ab_apply]

/-! ## The composition is the specification at the row -/

/-- Entry (r, h) of the block the body stores is `attend` of the loaded query row r against the loaded key and value
    rows (the batch and row coordinates of `attend` play no part when its arguments do not depend on them). -/
theorem payload_apply (q : FVec Ideal S1x256x64 .bf16) (k v : FVec Ideal S1x4096x64 .bf16) (r : Fin 256) (h : Fin 64) :
    k2_pay1 (F := Ideal) q k v (ix3 (0 : Fin 1) r h)
      = attend (fun _ _ l => q (ix3 (0 : Fin 1) r l)) (fun _ t l => k (ix3 (0 : Fin 1) t l))
          (fun _ t l => v (ix3 (0 : Fin 1) t l)) 0 0 h := by
  rw [pay_eq, outp_apply]
  unfold attend
  refine Finset.sum_congr rfl fun t _ => ?_
  refine congrArg (· * v (ix3 (0 : Fin 1) t h)) ?_
  simp only [wt_apply, sm_apply, ex_apply, mx_apply, sc_apply, weights, expo, rowMax, scores]
  rfl

end Cert.Attn.Payload

end
-- ==== Proof.SpecLaws.lean ====
/-
  The attention step reads its three arguments only at one query row and at one batch entry's key and value rows, so
  two applications agree as soon as those rows agree.
-/
import proofs.«127364_j36429912605016_1_alg».proof.Proof.Spec

noncomputable section

namespace Cert.Attn

theorem attend_congr {Q Q' : Fin 8 → Fin 2048 → Fin 64 → EReal} {K K' V V' : Fin 8 → Fin 4096 → Fin 64 → EReal}
    {b b' : Fin 8} {s s' : Fin 2048} {h h' : Fin 64}
    (hQ : ∀ l, Q b s l = Q' b' s' l) (hK : ∀ t l, K b t l = K' b' t l) (hV : ∀ t l, V b t l = V' b' t l)
    (hh : h = h') : attend Q K V b s h = attend Q' K' V' b' s' h' := by
  subst hh
  unfold attend weights expo rowMax scores
  simp only [hQ, hK, hV]

end Cert.Attn

end
-- ==== Proof.Region2.lean ====
/-
  The third region's result array. Its grid is 8 batch entries by 8 blocks of 256 query rows; point (b, j) reads rows
  256·j … 256·j + 255 of batch entry b of the turned queries and all 4096 rows of that entry's turned keys and values,
  and writes back rows 256·j … of entry b of the result. Each written block is the restriction of one function of the
  three arrays as the region finds them — the specification's `attend` — and the 64 blocks tile the result, so the
  array ends at that function.
-/
import proofs.«127364_j36429912605016_1_alg».proof.Proof.Gen.KernelIdeal.Frame
import proofs.«127364_j36429912605016_1_alg».proof.Proof.AttnPayload
import proofs.«127364_j36429912605016_1_alg».proof.Proof.SpecLaws

set_option maxRecDepth 16384

noncomputable section

namespace Cert.Attn.Region2

open Cert.KernelIdeal Cert.KernelIdeal.Gen Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The function the result array ends at: `attend` of the three arrays the region finds. -/
def G (c : Dev nD) : S8x2048x64.Idx → EReal := fun i =>
  attend (c3 (n0 := 8) (n1 := 2048) (n2 := 64) (V c main_v27)) (c3 (n0 := 8) (n1 := 4096) (n2 := 64) (V c main_v26_0))
    (c3 (n0 := 8) (n1 := 4096) (n2 := 64) (V c main_v26_1)) (i 0) (i 1) (i 2)

/-- The printed index maps over the grid: the query and result windows move together over (batch entry, row block);
    the key and value windows follow the batch entry only. -/
theorem idx_facts : ∀ t : Fin cfg2.N,
    win2_0.index t (0 : Fin 3) = win2_3.index t (0 : Fin 3) ∧ win2_0.index t (1 : Fin 3) = win2_3.index t (1 : Fin 3)
    ∧ win2_0.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 3) = win2_3.index t (0 : Fin 3) ∧ win2_2.index t (1 : Fin 3) = 0 ∧ win2_2.index t (2 : Fin 3) = 0
    ∧ win2_3.index t (2 : Fin 3) = 0 ∧ win2_3.index t (0 : Fin 3) ≤ 7 ∧ win2_3.index t (1 : Fin 3) ≤ 7 :=
  (by decide +kernel : ∀ t : Fin grid2.N, _)

/-- Every (batch entry, row block) is some point's. -/
theorem idx_onto : ∀ (q0 : Fin 8) (q1 : Fin 8), ∃ t : Fin cfg2.N, win2_3.index t = ![q0.val, q1.val, 0] :=
  (by decide +kernel : ∀ (q0 : Fin 8) (q1 : Fin 8), ∃ t : Fin grid2.N, win2_3.index t = ![q0.val, q1.val, 0])

/-! ## The input blocks as rows of the arrays -/

theorem iblk_q (c : Dev nD) (t : Fin cfg2.N) (r : Fin 256) (l : Fin 64) (k : S8x2048x64.Idx)
    (hk0 : (k 0).val = win2_3.index t (0 : Fin 3)) (hk1 : (k 1).val = win2_3.index t (1 : Fin 3) * 256 + r.val)
    (hk2 : (k 2).val = l.val) :
    (iblk2 V c 0 t : Vec Ideal S1x256x64 .bf16) (ix3 (0 : Fin 1) r l) = (V c main_v27 : S8x2048x64.Idx → EReal) k := by
  obtain ⟨e0, e1, e2, -⟩ := idx_facts t
  unfold iblk2
  rw [View.read_apply]
  show V c main_v27 _ = V c main_v27 _
  congr 1
  funext a
  apply Fin.ext
  match a with
  | ⟨0, _⟩ => show win2_0.index t (0 : Fin 3) * 1 + 1 * 0 = (k 0).val; omega
  | ⟨1, _⟩ => show win2_0.index t (1 : Fin 3) * 256 + 1 * r.val = (k 1).val; omega
  | ⟨2, _⟩ => show win2_0.index t (2 : Fin 3) * 64 + 1 * l.val = (k 2).val; omega

theorem iblk_k (c : Dev nD) (t : Fin cfg2.N) (u : Fin 4096) (l : Fin 64) (k : S8x4096x64.Idx)
    (hk0 : (k 0).val = win2_3.index t (0 : Fin 3)) (hk1 : (k 1).val = u.val) (hk2 : (k 2).val = l.val) :
    (iblk2 V c 1 t : Vec Ideal S1x4096x64 .bf16) (ix3 (0 : Fin 1) u l) = (V c main_v26_0 : S8x4096x64.Idx → EReal) k := by
  obtain ⟨-, -, -, e0, e1, e2, -⟩ := idx_facts t
  unfold iblk2
  rw [View.read_apply]
  show V c main_v26_0 _ = V c main_v26_0 _
  congr 1
  funext a
  apply Fin.ext
  match a with
  | ⟨0, _⟩ => show win2_1.index t (0 : Fin 3) * 1 + 1 * 0 = (k 0).val; omega
  | ⟨1, _⟩ => show win2_1.index t (1 : Fin 3) * 4096 + 1 * u.val = (k 1).val; omega
  | ⟨2, _⟩ => show win2_1.index t (2 : Fin 3) * 64 + 1 * l.val = (k 2).val; omega

theorem iblk_v (c : Dev nD) (t : Fin cfg2.N) (u : Fin 4096) (l : Fin 64) (k : S8x4096x64.Idx)
    (hk0 : (k 0).val = win2_3.index t (0 : Fin 3)) (hk1 : (k 1).val = u.val) (hk2 : (k 2).val = l.val) :
    (iblk2 V c 2 t : Vec Ideal S1x4096x64 .bf16) (ix3 (0 : Fin 1) u l) = (V c main_v26_1 : S8x4096x64.Idx → EReal) k := by
  obtain ⟨-, -, -, -, -, -, e0, e1, e2, -⟩ := idx_facts t
  unfold iblk2
  rw [View.read_apply]
  show V c main_v26_1 _ = V c main_v26_1 _
  congr 1
  funext a
  apply Fin.ext
  match a with
  | ⟨0, _⟩ => show win2_2.index t (0 : Fin 3) * 1 + 1 * 0 = (k 0).val; omega
  | ⟨1, _⟩ => show win2_2.index t (1 : Fin 3) * 4096 + 1 * u.val = (k 1).val; omega
  | ⟨2, _⟩ => show win2_2.index t (2 : Fin 3) * 64 + 1 * l.val = (k 2).val; omega

/-! ## What a point writes back -/

/-- Entry y of the block point t stores is the function `G` at the array index the block places y at. -/
theorem point_value (c : Dev nD) (t : Fin cfg2.N) (y : S1x256x64.Idx) (i : S8x2048x64.Idx)
    (hi0 : (i 0).val = win2_3.index t (0 : Fin 3)) (hi1 : (i 1).val = win2_3.index t (1 : Fin 3) * 256 + (y 1).val)
    (hi2 : (i 2).val = (y 2).val) :
    k2_pay1 (F := Ideal) (iblk2 V c 0 t) (iblk2 V c 1 t) (iblk2 V c 2 t) y = G V c i := by
  have hy : y = ix3 (0 : Fin 1) (⟨(y 1).val, (y 1).isLt⟩ : Fin 256) (⟨(y 2).val, (y 2).isLt⟩ : Fin 64) :=
    funext fun a => Fin.ext (by
      match a with
      | ⟨0, _⟩ => have h0 : (y 0).val < 1 := (y 0).isLt; show (y 0).val = 0; omega
      | ⟨1, _⟩ => rfl
      | ⟨2, _⟩ => rfl)
  rw [hy]
  refine (Payload.payload_apply (iblk2 V c 0 t) (iblk2 V c 1 t) (iblk2 V c 2 t) ⟨(y 1).val, (y 1).isLt⟩ ⟨(y 2).val, (y 2).isLt⟩).trans ?_
  unfold G
  refine attend_congr (fun l => ?_) (fun u l => ?_) (fun u l => ?_) (Fin.ext hi2.symm)
  · exact iblk_q V c t _ l (ix3 (i 0) (i 1) l) hi0 hi1 rfl
  · exact iblk_k V c t u l (ix3 (i 0) u l) hi0 rfl rfl
  · exact iblk_v V c t u l (ix3 (i 0) u l) hi0 rfl rfl

theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz3]
  simp only [View.ld_unit_zero (S := S1x256x64) hz3, View.ld_unit_zero (S := S1x4096x64) hz3]
  funext y
  show k2_pay1 (F := Ideal) (iblk2 V c 0 t) (iblk2 V c 1 t) (iblk2 V c 2 t) y = G V c (((cfg2.win 3).blk t).view.emb y)
  refine point_value V c t y _ ?_ ?_ ?_
  · show win2_3.index t (0 : Fin 3) * 1 + 1 * (y 0).val = win2_3.index t (0 : Fin 3)
    have h0 : (y 0).val < 1 := (y 0).isLt
    omega
  · show win2_3.index t (1 : Fin 3) * 256 + 1 * (y 1).val = win2_3.index t (1 : Fin 3) * 256 + (y 1).val
    omega
  · obtain ⟨-, -, -, -, -, -, -, -, -, e2, -⟩ := idx_facts t
    show win2_3.index t (2 : Fin 3) * 64 + 1 * (y 2).val = (y 2).val
    omega

/-! ## The blocks tile the array -/

theorem mem_blk (t : Fin cfg2.N) (i : S8x2048x64.Idx) :
    i ∈ ((cfg2.win 3).blk t).view.set ↔ ∀ a : Fin 3, win2_3.index t a * S1x256x64.size a ≤ (i a).val
      ∧ (i a).val < win2_3.index t a * S1x256x64.size a + S1x256x64.size a := by
  show i ∈ ((View.whole main_v28).slice (win2_3.rect t)).set ↔ _
  rw [View.set_slice_whole, Rect.mem_set_unit]
  exact Iff.rfl

theorem cover (i : S8x2048x64.Idx) :
    ∃ t : Fin cfg2.N, (cfg2.win 3).flush t = true ∧ i ∈ ((cfg2.win 3).blk t).view.set := by
  have hi0 : (i 0).val < 8 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win2_3.index t (0 : Fin 3) = (i 0).val := congrFun ht 0
  have q1 : win2_3.index t (1 : Fin 3) = (i 1).val / 256 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 256 ≤ (i 1).val ∧ (i 1).val < win2_3.index t (1 : Fin 3) * 256 + 256; omega
  | ⟨2, _⟩ => show win2_3.index t (2 : Fin 3) * 64 ≤ (i 2).val ∧ (i 2).val < win2_3.index t (2 : Fin 3) * 64 + 64; omega

/-- The result array after the region. -/
theorem region2_out (c : Dev nD) : (dat2 V c).arrAt 3 cfg2.N = G V c :=
  (dat2 V c).arrAt_eq_of_cover 3 (G V c) (fun t _ => flushed_eq V c t) (cover)

end Cert.Attn.Region2

end
-- ==== Proof.Rotate.lean ====
/-
  The turn of a row as the vector unit spells it, read at one entry.

  A block of rows of 64 lanes is rotated along the lanes by 63 (entry h then holds the row's entry h + 1, around the
  end) and by 1 (entry h holds entry h − 1, around the end). A mask that is set on the even lanes picks the first
  rotation there and the second on the odd lanes, so every lane holds the other member of its (even, odd) pair; the
  same mask picks the factor −1 on the even lanes and 1 on the odd ones. The row times the cosines plus that signed
  partner times the sines is the lane-wise turn of the specification.
-/
import Idealize.ShloMosaic.PureOps.Ideal
import Idealize.ShloMosaic.Lib.ValueIdx
import Idealize.ShloMosaic.Lib.Pipeline.Value
import Idealize.ShloMosaic.Lib.KernelVsHost
import proofs.«127364_j36429912605016_1_alg».proof.Proof.Spec
import proofs.«127364_j36429912605016_1_alg».proof.Proof.Consts

noncomputable section

namespace Cert.Attn.Lane

open Idealize.ShloMosaic Idealize.ShloMosaic.ValueIdx

/-- The low bit of a lane number, tested against zero: set exactly on the even lanes. -/
theorem parity_bit : ∀ h : Fin 64,
    IntOp.cmpi .eq (IntOp.andi (BitVec.ofNat 32 h.val) 1#32) 0#32 = if h.val % 2 = 0 then 1#1 else 0#1 := by
  decide +kernel

/-- A select on that bit is the `if` on the lane's parity. -/
theorem select_parity {α : Type} (h : Fin 64) (A B : α) :
    Scalar.select (IntOp.cmpi .eq (IntOp.andi (BitVec.ofNat 32 h.val) 1#32) 0#32) A B
      = if h.val % 2 = 0 then A else B := by
  rw [parity_bit h]
  by_cases e : h.val % 2 = 0
  · rw [if_pos e, if_pos e]; exact select_one A B
  · rw [if_neg e, if_neg e]; exact select_zero A B

variable {n : Nat}

/-- Rotating the lanes by 63 brings each lane its successor around the end. -/
theorem rotate63_apply (hrot : (⟨2, ![n, 64]⟩ : Shape).Rotates 1 none) (x : (⟨2, ![n, 64]⟩ : Shape).Idx → EReal)
    (r : Fin n) (h : Fin 64) :
    dynamicRotate 1 63#32 none x hrot (ix2 r h) = x (ix2 r (next h)) := by
  refine dynamicRotate_apply 1 63#32 x hrot (ix2 r h) (ix2 r (next h)) (fun b => ?_)
  match b with
  | ⟨0, _⟩ => rfl
  | ⟨1, _⟩ =>
    show (h.val + 1) % 64 = (h.val + 64 - 63 % 64) % 64
    omega

/-- Rotating the lanes by 1 brings each lane its predecessor around the end. -/
theorem rotate1_apply (hrot : (⟨2, ![n, 64]⟩ : Shape).Rotates 1 none) (x : (⟨2, ![n, 64]⟩ : Shape).Idx → EReal)
    (r : Fin n) (h : Fin 64) :
    dynamicRotate 1 1#32 none x hrot (ix2 r h) = x (ix2 r (prev h)) := by
  refine dynamicRotate_apply 1 1#32 x hrot (ix2 r h) (ix2 r (prev h)) (fun b => ?_)
  match b with
  | ⟨0, _⟩ => rfl
  | ⟨1, _⟩ =>
    show (h.val + 63) % 64 = (h.val + 64 - 1 % 64) % 64
    omega

/-- The parity mask over a block of rows of 64 lanes: the lane number, its low bit, compared with zero. -/
abbrev evenMask (hio : (⟨2, ![n, 64]⟩ : Shape).Iotas .tc 32 [1]) : IVec ⟨2, ![n, 64]⟩ 1 :=
  cmpi .eq (andi (iota .tc ⟨2, ![n, 64]⟩ 32 [1] hio) (broadcast ⟨2, ![n, 64]⟩ 1#32)) (broadcast ⟨2, ![n, 64]⟩ 0#32)

/-- The mask at an entry is the parity bit of its lane. -/
theorem evenMask_apply (hio : (⟨2, ![n, 64]⟩ : Shape).Iotas .tc 32 [1]) (r : Fin n) (h : Fin 64) :
    evenMask hio (ix2 r h) = IntOp.cmpi .eq (IntOp.andi (BitVec.ofNat 32 h.val) 1#32) 0#32 := by
  show IntOp.cmpi .eq (IntOp.andi (iota .tc ⟨2, ![n, 64]⟩ 32 [1] hio (ix2 r h)) 1#32) 0#32 = _
  rw [iota_single_apply]
  rfl

/-- THE TURN AT AN ENTRY: the row times the cosines, plus the signed partner times the sines, read at row `r` and lane
    `h`, is the specification's lane-wise turn of row `r`. -/
theorem turned_apply (hrot : (⟨2, ![n, 64]⟩ : Shape).Rotates 1 none) (hio : (⟨2, ![n, 64]⟩ : Shape).Iotas .tc 32 [1])
    (k cs sn : FVec Ideal ⟨2, ![n, 64]⟩ .f32) (r : Fin n) (h : Fin 64) :
    addf (mulf k cs)
      (mulf (mulf (select (evenMask hio) (dynamicRotate 1 63#32 none k hrot) (dynamicRotate 1 1#32 none k hrot))
                  (select (evenMask hio) (broadcast ⟨2, ![n, 64]⟩ (Scalar.ofBits (F := Ideal) .f32 0xBF800000#32))
                    (broadcast ⟨2, ![n, 64]⟩ (Scalar.ofBits (F := Ideal) .f32 0x3F800000#32))))
            sn) (ix2 r h)
      = laneTurn (fun l => k (ix2 r l)) (fun l => cs (ix2 r l)) (fun l => sn (ix2 r l)) h := by
  rw [addf_apply, mulf_apply, mulf_apply, mulf_apply, select_apply, select_apply, evenMask_apply,
    select_parity, select_parity, rotate63_apply, rotate1_apply, broadcast_apply, broadcast_apply]
  show _ + ((if h.val % 2 = 0 then k (ix2 r (next h)) else k (ix2 r (prev h)))
      * (if h.val % 2 = 0 then Ideal.ofBits .f32 0xBF800000#32 else Ideal.ofBits .f32 0x3F800000#32)) * _ = _
  rw [Consts.ofBits_neg_one, Consts.ofBits_one]
  rfl

end Cert.Attn.Lane

end
-- ==== Proof.Casts.lean ====
/-
  A block of one batch entry is stored with a leading axis of extent one. Dropping that axis reads entry (r, h) of the
  matrix at (0, r, h) of the block, and adding it back reads entry (0, r, h) of the block at (r, h) of the matrix:
  the row-major position is the same on both sides.
-/
import Idealize.ShloMosaic.Lib.ValueIdx
import Idealize.ShloMosaic.Lib.Pipeline.Value

noncomputable section

namespace Cert.Attn.Lane

open Idealize.ShloMosaic Idealize.ShloMosaic.ValueIdx

variable {α : Type} {n m : Nat}

/-- The matrix stored as a block with a leading unit axis, read at (z, r, h), is the matrix at (r, h). -/
theorem addUnit_apply (v : (⟨2, ![n, m]⟩ : Shape).Idx → α)
    (hc : (⟨2, ![n, m]⟩ : Shape).ShapeCasts ⟨3, ![1, n, m]⟩) (z : Fin 1) (r : Fin n) (h : Fin m) :
    shapeCast ⟨3, ![1, n, m]⟩ v hc (ix3 z r h) = v (ix2 r h) := by
  refine (shapeCast_addUnit_apply ![n, m] v hc (ix3 z r h)).trans (congrArg v ?_)
  funext a
  match a with
  | ⟨0, _⟩ => rfl
  | ⟨1, _⟩ => rfl

/-- The block with a leading unit axis viewed as a matrix, read at (r, h), is the block at (0, r, h). -/
theorem dropUnit_apply (v : (⟨3, ![1, n, m]⟩ : Shape).Idx → α)
    (hc : (⟨3, ![1, n, m]⟩ : Shape).ShapeCasts ⟨2, ![n, m]⟩) (r : Fin n) (h : Fin m) :
    shapeCast ⟨2, ![n, m]⟩ v hc (ix2 r h) = v (ix3 (0 : Fin 1) r h) := by
  refine (shapeCast_dropUnit_apply ![n, m] v hc (ix2 r h)).trans (congrArg v ?_)
  funext a
  match a with
  | ⟨0, _⟩ => rfl
  | ⟨1, _⟩ => rfl
  | ⟨2, _⟩ => rfl

end Cert.Attn.Lane

end
-- ==== Proof.KeysBody.lean ====
/-
  The first region's two bodies at one entry of a block of 1024 rows. The row of tokens against each row of the
  weights is the projection; the keys' body turns the projected row lane by lane with the block's cosines and sines;
  the values' body stores the projected row itself. A change of float format is the identity on the extended reals.
-/
import proofs.«127364_j36429912605016_1_alg».proof.Proof.Gen.KernelIdeal.Skeleton
import proofs.«127364_j36429912605016_1_alg».proof.Proof.Rotate
import proofs.«127364_j36429912605016_1_alg».proof.Proof.Casts

noncomputable section

namespace Cert.Attn.KeysBody

open Idealize.ShloMosaic Idealize.ShloMosaic.ValueIdx
open Cert.KernelIdeal Cert.KernelIdeal.Gen Cert.Attn Cert.Attn.Lane

/-- The contraction of the keys' and values' projections: rows of 512 against rows of 512. -/
abbrev D : DotDims S1024x512 S64x512 S1024x64 := dot_S1024x512_S64x512_S1024x64_1_1_0_0_n_n

theorem lhs_row (i : S1024x64.Idx) (q : D.contr.Idx) : (D.lhsIdx i q 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs_col (i : S1024x64.Idx) (q : D.contr.Idx) : (D.lhsIdx i q 1).val = (q ⟨0, by decide⟩).val :=
  D.lhsIdx_val_of_single rfl i q
theorem rhs_row (i : S1024x64.Idx) (q : D.contr.Idx) : (D.rhsIdx i q 0).val = (i 1).val := by
  unfold DotDims.rhsIdx
  rw [dif_neg (show ¬(0 : Fin S64x512.rank) ∈ D.rhsBatch by decide), dif_pos (show (0 : Fin S64x512.rank) ∈ D.rhsNonContracting by decide)]
  rfl
theorem rhs_col (i : S1024x64.Idx) (q : D.contr.Idx) : (D.rhsIdx i q 1).val = (q ⟨0, by decide⟩).val :=
  D.rhsIdx_val_of_single rfl i q

/-- The matrix product into a zero accumulator, at row `r` and lane `h`: row `r` of the left operand against row `h` of
    the right one. -/
theorem product_apply (x : FVec Ideal S1024x512 .bf16) (w : FVec Ideal S64x512 .bf16) (r : Fin 1024) (h : Fin 64) :
    matmul D none x w (constant (F := Ideal) S1024x64 .f32 0x00000000#32) (ix2 r h)
      = ∑ c : Fin 512, x (ix2 r c) * w (ix2 h c) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r h) ((contrEquiv1 D 512 rfl rfl).symm k) = ix2 r k := funext fun a => Fin.ext (by
    match a with
    | ⟨0, _⟩ => exact lhs_row _ _
    | ⟨1, _⟩ => exact (lhs_col _ _).trans hk)
  have er : D.rhsIdx (ix2 r h) ((contrEquiv1 D 512 rfl rfl).symm k) = ix2 h k := funext fun a => Fin.ext (by
    match a with
    | ⟨0, _⟩ => exact rhs_row _ _
    | ⟨1, _⟩ => exact (rhs_col _ _).trans hk)
  rw [el, er]

/-- The block of tokens viewed as a matrix and narrowed, at (r, c): the block at (0, r, c). -/
theorem tokens_apply (x0 : Vec Ideal S1x1024x512 .f32) (r : Fin 1024) (c : Fin 512) :
    k0_pay2 x0 (ix2 r c) = x0 (ix3 (0 : Fin 1) r c) := by
  unfold k0_pay2
  exact dropUnit_apply x0 Facts₀.shapeCasts_S1x1024x512_S1024x512 r c

/-- The keys' body at entry (0, r, h) of its block: the projected row `r` turned lane by lane with row `r` of the block's
    cosines and sines. -/
theorem keys_apply (x0 : Vec Ideal S1x1024x512 .f32) (w : Vec Ideal S64x512 .f32) (cs sn : Vec Ideal S1024x64 .f32)
    (z : Fin 1) (r : Fin 1024) (h : Fin 64) :
    k0_pay3 x0 w cs sn (ix3 z r h)
      = laneTurn (fun l => ∑ c : Fin 512, x0 (ix3 (0 : Fin 1) r c) * w (ix2 l c))
          (fun l => cs (ix2 r l)) (fun l => sn (ix2 r l)) h := by
  unfold k0_pay3
  refine (addUnit_apply _ Facts₀.shapeCasts_S1024x64_S1x1024x64 z r h).trans ?_
  refine (turned_apply Facts₀.rotates_S1024x64_d1 Facts₀.iota_S1024x64_d1_w32 _ _ _ r h).trans ?_
  have hM : ∀ l : Fin 64, matmul D none (k0_pay2 x0) (truncf .bf16 w Facts₀.bitsLt_bf16_f32)
      (constant (F := Ideal) S1024x64 .f32 0x00000000#32) (ix2 r l) = ∑ c : Fin 512, x0 (ix3 (0 : Fin 1) r c) * w (ix2 l c) := fun l => by
    rw [product_apply]
    exact Finset.sum_congr rfl fun c _ => by rw [tokens_apply]; rfl
  simp only [hM, shapeCast_self]

/-- The values' body at entry (0, r, h) of its block: the projected row `r` at lane `h`. -/
theorem vals_apply (x0 : Vec Ideal S1x1024x512 .f32) (w : Vec Ideal S64x512 .f32) (z : Fin 1) (r : Fin 1024) (h : Fin 64) :
    k0_pay1 (k0_pay4 x0 w) (ix3 z r h) = ∑ c : Fin 512, x0 (ix3 (0 : Fin 1) r c) * w (ix2 h c) := by
  unfold k0_pay1 k0_pay4
  refine (addUnit_apply _ Facts₀.shapeCasts_S1024x64_S1x1024x64 z r h).trans ?_
  refine (product_apply (k0_pay2 x0) (truncf .bf16 w Facts₀.bitsLt_bf16_f32) r h).trans ?_
  exact Finset.sum_congr rfl fun c _ => by rw [tokens_apply]; rfl

end Cert.Attn.KeysBody

end
-- ==== Proof.KeysRegion.lean ====
/-
  From the blocks of the first region to its two arrays. The grid is 8 batch entries by 4 blocks of 1024 rows; point t
  works on batch entry t / 4 and rows (t mod 4)·1024 … (t mod 4)·1024 + 1023. Its block of tokens is those rows of the
  batch entry, its blocks of cosines and sines are the same rows of the two tables, and the weights are whole. What the
  point writes back is therefore those rows of one function of the arrays: the projected rows turned lane by lane for the
  keys, the projected rows themselves for the values. The 32 blocks cover the 8 × 4096 × 64 array: entry (b, t, h) is
  in the block of point 4·b + t / 1024.
-/
import proofs.«127364_j36429912605016_1_alg».proof.Proof.Gen.KernelIdeal.Frame
import proofs.«127364_j36429912605016_1_alg».proof.Proof.KeysBody
import Idealize.ShloMosaic.Lib.Pipeline.Value

noncomputable section

namespace Cert.Attn.KeysRegion

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every window at every point of the grid: batch entry t / 4 and row block t mod 4 for the tokens
    and both outputs, row block t mod 4 for the two tables, the one block of each weight matrix. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0 :=
  (by decide +kernel : ∀ t : Fin grid0.N, _)

theorem lt32 (t : Fin cfg0.N) : t.val < 32 := lt_of_lt_of_eq t.isLt N_0

/-- The block of tokens at point `t`: rows (t mod 4)·1024 + r of batch entry t / 4. -/
theorem tokens_block (c : Dev nD) (t : Fin cfg0.N) (x : S1x1024x512.Idx) (k : S8x4096x512.Idx)
    (h0 : (k 0).val = t.val / 4) (h1 : (k 1).val = t.val % 4 * 1024 + (x 1).val) (h2 : (k 2).val = (x 2).val) :
    (iblk0 V c 0 t : Vec Ideal S1x1024x512 .f32) x = (V c main_arg0 : S8x4096x512.Idx → EReal) k := by
  obtain ⟨e0, e1, e2, -⟩ := idx_facts t
  unfold iblk0
  rw [View.read_apply]
  show V c main_arg0 _ = V c main_arg0 _
  congr 1
  funext a
  apply Fin.ext
  have hx0 : (x 0).val < 1 := (x 0).isLt
  match a with
  | ⟨0, _⟩ => show win0_0.index t 0 * 1 + 1 * (x 0).val = (k 0).val; rw [e0, h0]; omega
  | ⟨1, _⟩ => show win0_0.index t 1 * 1024 + 1 * (x 1).val = (k 1).val; rw [e1, h1]; omega
  | ⟨2, _⟩ => show win0_0.index t 2 * 512 + 1 * (x 2).val = (k 2).val; rw [e2, h2]; omega

/-- The keys' weights at any point: the whole matrix. -/
theorem wk_block (c : Dev nD) (t : Fin cfg0.N) (x : S64x512.Idx) :
    (iblk0 V c 1 t : Vec Ideal S64x512 .f32) x = (V c main_arg6 : S64x512.Idx → EReal) x := by
  obtain ⟨-, -, -, e0, e1, -⟩ := idx_facts t
  unfold iblk0
  rw [View.read_apply]
  show V c main_arg6 _ = V c main_arg6 _
  congr 1
  funext a
  apply Fin.ext
  match a with
  | ⟨0, _⟩ => show win0_1.index t 0 * 64 + 1 * (x 0).val = (x 0).val; rw [e0]; omega
  | ⟨1, _⟩ => show win0_1.index t 1 * 512 + 1 * (x 1).val = (x 1).val; rw [e1]; omega

/-- The values' weights at any point: the whole matrix. -/
theorem wv_block (c : Dev nD) (t : Fin cfg0.N) (x : S64x512.Idx) :
    (iblk0 V c 2 t : Vec Ideal S64x512 .f32) x = (V c main_arg8 : S64x512.Idx → EReal) x := by
  obtain ⟨-, -, -, -, -, e0, e1, -⟩ := idx_facts t
  unfold iblk0
  rw [View.read_apply]
  show V c main_arg8 _ = V c main_arg8 _
  congr 1
  funext a
  apply Fin.ext
  match a with
  | ⟨0, _⟩ => show win0_2.index t 0 * 64 + 1 * (x 0).val = (x 0).val; rw [e0]; omega
  | ⟨1, _⟩ => show win0_2.index t 1 * 512 + 1 * (x 1).val = (x 1).val; rw [e1]; omega

/-- The block of cosines at point `t`: rows (t mod 4)·1024 + r of the table. -/
theorem cos_block (c : Dev nD) (t : Fin cfg0.N) (x : S1024x64.Idx) (k : S4096x64.Idx)
    (h0 : (k 0).val = t.val % 4 * 1024 + (x 0).val) (h1 : (k 1).val = (x 1).val) :
    (iblk0 V c 3 t : Vec Ideal S1024x64 .f32) x = (V c main_v16 : S4096x64.Idx → EReal) k := by
  obtain ⟨-, -, -, -, -, -, -, e0, e1, -⟩ := idx_facts t
  unfold iblk0
  rw [View.read_apply]
  show V c main_v16 _ = V c main_v16 _
  congr 1
  funext a
  apply Fin.ext
  match a with
  | ⟨0, _⟩ => show win0_3.index t 0 * 1024 + 1 * (x 0).val = (k 0).val; rw [e0, h0]; omega
  | ⟨1, _⟩ => show win0_3.index t 1 * 64 + 1 * (x 1).val = (k 1).val; rw [e1, h1]; omega

/-- The block of sines at point `t`: the same rows of the other table. -/
theorem sin_block (c : Dev nD) (t : Fin cfg0.N) (x : S1024x64.Idx) (k : S4096x64.Idx)
    (h0 : (k 0).val = t.val % 4 * 1024 + (x 0).val) (h1 : (k 1).val = (x 1).val) :
    (iblk0 V c 4 t : Vec Ideal S1024x64 .f32) x = (V c main_v17 : S4096x64.Idx → EReal) k := by
  obtain ⟨-, -, -, -, -, -, -, -, -, e0, e1, -⟩ := idx_facts t
  unfold iblk0
  rw [View.read_apply]
  show V c main_v17 _ = V c main_v17 _
  congr 1
  funext a
  apply Fin.ext
  match a with
  | ⟨0, _⟩ => show win0_4.index t 0 * 1024 + 1 * (x 0).val = (k 0).val; rw [e0, h0]; omega
  | ⟨1, _⟩ => show win0_4.index t 1 * 64 + 1 * (x 1).val = (k 1).val; rw [e1, h1]; omega

/-- The turned keys as one function of the arrays the region finds. -/
abbrev turnedKeys (c : Dev nD) : S8x4096x64.Idx → EReal := fun i =>
  laneTurn (proj (c3 (V c main_arg0 : S8x4096x512.Idx → EReal)) (c2 (V c main_arg6 : S64x512.Idx → EReal))
      ⟨(i 0).val, (i 0).isLt⟩ ⟨(i 1).val, (i 1).isLt⟩)
    (fun l => (V c main_v16 : S4096x64.Idx → EReal) (ix2 (⟨(i 1).val, (i 1).isLt⟩ : Fin 4096) l))
    (fun l => (V c main_v17 : S4096x64.Idx → EReal) (ix2 (⟨(i 1).val, (i 1).isLt⟩ : Fin 4096) l))
    ⟨(i 2).val, (i 2).isLt⟩

/-- The values as one function of the arrays the region finds. -/
abbrev projectedVals (c : Dev nD) : S8x4096x64.Idx → EReal := fun i =>
  proj (c3 (V c main_arg0 : S8x4096x512.Idx → EReal)) (c2 (V c main_arg8 : S64x512.Idx → EReal))
    ⟨(i 0).val, (i 0).isLt⟩ ⟨(i 1).val, (i 1).isLt⟩ ⟨(i 2).val, (i 2).isLt⟩

/-- The lane-wise turn depends on its three rows entry by entry. -/
theorem laneTurn_congr {k k' cs cs' sn sn' : Fin 64 → EReal} (hk : ∀ l, k l = k' l) (hc : ∀ l, cs l = cs' l)
    (hs : ∀ l, sn l = sn' l) (h : Fin 64) : laneTurn k cs sn h = laneTurn k' cs' sn' h := by
  rw [funext hk, funext hc, funext hs]

/-- Where entry (z, r, h) of point `t`'s output block sits in the array. -/
theorem keys_emb (t : Fin cfg0.N) (z : Fin 1) (r : Fin 1024) (h : Fin 64) :
    ((cfg0.win 5).blk t).view.emb (ix3 z r h)
      = ix3 (⟨t.val / 4, by have := lt32 t; omega⟩ : Fin 8) (⟨t.val % 4 * 1024 + r.val, by have := r.isLt; omega⟩ : Fin 4096) h := by
  obtain ⟨-, -, -, -, -, -, -, -, -, -, -, e0, e1, e2, -⟩ := idx_facts t
  funext a
  apply Fin.ext
  have hz : z.val < 1 := z.isLt
  match a with
  | ⟨0, _⟩ => show win0_5.index t 0 * 1 + 1 * z.val = t.val / 4; rw [e0]; omega
  | ⟨1, _⟩ => show win0_5.index t 1 * 1024 + 1 * r.val = t.val % 4 * 1024 + r.val; rw [e1]; omega
  | ⟨2, _⟩ => show win0_5.index t 2 * 64 + 1 * h.val = h.val; rw [e2]; omega

theorem vals_emb (t : Fin cfg0.N) (z : Fin 1) (r : Fin 1024) (h : Fin 64) :
    ((cfg0.win 6).blk t).view.emb (ix3 z r h)
      = ix3 (⟨t.val / 4, by have := lt32 t; omega⟩ : Fin 8) (⟨t.val % 4 * 1024 + r.val, by have := r.isLt; omega⟩ : Fin 4096) h := by
  obtain ⟨-, -, -, -, -, -, -, -, -, -, -, -, -, -, e0, e1, e2⟩ := idx_facts t
  funext a
  apply Fin.ext
  have hz : z.val < 1 := z.isLt
  match a with
  | ⟨0, _⟩ => show win0_6.index t 0 * 1 + 1 * z.val = t.val / 4; rw [e0]; omega
  | ⟨1, _⟩ => show win0_6.index t 1 * 1024 + 1 * r.val = t.val % 4 * 1024 + r.val; rw [e1]; omega
  | ⟨2, _⟩ => show win0_6.index t 2 * 64 + 1 * h.val = h.val; rw [e2]; omega

/-- The keys' body on point `t`'s blocks, at an entry of its block, is the turned keys at that entry's place in the array. -/
theorem keys_point (c : Dev nD) (t : Fin cfg0.N) (j : S1x1024x64.Idx) :
    k0_pay3 (iblk0 V c 0 t) (iblk0 V c 1 t) (iblk0 V c 3 t) (iblk0 V c 4 t) j
      = turnedKeys V c (((cfg0.win 5).blk t).view.emb j) := by
  obtain ⟨z, r, h, rfl⟩ : ∃ (z : Fin 1) (r : Fin 1024) (h : Fin 64), j = ix3 z r h := ⟨j 0, j 1, j 2, eq_ix3 j⟩
  refine (KeysBody.keys_apply (iblk0 V c 0 t) (iblk0 V c 1 t) (iblk0 V c 3 t) (iblk0 V c 4 t) z r h).trans ?_
  rw [keys_emb t z r h]
  refine laneTurn_congr (fun l => ?_) (fun l => ?_) (fun l => ?_) h
  · exact Finset.sum_congr rfl fun q _ => congrArg₂ (· * ·)
      (tokens_block V c t (ix3 (0 : Fin 1) r q) (ix3 _ _ q) rfl rfl rfl) (wk_block V c t (ix2 l q))
  · exact cos_block V c t (ix2 r l) (ix2 _ l) rfl rfl
  · exact sin_block V c t (ix2 r l) (ix2 _ l) rfl rfl

/-- The values' body on point `t`'s blocks, at an entry of its block, is the projected row at that entry's place. -/
theorem vals_point (c : Dev nD) (t : Fin cfg0.N) (j : S1x1024x64.Idx) :
    k0_pay1 (k0_pay4 (iblk0 V c 0 t) (iblk0 V c 2 t)) j = projectedVals V c (((cfg0.win 6).blk t).view.emb j) := by
  obtain ⟨z, r, h, rfl⟩ : ∃ (z : Fin 1) (r : Fin 1024) (h : Fin 64), j = ix3 z r h := ⟨j 0, j 1, j 2, eq_ix3 j⟩
  refine (KeysBody.vals_apply (iblk0 V c 0 t) (iblk0 V c 2 t) z r h).trans ?_
  rw [vals_emb t z r h]
  exact Finset.sum_congr rfl fun q _ => congrArg₂ (· * ·)
    (tokens_block V c t (ix3 (0 : Fin 1) r q) (ix3 _ _ q) rfl rfl rfl) (wv_block V c t (ix2 h q))

/-- WHAT POINT `t` WRITES BACK to the keys' array is block `t` of the turned keys. -/
theorem keys_flushed (c : Dev nD) (t : Fin cfg0.N) :
    (dat0 V c).flushed 5 t = ((cfg0.win 5).blk t).view.read (Elt Ideal) (turnedKeys V c) := by
  show (cfg0.win 5).cut (grid0.coords t) ((dat0 V c).after 5 t) = _
  rw [after0_5]
  unfold out0_5
  rw [View.canon_unit_zero hz3]
  simp only [View.ld_unit_zero (S := S1x1024x512) hz3, View.ld_unit_zero (S := S64x512) hz2, View.ld_unit_zero (S := S1024x64) hz2]
  funext j
  exact keys_point V c t j

/-- WHAT POINT `t` WRITES BACK to the values' array is block `t` of the projected rows. -/
theorem vals_flushed (c : Dev nD) (t : Fin cfg0.N) :
    (dat0 V c).flushed 6 t = ((cfg0.win 6).blk t).view.read (Elt Ideal) (projectedVals V c) := by
  show (cfg0.win 6).cut (grid0.coords t) ((dat0 V c).after 6 t) = _
  rw [after0_6]
  unfold out0_6
  rw [View.canon_unit_zero hz3]
  simp only [View.ld_unit_zero (S := S1x1024x512) hz3, View.ld_unit_zero (S := S64x512) hz2]
  funext j
  exact vals_point V c t j

/-- An entry of the array is in point `t`'s block iff each coordinate is in the block's range on its axis. -/
theorem mem_keys_blk (t : Fin cfg0.N) (i : S8x4096x64.Idx) :
    i ∈ ((cfg0.win 5).blk t).view.set ↔ ∀ a : Fin 3, win0_5.index t a * S1x1024x64.size a ≤ (i a).val
      ∧ (i a).val < win0_5.index t a * S1x1024x64.size a + S1x1024x64.size a := by
  show i ∈ ((View.whole main_v26_0).slice (win0_5.rect t)).set ↔ _
  rw [View.set_slice_whole, Rect.mem_set_unit]
  exact Iff.rfl

theorem mem_vals_blk (t : Fin cfg0.N) (i : S8x4096x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v26_1).slice (win0_6.rect t)).set ↔ _
  rw [View.set_slice_whole, Rect.mem_set_unit]
  exact Iff.rfl

/-- The point whose block holds batch entry b, row r: 4·b + r / 1024. -/
def pointOf (i : S8x4096x64.Idx) : Fin cfg0.N :=
  ⟨4 * (i 0).val + (i 1).val / 1024, lt_of_lt_of_eq (by
    have h0 : (i 0).val < 8 := (i 0).isLt
    have h1 : (i 1).val < 4096 := (i 1).isLt
    omega) N_0.symm⟩

theorem pointOf_val (i : S8x4096x64.Idx) : (pointOf i).val = 4 * (i 0).val + (i 1).val / 1024 := rfl

/-- Every entry of the keys' array is in some point's block. -/
theorem keys_cover (i : S8x4096x64.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 64 := (i 2).isLt
  obtain ⟨-, -, -, -, -, -, -, -, -, -, -, e0, e1, e2, -⟩ := idx_facts (pointOf i)
  have tv := pointOf_val i
  refine ⟨pointOf i, flush0_5 _, ?_⟩
  rw [mem_keys_blk]
  intro a
  match a with
  | ⟨0, _⟩ => show win0_5.index (pointOf i) 0 * 1 ≤ (i 0).val ∧ (i 0).val < win0_5.index (pointOf i) 0 * 1 + 1; rw [e0, tv]; omega
  | ⟨1, _⟩ => show win0_5.index (pointOf i) 1 * 1024 ≤ (i 1).val ∧ (i 1).val < win0_5.index (pointOf i) 1 * 1024 + 1024; rw [e1, tv]; omega
  | ⟨2, _⟩ => show win0_5.index (pointOf i) 2 * 64 ≤ (i 2).val ∧ (i 2).val < win0_5.index (pointOf i) 2 * 64 + 64; rw [e2]; omega

/-- Every entry of the values' array is in some point's block. -/
theorem vals_cover (i : S8x4096x64.Idx) :
    ∃ t : Fin cfg0.N, (cfg0.win 6).flush t = true ∧ i ∈ ((cfg0.win 6).blk t).view.set := by
  have h0 : (i 0).val < 8 := (i 0).isLt
  have h1 : (i 1).val < 4096 := (i 1).isLt
  have h2 : (i 2).val < 64 := (i 2).isLt
  obtain ⟨-, -, -, -, -, -, -, -, -, -, -, -, -, -, e0, e1, e2⟩ := idx_facts (pointOf i)
  have tv := pointOf_val i
  refine ⟨pointOf i, flush0_6 _, ?_⟩
  rw [mem_vals_blk]
  intro a
  match a with
  | ⟨0, _⟩ => show win0_6.index (pointOf i) 0 * 1 ≤ (i 0).val ∧ (i 0).val < win0_6.index (pointOf i) 0 * 1 + 1; rw [e0, tv]; omega
  | ⟨1, _⟩ => show win0_6.index (pointOf i) 1 * 1024 ≤ (i 1).val ∧ (i 1).val < win0_6.index (pointOf i) 1 * 1024 + 1024; rw [e1, tv]; omega
  | ⟨2, _⟩ => show win0_6.index (pointOf i) 2 * 64 ≤ (i 2).val ∧ (i 2).val < win0_6.index (pointOf i) 2 * 64 + 64; rw [e2]; omega

/-- THE KEYS' ARRAY after the region: the turned keys. -/
theorem keys_final (c : Dev nD) : (dat0 V c).arrAt 5 cfg0.N = turnedKeys V c :=
  (dat0 V c).arrAt_eq_of_cover 5 (turnedKeys V c) (fun t _ => keys_flushed V c t) keys_cover

/-- THE VALUES' ARRAY after the region: the projected rows. -/
theorem vals_final (c : Dev nD) : (dat0 V c).arrAt 6 cfg0.N = projectedVals V c :=
  (dat0 V c).arrAt_eq_of_cover 6 (projectedVals V c) (fun t _ => vals_flushed V c t) vals_cover

end Cert.Attn.KeysRegion

namespace Cert.Attn

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The keys' array after the first region, entry by entry: the projection of image token (b, t) turned lane by lane
    with row t of the spread cosines and sines. -/
theorem region0_keys (c : Dev nD) (b : Fin 8) (t : Fin 4096) (h : Fin 64) :
    (dat0 (F := Ideal) V c).arrAt 5 cfg0.N (ix3 b t h)
      = laneTurn (proj (c3 (V c main_arg0 : S8x4096x512.Idx → EReal)) (c2 (V c main_arg6 : S64x512.Idx → EReal)) b t)
          (fun l => (V c main_v16 : S4096x64.Idx → EReal) (ix2 t l))
          (fun l => (V c main_v17 : S4096x64.Idx → EReal) (ix2 t l)) h :=
  congrFun (KeysRegion.keys_final V c) (ix3 b t h)

/-- The values' array after the first region, entry by entry: the projection of image token (b, t). -/
theorem region0_vals (c : Dev nD) (b : Fin 8) (t : Fin 4096) (h : Fin 64) :
    (dat0 (F := Ideal) V c).arrAt 6 cfg0.N (ix3 b t h)
      = proj (c3 (V c main_arg0 : S8x4096x512.Idx → EReal)) (c2 (V c main_arg8 : S64x512.Idx → EReal)) b t h :=
  congrFun (KeysRegion.vals_final V c) (ix3 b t h)

end Cert.Attn

end
-- ==== Proof.QueriesBody.lean ====
/-
  The second region's body at one entry of its block of 2048 rows: the row of text tokens against each row of the
  queries' weights, turned lane by lane with the row's cosines and sines. A change of float format is the identity on
  the extended reals.
-/
import proofs.«127364_j36429912605016_1_alg».proof.Proof.Gen.KernelIdeal.Skeleton
import proofs.«127364_j36429912605016_1_alg».proof.Proof.Rotate
import proofs.«127364_j36429912605016_1_alg».proof.Proof.Casts

noncomputable section

namespace Cert.Attn.QueriesBody

open Idealize.ShloMosaic Idealize.ShloMosaic.ValueIdx
open Cert.KernelIdeal Cert.KernelIdeal.Gen Cert.Attn Cert.Attn.Lane

/-- The contraction of the queries' projection: rows of 128 against rows of 128. -/
abbrev D : DotDims S2048x128 S64x128 S2048x64 := dot_S2048x128_S64x128_S2048x64_1_1_0_0_n_n

theorem lhs_row (i : S2048x64.Idx) (q : D.contr.Idx) : (D.lhsIdx i q 0).val = (i 0).val := by
  unfold DotDims.lhsIdx
  rw [dif_neg (show ¬(0 : Fin S2048x128.rank) ∈ D.lhsBatch by decide), dif_pos (show (0 : Fin S2048x128.rank) ∈ D.lhsNonContracting by decide)]
  rfl
theorem lhs_col (i : S2048x64.Idx) (q : D.contr.Idx) : (D.lhsIdx i q 1).val = (q ⟨0, by decide⟩).val :=
  D.lhsIdx_val_of_single rfl i q
theorem rhs_row (i : S2048x64.Idx) (q : D.contr.Idx) : (D.rhsIdx i q 0).val = (i 1).val := by
  unfold DotDims.rhsIdx
  rw [dif_neg (show ¬(0 : Fin S64x128.rank) ∈ D.rhsBatch by decide), dif_pos (show (0 : Fin S64x128.rank) ∈ D.rhsNonContracting by decide)]
  rfl
theorem rhs_col (i : S2048x64.Idx) (q : D.contr.Idx) : (D.rhsIdx i q 1).val = (q ⟨0, by decide⟩).val :=
  D.rhsIdx_val_of_single rfl i q

/-- The matrix product into a zero accumulator, at row `r` and lane `h`: row `r` of the left operand against row `h` of
    the right one. -/
theorem product_apply (x : FVec Ideal S2048x128 .bf16) (w : FVec Ideal S64x128 .bf16) (r : Fin 2048) (h : Fin 64) :
    matmul D none x w (constant (F := Ideal) S2048x64 .f32 0x00000000#32) (ix2 r h)
      = ∑ c : Fin 128, x (ix2 r c) * w (ix2 h c) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 r h) ((contrEquiv1 D 128 rfl rfl).symm k) = ix2 r k := funext fun a => Fin.ext (by
    match a with
    | ⟨0, _⟩ => exact lhs_row _ _
    | ⟨1, _⟩ => exact (lhs_col _ _).trans hk)
  have er : D.rhsIdx (ix2 r h) ((contrEquiv1 D 128 rfl rfl).symm k) = ix2 h k := funext fun a => Fin.ext (by
    match a with
    | ⟨0, _⟩ => exact rhs_row _ _
    | ⟨1, _⟩ => exact (rhs_col _ _).trans hk)
  rw [el, er]

/-- The queries' body at entry (0, r, h) of its block: the projected row `r` turned lane by lane with row `r` of the
    cosines and sines. -/
theorem queries_apply (x0 : Vec Ideal S1x2048x128 .f32) (w : Vec Ideal S64x128 .f32) (cs sn : Vec Ideal S2048x64 .f32)
    (z : Fin 1) (r : Fin 2048) (h : Fin 64) :
    k1_pay1 x0 w cs sn (ix3 z r h)
      = laneTurn (fun l => ∑ c : Fin 128, x0 (ix3 (0 : Fin 1) r c) * w (ix2 l c))
          (fun l => cs (ix2 r l)) (fun l => sn (ix2 r l)) h := by
  unfold k1_pay1
  refine (addUnit_apply _ Facts₀.shapeCasts_S2048x64_S1x2048x64 z r h).trans ?_
  refine (turned_apply Facts₀.rotates_S2048x64_d1 Facts₀.iota_S2048x64_d1_w32 _ _ _ r h).trans ?_
  have hM : ∀ l : Fin 64, matmul D none
      (truncf .bf16 (shapeCast S2048x128 x0 Facts₀.shapeCasts_S1x2048x128_S2048x128) Facts₀.bitsLt_bf16_f32)
      (truncf .bf16 w Facts₀.bitsLt_bf16_f32)
      (constant (F := Ideal) S2048x64 .f32 0x00000000#32) (ix2 r l) = ∑ c : Fin 128, x0 (ix3 (0 : Fin 1) r c) * w (ix2 l c) := fun l => by
    rw [product_apply]
    refine Finset.sum_congr rfl fun c _ => ?_
    show shapeCast S2048x128 x0 Facts₀.shapeCasts_S1x2048x128_S2048x128 (ix2 r c) * w (ix2 l c) = _
    rw [dropUnit_apply]
  simp only [hM, shapeCast_self]

end Cert.Attn.QueriesBody

end
-- ==== Proof.QueriesRegion.lean ====
/-
  From the blocks of the second region to its array. The grid is the 8 batch entries; point t works on batch entry t
  and all of its 2048 rows. Its block of tokens is that batch entry, and the weights and the two tables are whole. What
  the point writes back is batch entry t of one function of the arrays: the projected rows turned lane by lane. The 8
  blocks cover the 8 × 2048 × 64 array: entry (b, s, h) is in the block of point b.
-/
import proofs.«127364_j36429912605016_1_alg».proof.Proof.Gen.KernelIdeal.Frame
import proofs.«127364_j36429912605016_1_alg».proof.Proof.QueriesBody
import Idealize.ShloMosaic.Lib.Pipeline.Value

noncomputable section

namespace Cert.Attn.QueriesRegion

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every window at every point of the grid: batch entry t for the tokens and the output, the one
    block of the weights and of each table. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

theorem lt8 (t : Fin cfg1.N) : t.val < 8 := lt_of_lt_of_eq t.isLt N_1

/-- The block of tokens at point `t`: batch entry t. -/
theorem tokens_block (c : Dev nD) (t : Fin cfg1.N) (x : S1x2048x128.Idx) (k : S8x2048x128.Idx)
    (h0 : (k 0).val = t.val) (h1 : (k 1).val = (x 1).val) (h2 : (k 2).val = (x 2).val) :
    (iblk1 V c 0 t : Vec Ideal S1x2048x128 .f32) x = (V c main_arg1 : S8x2048x128.Idx → EReal) k := by
  obtain ⟨e0, e1, e2, -⟩ := idx_facts t
  unfold iblk1
  rw [View.read_apply]
  show V c main_arg1 _ = V c main_arg1 _
  congr 1
  funext a
  apply Fin.ext
  have hx0 : (x 0).val < 1 := (x 0).isLt
  match a with
  | ⟨0, _⟩ => show win1_0.index t 0 * 1 + 1 * (x 0).val = (k 0).val; rw [e0, h0]; omega
  | ⟨1, _⟩ => show win1_0.index t 1 * 2048 + 1 * (x 1).val = (k 1).val; rw [e1, h1]; omega
  | ⟨2, _⟩ => show win1_0.index t 2 * 128 + 1 * (x 2).val = (k 2).val; rw [e2, h2]; omega

/-- The queries' weights at any point: the whole matrix. -/
theorem wq_block (c : Dev nD) (t : Fin cfg1.N) (x : S64x128.Idx) :
    (iblk1 V c 1 t : Vec Ideal S64x128 .f32) x = (V c main_arg7 : S64x128.Idx → EReal) x := by
  obtain ⟨-, -, -, e0, e1, -⟩ := idx_facts t
  unfold iblk1
  rw [View.read_apply]
  show V c main_arg7 _ = V c main_arg7 _
  congr 1
  funext a
  apply Fin.ext
  match a with
  | ⟨0, _⟩ => show win1_1.index t 0 * 64 + 1 * (x 0).val = (x 0).val; rw [e0]; omega
  | ⟨1, _⟩ => show win1_1.index t 1 * 128 + 1 * (x 1).val = (x 1).val; rw [e1]; omega

/-- The cosines at any point: the whole table. -/
theorem cos_block (c : Dev nD) (t : Fin cfg1.N) (x : S2048x64.Idx) :
    (iblk1 V c 2 t : Vec Ideal S2048x64 .f32) x = (V c main_v21 : S2048x64.Idx → EReal) x := by
  obtain ⟨-, -, -, -, -, e0, e1, -⟩ := idx_facts t
  unfold iblk1
  rw [View.read_apply]
  show V c main_v21 _ = V c main_v21 _
  congr 1
  funext a
  apply Fin.ext
  match a with
  | ⟨0, _⟩ => show win1_2.index t 0 * 2048 + 1 * (x 0).val = (x 0).val; rw [e0]; omega
  | ⟨1, _⟩ => show win1_2.index t 1 * 64 + 1 * (x 1).val = (x 1).val; rw [e1]; omega

/-- The sines at any point: the whole table. -/
theorem sin_block (c : Dev nD) (t : Fin cfg1.N) (x : S2048x64.Idx) :
    (iblk1 V c 3 t : Vec Ideal S2048x64 .f32) x = (V c main_v25 : S2048x64.Idx → EReal) x := by
  obtain ⟨-, -, -, -, -, -, -, e0, e1, -⟩ := idx_facts t
  unfold iblk1
  rw [View.read_apply]
  show V c main_v25 _ = V c main_v25 _
  congr 1
  funext a
  apply Fin.ext
  match a with
  | ⟨0, _⟩ => show win1_3.index t 0 * 2048 + 1 * (x 0).val = (x 0).val; rw [e0]; omega
  | ⟨1, _⟩ => show win1_3.index t 1 * 64 + 1 * (x 1).val = (x 1).val; rw [e1]; omega

/-- The turned queries as one function of the arrays the region finds. -/
abbrev turnedQueries (c : Dev nD) : S8x2048x64.Idx → EReal := fun i =>
  laneTurn (proj (c3 (V c main_arg1 : S8x2048x128.Idx → EReal)) (c2 (V c main_arg7 : S64x128.Idx → EReal))
      ⟨(i 0).val, (i 0).isLt⟩ ⟨(i 1).val, (i 1).isLt⟩)
    (fun l => (V c main_v21 : S2048x64.Idx → EReal) (ix2 (⟨(i 1).val, (i 1).isLt⟩ : Fin 2048) l))
    (fun l => (V c main_v25 : S2048x64.Idx → EReal) (ix2 (⟨(i 1).val, (i 1).isLt⟩ : Fin 2048) l))
    ⟨(i 2).val, (i 2).isLt⟩

/-- The lane-wise turn depends on its three rows entry by entry. -/
theorem laneTurn_congr {k k' cs cs' sn sn' : Fin 64 → EReal} (hk : ∀ l, k l = k' l) (hc : ∀ l, cs l = cs' l)
    (hs : ∀ l, sn l = sn' l) (h : Fin 64) : laneTurn k cs sn h = laneTurn k' cs' sn' h := by
  rw [funext hk, funext hc, funext hs]

/-- Where entry (z, r, h) of point `t`'s output block sits in the array. -/
theorem queries_emb (t : Fin cfg1.N) (z : Fin 1) (r : Fin 2048) (h : Fin 64) :
    ((cfg1.win 4).blk t).view.emb (ix3 z r h) = ix3 (⟨t.val, lt8 t⟩ : Fin 8) r h := by
  obtain ⟨-, -, -, -, -, -, -, -, -, e0, e1, e2⟩ := idx_facts t
  funext a
  apply Fin.ext
  have hz : z.val < 1 := z.isLt
  match a with
  | ⟨0, _⟩ => show win1_4.index t 0 * 1 + 1 * z.val = t.val; rw [e0]; omega
  | ⟨1, _⟩ => show win1_4.index t 1 * 2048 + 1 * r.val = r.val; rw [e1]; omega
  | ⟨2, _⟩ => show win1_4.index t 2 * 64 + 1 * h.val = h.val; rw [e2]; omega

/-- The body on point `t`'s blocks, at an entry of its block, is the turned queries at that entry's place in the array. -/
theorem queries_point (c : Dev nD) (t : Fin cfg1.N) (j : S1x2048x64.Idx) :
    k1_pay1 (iblk1 V c 0 t) (iblk1 V c 1 t) (iblk1 V c 2 t) (iblk1 V c 3 t) j
      = turnedQueries V c (((cfg1.win 4).blk t).view.emb j) := by
  obtain ⟨z, r, h, rfl⟩ : ∃ (z : Fin 1) (r : Fin 2048) (h : Fin 64), j = ix3 z r h := ⟨j 0, j 1, j 2, eq_ix3 j⟩
  refine (QueriesBody.queries_apply (iblk1 V c 0 t) (iblk1 V c 1 t) (iblk1 V c 2 t) (iblk1 V c 3 t) z r h).trans ?_
  rw [queries_emb t z r h]
  refine laneTurn_congr (fun l => ?_) (fun l => ?_) (fun l => ?_) h
  · exact Finset.sum_congr rfl fun q _ => congrArg₂ (· * ·)
      (tokens_block V c t (ix3 (0 : Fin 1) r q) (ix3 _ r q) rfl rfl rfl) (wq_block V c t (ix2 l q))
  · exact cos_block V c t (ix2 r l)
  · exact sin_block V c t (ix2 r l)

/-- WHAT POINT `t` WRITES BACK is block `t` of the turned queries. -/
theorem queries_flushed (c : Dev nD) (t : Fin cfg1.N) :
    (dat1 V c).flushed 4 t = ((cfg1.win 4).blk t).view.read (Elt Ideal) (turnedQueries V c) := by
  show (cfg1.win 4).cut (grid1.coords t) ((dat1 V c).after 4 t) = _
  rw [after1_4]
  unfold out1_4
  rw [View.canon_unit_zero hz3]
  simp only [View.ld_unit_zero (S := S1x2048x128) hz3, View.ld_unit_zero (S := S64x128) hz2, View.ld_unit_zero (S := S2048x64) hz2]
  funext j
  exact queries_point V c t j

/-- An entry of the array is in point `t`'s block iff each coordinate is in the block's range on its axis. -/
theorem mem_queries_blk (t : Fin cfg1.N) (i : S8x2048x64.Idx) :
    i ∈ ((cfg1.win 4).blk t).view.set ↔ ∀ a : Fin 3, win1_4.index t a * S1x2048x64.size a ≤ (i a).val
      ∧ (i a).val < win1_4.index t a * S1x2048x64.size a + S1x2048x64.size a := by
  show i ∈ ((View.whole main_v27).slice (win1_4.rect t)).set ↔ _
  rw [View.set_slice_whole, Rect.mem_set_unit]
  exact Iff.rfl

/-- The point whose block holds batch entry b: b itself. -/
def pointOf (i : S8x2048x64.Idx) : Fin cfg1.N := ⟨(i 0).val, lt_of_lt_of_eq (i 0).isLt N_1.symm⟩

theorem pointOf_val (i : S8x2048x64.Idx) : (pointOf i).val = (i 0).val := rfl

/-- Every entry of the queries' array is in some point's block. -/
theorem queries_cover (i : S8x2048x64.Idx) :
    ∃ t : Fin cfg1.N, (cfg1.win 4).flush t = true ∧ i ∈ ((cfg1.win 4).blk t).view.set := by
  have h0 : (i 0).val < 8 := (i 0).isLt
  have h1 : (i 1).val < 2048 := (i 1).isLt
  have h2 : (i 2).val < 64 := (i 2).isLt
  obtain ⟨-, -, -, -, -, -, -, -, -, e0, e1, e2⟩ := idx_facts (pointOf i)
  have tv := pointOf_val i
  refine ⟨pointOf i, flush1_4 _, ?_⟩
  rw [mem_queries_blk]
  intro a
  match a with
  | ⟨0, _⟩ => show win1_4.index (pointOf i) 0 * 1 ≤ (i 0).val ∧ (i 0).val < win1_4.index (pointOf i) 0 * 1 + 1; rw [e0, tv]; omega
  | ⟨1, _⟩ => show win1_4.index (pointOf i) 1 * 2048 ≤ (i 1).val ∧ (i 1).val < win1_4.index (pointOf i) 1 * 2048 + 2048; rw [e1]; omega
  | ⟨2, _⟩ => show win1_4.index (pointOf i) 2 * 64 ≤ (i 2).val ∧ (i 2).val < win1_4.index (pointOf i) 2 * 64 + 64; rw [e2]; omega

/-- THE QUERIES' ARRAY after the region: the turned queries. -/
theorem queries_final (c : Dev nD) : (dat1 V c).arrAt 4 cfg1.N = turnedQueries V c :=
  (dat1 V c).arrAt_eq_of_cover 4 (turnedQueries V c) (fun t _ => queries_flushed V c t) queries_cover

end Cert.Attn.QueriesRegion

namespace Cert.Attn

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The queries' array after the second region, entry by entry: the projection of text token (b, s) turned lane by lane
    with row s of the spread cosines and sines. -/
theorem region1_queries (c : Dev nD) (b : Fin 8) (s : Fin 2048) (h : Fin 64) :
    (dat1 (F := Ideal) V c).arrAt 4 cfg1.N (ix3 b s h)
      = laneTurn (proj (c3 (V c main_arg1 : S8x2048x128.Idx → EReal)) (c2 (V c main_arg7 : S64x128.Idx → EReal)) b s)
          (fun l => (V c main_v21 : S2048x64.Idx → EReal) (ix2 s l))
          (fun l => (V c main_v25 : S2048x64.Idx → EReal) (ix2 s l)) h :=
  congrFun (QueriesRegion.queries_final V c) (ix3 b s h)

end Cert.Attn
-- ==== Proof.Prologue.lean ====
/-
  What the first region boundary holds. The host operations before the regions only re-lay the three tables of
  (cosine, sine) pairs: each plane (cosines, sines) is cut out and every entry repeated on the two lanes of its pair;
  for the key rows the 32 lanes made from the first table are followed by the 32 made from the second. So lane l of
  a spread table holds pair l / 2 of the plane, and the argument arrays themselves are as launched.
-/
import proofs.«127364_j36429912605016_1_alg».proof.Proof.Gen.KernelIdeal.Frame
import proofs.«127364_j36429912605016_1_alg».proof.Proof.Spec
import Idealize.ShloMosaic.Lib.ValueIdx
import Idealize.ShloMosaic.Lib.Pipeline.Value
import Idealize.ShloMosaic.Lib.StableHlo.Run

set_option maxRecDepth 16384

noncomputable section

namespace Cert.Attn.Prologue

open Cert.KernelIdeal Cert.KernelIdeal.Gen Cert.Attn
open Idealize.ShloMosaic Idealize.ShloMosaic.TcCoe Idealize.ShloMosaic.ValueIdx Idealize.SL.Sem Idealize.ShloMosaic.StableHlo

/-! ## A plane spread to the lanes, and two halves joined -/

/-- One plane of a table of (cosine, sine) pairs spread to the lanes: the plane is cut out, its unit axis dropped,
    each entry repeated twice along a new last axis, and the two last axes merged; lane l holds pair l / 2. -/
theorem spread16_apply (x : FVec Ideal S4096x16x2 .f32) (off : Fin 3 → ℕ) (hs : S4096x16x2.Slices off S4096x16x1) (p : Fin 2)
    (h0 : off 0 = 0) (h1 : off 1 = 0) (h2 : off 2 = p.val) (t : Fin 4096) (l : Fin 32) :
    shapeCast S4096x32 (broadcastInDim S4096x16x2 ![0, 1] bcast_S4096x16_S4096x16x2_0_1
      (shapeCast S4096x16 (extractStridedSlice S4096x16x1 off x hs) shapeCasts_S4096x16x1_S4096x16)) shapeCasts_S4096x16x2_S4096x32 (ix2 t l)
    = x (ix3 t (⟨l.val / 2, by omega⟩ : Fin 16) p) := by
  have hl : l.val < 32 := l.isLt
  refine (shapeCast_apply _ _ (ix2 t l) (ix3 t (⟨l.val / 2, by omega⟩ : Fin 16) (⟨l.val % 2, by omega⟩ : Fin 2)) (by
    rw [Shape.rowMajor_val_three, Shape.rowMajor_val_two]
    show (t.val * 16 + l.val / 2) * 2 + l.val % 2 = t.val * 32 + l.val
    omega)).trans ?_
  refine (broadcastInDim_apply _ _ _ (ix3 t (⟨l.val / 2, by omega⟩ : Fin 16) (⟨l.val % 2, by omega⟩ : Fin 2))
    (ix2 t (⟨l.val / 2, by omega⟩ : Fin 16)) (fun a => by
      match a with
      | ⟨0, _⟩ => rfl
      | ⟨1, _⟩ => rfl)).trans ?_
  refine (shapeCast_apply _ _ (ix2 t (⟨l.val / 2, by omega⟩ : Fin 16)) (ix3 t (⟨l.val / 2, by omega⟩ : Fin 16) (0 : Fin 1)) (by
    rw [Shape.rowMajor_val_three, Shape.rowMajor_val_two]
    show (t.val * 16 + l.val / 2) * 1 + 0 = t.val * 16 + l.val / 2
    omega)).trans ?_
  exact extractStridedSlice_apply off x hs _ (ix3 t (⟨l.val / 2, by omega⟩ : Fin 16) p) (fun a => by
    match a with
    | ⟨0, _⟩ => show t.val = off 0 + t.val; omega
    | ⟨1, _⟩ => show l.val / 2 = off 1 + l.val / 2; omega
    | ⟨2, _⟩ => show p.val = off 2 + 0; omega)

/-- One plane of a table of (cosine, sine) pairs spread to the lanes: the plane is cut out, its unit axis dropped,
    each entry repeated twice along a new last axis, and the two last axes merged; lane l holds pair l / 2. -/
theorem spread32_apply (x : FVec Ideal S2048x32x2 .f32) (off : Fin 3 → ℕ) (hs : S2048x32x2.Slices off S2048x32x1) (p : Fin 2)
    (h0 : off 0 = 0) (h1 : off 1 = 0) (h2 : off 2 = p.val) (t : Fin 2048) (l : Fin 64) :
    shapeCast S2048x64 (broadcastInDim S2048x32x2 ![0, 1] bcast_S2048x32_S2048x32x2_0_1
      (shapeCast S2048x32 (extractStridedSlice S2048x32x1 off x hs) shapeCasts_S2048x32x1_S2048x32)) shapeCasts_S2048x32x2_S2048x64 (ix2 t l)
    = x (ix3 t (⟨l.val / 2, by omega⟩ : Fin 32) p) := by
  have hl : l.val < 64 := l.isLt
  refine (shapeCast_apply _ _ (ix2 t l) (ix3 t (⟨l.val / 2, by omega⟩ : Fin 32) (⟨l.val % 2, by omega⟩ : Fin 2)) (by
    rw [Shape.rowMajor_val_three, Shape.rowMajor_val_two]
    show (t.val * 32 + l.val / 2) * 2 + l.val % 2 = t.val * 64 + l.val
    omega)).trans ?_
  refine (broadcastInDim_apply _ _ _ (ix3 t (⟨l.val / 2, by omega⟩ : Fin 32) (⟨l.val % 2, by omega⟩ : Fin 2))
    (ix2 t (⟨l.val / 2, by omega⟩ : Fin 32)) (fun a => by
      match a with
      | ⟨0, _⟩ => rfl
      | ⟨1, _⟩ => rfl)).trans ?_
  refine (shapeCast_apply _ _ (ix2 t (⟨l.val / 2, by omega⟩ : Fin 32)) (ix3 t (⟨l.val / 2, by omega⟩ : Fin 32) (0 : Fin 1)) (by
    rw [Shape.rowMajor_val_three, Shape.rowMajor_val_two]
    show (t.val * 32 + l.val / 2) * 1 + 0 = t.val * 32 + l.val / 2
    omega)).trans ?_
  exact extractStridedSlice_apply off x hs _ (ix3 t (⟨l.val / 2, by omega⟩ : Fin 32) p) (fun a => by
    match a with
    | ⟨0, _⟩ => show t.val = off 0 + t.val; omega
    | ⟨1, _⟩ => show l.val / 2 = off 1 + l.val / 2; omega
    | ⟨2, _⟩ => show p.val = off 2 + 0; omega)

/-- Two runs of 32 lanes joined: lanes 0–31 from the first, lanes 32–63 from the second. -/
theorem join_apply (a b : FVec Ideal S4096x32 .f32) (t : Fin 4096) (l : Fin 64) :
    concatenate S4096x64 1 [⟨S4096x32, a⟩, ⟨S4096x32, b⟩] concatenates_S4096x32_S4096x32_S4096x64_d1 (ix2 t l)
      = if h : l.val < 32 then a (ix2 t (⟨l.val, h⟩ : Fin 32)) else b (ix2 t (⟨l.val - 32, by have := l.isLt; omega⟩ : Fin 32)) := by
  have hl : l.val < 64 := l.isLt
  split
  · next h =>
    exact concatenate_pair_apply_left 1 a b _ (ix2 t l) rfl (ix2 t (⟨l.val, h⟩ : Fin 32)) (fun b' => by
      match b' with
      | ⟨0, _⟩ => rfl
      | ⟨1, _⟩ => rfl)
  · next h =>
    exact concatenate_pair_apply_right 1 a b _ (ix2 t l) rfl rfl (ix2 t (⟨l.val - 32, by omega⟩ : Fin 32)) (fun b' hb => by
      match b' with
      | ⟨0, _⟩ => rfl
      | ⟨1, _⟩ => exact absurd rfl hb) (by
      show l.val - 32 + 32 = l.val
      omega)

variable (m : (ℓ : Loc nD τ sig) → Buf (Elt Ideal) ℓ) (ρ : Dev nD → PrngReg)

/-! ## The argument arrays at the first boundary: no host operation writes one -/

theorem entry_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem entry_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-! ## The spread tables at the first boundary -/

/-- A plane of a key table spread to 32 lanes, as the host operations spell it. -/
abbrev plane16 (x : FVec Ideal S4096x16x2 .f32) (off : Fin 3 → ℕ) (hs : S4096x16x2.Slices off S4096x16x1) : FVec Ideal S4096x32 .f32 :=
  shapeCast S4096x32 (broadcastInDim S4096x16x2 ![0, 1] bcast_S4096x16_S4096x16x2_0_1
    (shapeCast S4096x16 (extractStridedSlice S4096x16x1 off x hs) shapeCasts_S4096x16x1_S4096x16)) shapeCasts_S4096x16x2_S4096x32

/-- A plane of the query table spread to 64 lanes, as the host operations spell it. -/
abbrev plane32 (x : FVec Ideal S2048x32x2 .f32) (off : Fin 3 → ℕ) (hs : S2048x32x2.Slices off S2048x32x1) : FVec Ideal S2048x64 .f32 :=
  shapeCast S2048x64 (broadcastInDim S2048x32x2 ![0, 1] bcast_S2048x32_S2048x32x2_0_1
    (shapeCast S2048x32 (extractStridedSlice S2048x32x1 off x hs) shapeCasts_S2048x32x1_S2048x32)) shapeCasts_S2048x32x2_S2048x64

/-- Lane l of a joined key table is pair l / 2 of the key rows' table. -/
theorem joined_apply (x4 x5 : FVec Ideal S4096x16x2 .f32) (off : Fin 3 → ℕ) (hs : S4096x16x2.Slices off S4096x16x1) (p : Fin 2)
    (h0 : off 0 = 0) (h1 : off 1 = 0) (h2 : off 2 = p.val) (t : Fin 4096) (l : Fin 64) :
    concatenate S4096x64 1 [⟨S4096x32, plane16 x4 off hs⟩, ⟨S4096x32, plane16 x5 off hs⟩] concatenates_S4096x32_S4096x32_S4096x64_d1 (ix2 t l)
      = keyTable (c3 x4) (c3 x5) p t (half l) := by
  have hl : l.val < 64 := l.isLt
  rw [join_apply]
  unfold keyTable half
  by_cases h : l.val < 32
  · rw [dif_pos h, dif_pos (show l.val / 2 < 16 by omega)]
    exact spread16_apply x4 off hs p h0 h1 h2 t ⟨l.val, h⟩
  · rw [dif_neg h, dif_neg (show ¬ l.val / 2 < 16 by omega)]
    refine (spread16_apply x5 off hs p h0 h1 h2 t ⟨l.val - 32, by omega⟩).trans ?_
    exact congrArg x5 (funext fun a => Fin.ext (by
      match a with
      | ⟨0, _⟩ => rfl
      | ⟨1, _⟩ => show (l.val - 32) / 2 = l.val / 2 - 16; omega
      | ⟨2, _⟩ => rfl))

/-- The key rows' cosines, spread to the lanes, as the first region finds them. -/
theorem keyCos_apply (c : Dev nD) (t : Fin 4096) (l : Fin 64) :
    (W1 m ρ c (Proc.devRef .tc main_v16) : S4096x64.Idx → EReal) (ix2 t l)
      = keyTable (c3 (n0 := 4096) (n1 := 16) (n2 := 2) (m ((c : Thread nD τ).loc main_arg4)))
          (c3 (n0 := 4096) (n1 := 16) (n2 := 2) (m ((c : Thread nD τ).loc main_arg5))) 0 t (half l) := by
  have e : (W1 m ρ c (Proc.devRef .tc main_v16) : S4096x64.Idx → EReal)
      = concatenate S4096x64 1 [⟨S4096x32, plane16 (m ((c : Thread nD τ).loc main_arg4)) ![0, 0, 0] slices_S4096x16x2_S4096x16x1_0_0_0⟩,
          ⟨S4096x32, plane16 (m ((c : Thread nD τ).loc main_arg5)) ![0, 0, 0] slices_S4096x16x2_S4096x16x1_0_0_0⟩] concatenates_S4096x32_S4096x32_S4096x64_d1 := by
    dsimp only [W1, hostOps0]; after_results; rfl
  rw [e]
  exact joined_apply _ _ _ _ 0 rfl rfl rfl t l

/-- The key rows' sines. -/
theorem keySin_apply (c : Dev nD) (t : Fin 4096) (l : Fin 64) :
    (W1 m ρ c (Proc.devRef .tc main_v17) : S4096x64.Idx → EReal) (ix2 t l)
      = keyTable (c3 (n0 := 4096) (n1 := 16) (n2 := 2) (m ((c : Thread nD τ).loc main_arg4)))
          (c3 (n0 := 4096) (n1 := 16) (n2 := 2) (m ((c : Thread nD τ).loc main_arg5))) 1 t (half l) := by
  have e : (W1 m ρ c (Proc.devRef .tc main_v17) : S4096x64.Idx → EReal)
      = concatenate S4096x64 1 [⟨S4096x32, plane16 (m ((c : Thread nD τ).loc main_arg4)) ![0, 0, 1] slices_S4096x16x2_S4096x16x1_0_0_1⟩,
          ⟨S4096x32, plane16 (m ((c : Thread nD τ).loc main_arg5)) ![0, 0, 1] slices_S4096x16x2_S4096x16x1_0_0_1⟩] concatenates_S4096x32_S4096x32_S4096x64_d1 := by
    dsimp only [W1, hostOps0]; after_results; rfl
  rw [e]
  exact joined_apply _ _ _ _ 1 rfl rfl rfl t l

/-- The query rows' cosines. -/
theorem queryCos_apply (c : Dev nD) (s : Fin 2048) (l : Fin 64) :
    (W1 m ρ c (Proc.devRef .tc main_v21) : S2048x64.Idx → EReal) (ix2 s l)
      = (m ((c : Thread nD τ).loc main_arg3) : S2048x32x2.Idx → EReal) (ix3 s (half l) (0 : Fin 2)) := by
  have e : (W1 m ρ c (Proc.devRef .tc main_v21) : S2048x64.Idx → EReal)
      = plane32 (m ((c : Thread nD τ).loc main_arg3)) ![0, 0, 0] slices_S2048x32x2_S2048x32x1_0_0_0 := by
    dsimp only [W1, hostOps0]; after_results; rfl
  rw [e]
  exact spread32_apply _ _ _ 0 rfl rfl rfl s l

/-- The query rows' sines. -/
theorem querySin_apply (c : Dev nD) (s : Fin 2048) (l : Fin 64) :
    (W1 m ρ c (Proc.devRef .tc main_v25) : S2048x64.Idx → EReal) (ix2 s l)
      = (m ((c : Thread nD τ).loc main_arg3) : S2048x32x2.Idx → EReal) (ix3 s (half l) (1 : Fin 2)) := by
  have e : (W1 m ρ c (Proc.devRef .tc main_v25) : S2048x64.Idx → EReal)
      = plane32 (m ((c : Thread nD τ).loc main_arg3)) ![0, 0, 1] slices_S2048x32x2_S2048x32x1_0_0_1 := by
    dsimp only [W1, hostOps0]; after_results; rfl
  rw [e]
  exact spread32_apply _ _ _ 1 rfl rfl rfl s l

end Cert.Attn.Prologue

end
-- ==== Proof.Turn.lean ====
/-
  The two spellings of the turn agree on the extended reals: with the tables spread to the lanes, the lane-wise form
  `k·cos + (partner · ∓1)·sin` is the pair form `(a·cos − b·sin, a·sin + b·cos)`. On an even lane the product with
  −1 is the negation and adding a negation is subtracting; on an odd lane the product with 1 is the factor itself
  and the sum is commuted. Neither step needs finiteness.
-/
import proofs.«127364_j36429912605016_1_alg».proof.Proof.Spec

noncomputable section

namespace Cert.Attn

theorem laneTurn_eq_turn (k : Fin 64 → EReal) (cs sn : Fin 32 → EReal) (h : Fin 64) :
    laneTurn k (fun l => cs (half l)) (fun l => sn (half l)) h = turn k cs sn h := by
  unfold laneTurn turn
  by_cases e : h.val % 2 = 0
  · simp only [if_pos e]
    rw [mul_neg, mul_one, EReal.neg_mul, sub_eq_add_neg]
  · simp only [if_neg e]
    rw [mul_one, add_comm]

end Cert.Attn

end
-- ==== Proof.KernelValue.lean ====
/-
  The idealized kernel's result as a function of its arguments. The third region's array is `attend` of the three
  arrays it finds; the turned queries it finds are what the second region left, the turned keys and the values what
  the first region left; those two regions found the argument arrays as launched and the tables spread to the lanes,
  where the lane-wise turn is the pair-wise turn. Composed, the result array is the specification's `result` of the
  launch memory's arguments.
-/
import proofs.«127364_j36429912605016_1_alg».proof.Proof.Region2
import proofs.«127364_j36429912605016_1_alg».proof.Proof.KeysRegion
import proofs.«127364_j36429912605016_1_alg».proof.Proof.QueriesRegion
import proofs.«127364_j36429912605016_1_alg».proof.Proof.Prologue
import proofs.«127364_j36429912605016_1_alg».proof.Proof.Turn
import proofs.«127364_j36429912605016_1_alg».proof.Proof.SpecLaws

set_option maxRecDepth 16384

noncomputable section

namespace Cert.Attn.KernelValue

open Cert.KernelIdeal Cert.KernelIdeal.Gen Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The turned keys the third region finds: the first region's first output, from the launch memory. -/
theorem keys_found (c : Dev nD) (b : Fin 8) (t : Fin 4096) (l : Fin 64) :
    (V3 m ρ c main_v26_0 : S8x4096x64.Idx → EReal) (ix3 b t l)
      = keys (c3 (n0 := 8) (n1 := 4096) (n2 := 512) (m ((c : Thread nD τ).loc main_arg0))) (c2 (n0 := 64) (n1 := 512) (m ((c : Thread nD τ).loc main_arg6)))
          (c3 (n0 := 4096) (n1 := 16) (n2 := 2) (m ((c : Thread nD τ).loc main_arg4))) (c3 (n0 := 4096) (n1 := 16) (n2 := 2) (m ((c : Thread nD τ).loc main_arg5))) b t l := by
  have e1 : (V3 m ρ c main_v26_0 : S8x4096x64.Idx → EReal) = (dat0 (V1 m ρ) c).arrAt 5 cfg0.N :=
    (W3_of_ne m ρ c main_v26_0 (by decide)).trans (W2_arr m ρ c 5)
  rw [e1, region0_keys (V1 m ρ) c b t l]
  unfold keys
  rw [← laneTurn_eq_turn]
  have a0 : (V1 m ρ c main_arg0 : S8x4096x512.Idx → EReal) = m ((c : Thread nD τ).loc main_arg0) := Prologue.entry_arg0 m ρ c
  have a6 : (V1 m ρ c main_arg6 : S64x512.Idx → EReal) = m ((c : Thread nD τ).loc main_arg6) := Prologue.entry_arg6 m ρ c
  have tc : (fun l' : Fin 64 => (V1 m ρ c main_v16 : S4096x64.Idx → EReal) (ix2 t l'))
      = fun l' => keyTable (c3 (n0 := 4096) (n1 := 16) (n2 := 2) (m ((c : Thread nD τ).loc main_arg4))) (c3 (n0 := 4096) (n1 := 16) (n2 := 2) (m ((c : Thread nD τ).loc main_arg5))) 0 t (half l') :=
    funext fun l' => Prologue.keyCos_apply m ρ c t l'
  have ts : (fun l' : Fin 64 => (V1 m ρ c main_v17 : S4096x64.Idx → EReal) (ix2 t l'))
      = fun l' => keyTable (c3 (n0 := 4096) (n1 := 16) (n2 := 2) (m ((c : Thread nD τ).loc main_arg4))) (c3 (n0 := 4096) (n1 := 16) (n2 := 2) (m ((c : Thread nD τ).loc main_arg5))) 1 t (half l') :=
    funext fun l' => Prologue.keySin_apply m ρ c t l'
  rw [a0, a6, tc, ts]

/-- The values the third region finds: the first region's second output. -/
theorem vals_found (c : Dev nD) (b : Fin 8) (t : Fin 4096) (l : Fin 64) :
    (V3 m ρ c main_v26_1 : S8x4096x64.Idx → EReal) (ix3 b t l)
      = vals (c3 (n0 := 8) (n1 := 4096) (n2 := 512) (m ((c : Thread nD τ).loc main_arg0))) (c2 (n0 := 64) (n1 := 512) (m ((c : Thread nD τ).loc main_arg8))) b t l := by
  have e1 : (V3 m ρ c main_v26_1 : S8x4096x64.Idx → EReal) = (dat0 (V1 m ρ) c).arrAt 6 cfg0.N :=
    (W3_of_ne m ρ c main_v26_1 (by decide)).trans (W2_arr m ρ c 6)
  rw [e1, region0_vals (V1 m ρ) c b t l]
  unfold vals
  have a0 : (V1 m ρ c main_arg0 : S8x4096x512.Idx → EReal) = m ((c : Thread nD τ).loc main_arg0) := Prologue.entry_arg0 m ρ c
  have a8 : (V1 m ρ c main_arg8 : S64x512.Idx → EReal) = m ((c : Thread nD τ).loc main_arg8) := Prologue.entry_arg8 m ρ c
  rw [a0, a8]

/-- The turned queries the third region finds: the second region's output. -/
theorem queries_found (c : Dev nD) (b : Fin 8) (s : Fin 2048) (l : Fin 64) :
    (V3 m ρ c main_v27 : S8x2048x64.Idx → EReal) (ix3 b s l)
      = queries (c3 (n0 := 8) (n1 := 2048) (n2 := 128) (m ((c : Thread nD τ).loc main_arg1))) (c2 (n0 := 64) (n1 := 128) (m ((c : Thread nD τ).loc main_arg7)))
          (c3 (n0 := 2048) (n1 := 32) (n2 := 2) (m ((c : Thread nD τ).loc main_arg3))) b s l := by
  have e1 : (V3 m ρ c main_v27 : S8x2048x64.Idx → EReal) = (dat1 (V2 m ρ) c).arrAt 4 cfg1.N := W3_arr m ρ c 4
  rw [e1, region1_queries (V2 m ρ) c b s l]
  unfold queries
  rw [← laneTurn_eq_turn]
  have a1 : (V2 m ρ c main_arg1 : S8x2048x128.Idx → EReal) = m ((c : Thread nD τ).loc main_arg1) :=
    (W2_of_ne m ρ c main_arg1 (by decide)).trans (Prologue.entry_arg1 m ρ c)
  have a7 : (V2 m ρ c main_arg7 : S64x128.Idx → EReal) = m ((c : Thread nD τ).loc main_arg7) :=
    (W2_of_ne m ρ c main_arg7 (by decide)).trans (Prologue.entry_arg7 m ρ c)
  have tc : (fun l' : Fin 64 => (V2 m ρ c main_v21 : S2048x64.Idx → EReal) (ix2 s l'))
      = fun l' => c3 (n0 := 2048) (n1 := 32) (n2 := 2) (m ((c : Thread nD τ).loc main_arg3)) s (half l') 0 :=
    funext fun l' => (congrFun (W2_of_ne m ρ c main_v21 (by decide)) (ix2 s l')).trans (Prologue.queryCos_apply m ρ c s l')
  have ts : (fun l' : Fin 64 => (V2 m ρ c main_v25 : S2048x64.Idx → EReal) (ix2 s l'))
      = fun l' => c3 (n0 := 2048) (n1 := 32) (n2 := 2) (m ((c : Thread nD τ).loc main_arg3)) s (half l') 1 :=
    funext fun l' => (congrFun (W2_of_ne m ρ c main_v25 (by decide)) (ix2 s l')).trans (Prologue.querySin_apply m ρ c s l')
  rw [a1, a7, tc, ts]

/-- The result array after the run, entry by entry. -/
theorem result_value (c : Dev nD) (b : Fin 8) (s : Fin 2048) (h : Fin 64) :
    (dat2 (V3 m ρ) c).arrAt 3 cfg2.N (ix3 b s h)
      = result (c3 (n0 := 8) (n1 := 4096) (n2 := 512) (m ((c : Thread nD τ).loc main_arg0))) (c3 (n0 := 8) (n1 := 2048) (n2 := 128) (m ((c : Thread nD τ).loc main_arg1)))
          (c3 (n0 := 2048) (n1 := 32) (n2 := 2) (m ((c : Thread nD τ).loc main_arg3))) (c3 (n0 := 4096) (n1 := 16) (n2 := 2) (m ((c : Thread nD τ).loc main_arg4)))
          (c3 (n0 := 4096) (n1 := 16) (n2 := 2) (m ((c : Thread nD τ).loc main_arg5))) (c2 (n0 := 64) (n1 := 512) (m ((c : Thread nD τ).loc main_arg6)))
          (c2 (n0 := 64) (n1 := 128) (m ((c : Thread nD τ).loc main_arg7))) (c2 (n0 := 64) (n1 := 512) (m ((c : Thread nD τ).loc main_arg8))) b s h := by
  rw [Region2.region2_out (V3 m ρ) c]
  unfold Region2.G result
  exact attend_congr (fun l => queries_found m ρ c b s l) (fun t l => keys_found m ρ c b t l) (fun t l => vals_found m ρ c b t l) rfl

end Cert.Attn.KernelValue

end
-- ==== Proof.RefKeys.lean ====
/-
  The reference's turned key rows.

  The reference projects an image row to 64 lanes and treats its two halves of 32 lanes separately: each half is
  viewed as 16 (even, odd) pairs (a, b), turned by the angle whose cosine c and sine d the half's own table gives
  for the pair — a·c − b·d and a·d + b·c, interleaved back into 32 lanes — and the two turned halves are laid
  side by side. Lane h < 32 is lane h of the first half, whose pair h / 2 is pair h / 2 of the whole row and whose
  table is the first one; lane h ≥ 32 is lane h − 32 of the second half, whose pair (h − 32) / 2 is pair h / 2 of
  the whole row, sixteen further on, and whose table is the second one at h / 2 − 16. So the row is turned pair by
  pair with the table that takes its first sixteen pairs from the first table and its last sixteen from the
  second: the specification's turn with the key table.
-/
import proofs.«127364_j36429912605016_1_alg».proof.Proof.Gen.ReferenceIdeal.Read
import proofs.«127364_j36429912605016_1_alg».proof.Proof.Spec

noncomputable section

namespace Cert.Attn.Ref

open Cert.Attn Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Equality of two lanes, or of two pairs, from the arithmetic of their positions. -/
local macro "lane_eq" : tactic =>
  `(tactic| (apply Fin.ext; first | rfl | (simp only [half, Cert.Attn.next, Cert.Attn.prev] <;> omega)))

/-- The key table on a pair among the first sixteen is the first table. -/
theorem keyTable_lo (fx fy : Fin 4096 → Fin 16 → Fin 2 → EReal) (p : Fin 2) (t : Fin 4096) (i : Fin 32) (hi : i.val < 16) :
    keyTable fx fy p t i = fx t ⟨i.val, hi⟩ p := by
  unfold keyTable; exact dif_pos hi

/-- The key table on a pair among the last sixteen is the second table, sixteen pairs back. -/
theorem keyTable_hi (fx fy : Fin 4096 → Fin 16 → Fin 2 → EReal) (p : Fin 2) (t : Fin 4096) (i : Fin 32) (hi : 16 ≤ i.val) :
    keyTable fx fy p t i = fy t ⟨i.val - 16, by have := i.isLt; omega⟩ p := by
  unfold keyTable; exact dif_neg (by omega)

section
variable (x0 : (⟨S8x4096x512, .f32⟩ : BufTy).Contents (Elt Ideal)) (x4 : (⟨S4096x16x2, .f32⟩ : BufTy).Contents (Elt Ideal)) (x5 : (⟨S4096x16x2, .f32⟩ : BufTy).Contents (Elt Ideal)) (x6 : (⟨S64x512, .f32⟩ : BufTy).Contents (Elt Ideal))

/-- The projected image row at a lane: the sum over the 512 channels. -/
theorem k_proj (b : Fin 8) (t : Fin 4096) (h : Fin 64) :
    val_main_v0 (F := Ideal) x0 x6 (ix3 b t h) = proj (c3 x0) (c2 x6) b t h := by
  rw [val_main_v0_apply]
  unfold proj
  refine Finset.sum_congr rfl fun c _ => ?_
  have el : lidx_main_v0 (ix3 b t h) c = ix3 b t c := funext fun a => Fin.ext (by match a with | ⟨0, _⟩ => rfl | ⟨1, _⟩ => rfl | ⟨2, _⟩ => rfl)
  have er : ridx_main_v0 (ix3 b t h) c = ix2 h c := funext fun a => Fin.ext (by match a with | ⟨0, _⟩ => rfl | ⟨1, _⟩ => rfl)
  exact congrArg₂ (· * ·) (congrArg x0 el) (congrArg x6 er)

/-! ## The first 32 lanes of a key row (pairs 0–15, table x4) -/

theorem k_lo_dropA (b : Fin 8) (t : Fin 4096) (i : Fin 16) : idx_main_v5 (ix3 b t i) = ix4 b t i (0 : Fin 1) :=
  funext fun a => Fin.ext (by
    have hb := b.isLt; have ht := t.isLt; have hi := i.isLt
    match a with
    | ⟨0, _⟩ => show ((b.val * 4096 + t.val) * 16 + i.val) / 65536 = b.val; omega
    | ⟨1, _⟩ => show ((b.val * 4096 + t.val) * 16 + i.val) / 16 % 4096 = t.val; omega
    | ⟨2, _⟩ => show ((b.val * 4096 + t.val) * 16 + i.val) / 1 % 16 = i.val; omega
    | ⟨3, _⟩ => rfl)
theorem k_lo_dropB (b : Fin 8) (t : Fin 4096) (i : Fin 16) : idx_main_v7 (ix3 b t i) = ix4 b t i (0 : Fin 1) :=
  funext fun a => Fin.ext (by
    have hb := b.isLt; have ht := t.isLt; have hi := i.isLt
    match a with
    | ⟨0, _⟩ => show ((b.val * 4096 + t.val) * 16 + i.val) / 65536 = b.val; omega
    | ⟨1, _⟩ => show ((b.val * 4096 + t.val) * 16 + i.val) / 16 % 4096 = t.val; omega
    | ⟨2, _⟩ => show ((b.val * 4096 + t.val) * 16 + i.val) / 1 % 16 = i.val; omega
    | ⟨3, _⟩ => rfl)
theorem k_lo_sliceA (b : Fin 8) (t : Fin 4096) (i : Fin 16) : idx_main_v4 (ix4 b t i (0 : Fin 1)) = ix4 b t i (0 : Fin 2) := funext fun a => Fin.ext (by match a with | ⟨0, _⟩ => rfl | ⟨1, _⟩ => rfl | ⟨2, _⟩ => rfl | ⟨3, _⟩ => rfl)
theorem k_lo_sliceB (b : Fin 8) (t : Fin 4096) (i : Fin 16) : idx_main_v6 (ix4 b t i (0 : Fin 1)) = ix4 b t i (1 : Fin 2) := funext fun a => Fin.ext (by match a with | ⟨0, _⟩ => rfl | ⟨1, _⟩ => rfl | ⟨2, _⟩ => rfl | ⟨3, _⟩ => rfl)
/-- Member 0 of the half's pair i is lane 2 * i of the whole row. -/
theorem k_lo_lane0 (b : Fin 8) (t : Fin 4096) (i : Fin 16) :
    idx_main_v1 (idx_main_v3 (ix4 b t i (0 : Fin 2))) = ix3 b t (⟨2 * i.val, by omega⟩ : Fin 64) :=
  funext fun a => Fin.ext (by
    have hb := b.isLt; have ht := t.isLt; have hi := i.isLt
    match a with
    | ⟨0, _⟩ => show (((b.val * 4096 + t.val) * 16 + i.val) * 2 + 0) / 131072 = b.val; omega
    | ⟨1, _⟩ => show (((b.val * 4096 + t.val) * 16 + i.val) * 2 + 0) / 32 % 4096 = t.val; omega
    | ⟨2, _⟩ => show (((b.val * 4096 + t.val) * 16 + i.val) * 2 + 0) % 32 = 2 * i.val; omega)
/-- Member 1 of the half's pair i is lane 2 * i + 1 of the whole row. -/
theorem k_lo_lane1 (b : Fin 8) (t : Fin 4096) (i : Fin 16) :
    idx_main_v1 (idx_main_v3 (ix4 b t i (1 : Fin 2))) = ix3 b t (⟨2 * i.val + 1, by omega⟩ : Fin 64) :=
  funext fun a => Fin.ext (by
    have hb := b.isLt; have ht := t.isLt; have hi := i.isLt
    match a with
    | ⟨0, _⟩ => show (((b.val * 4096 + t.val) * 16 + i.val) * 2 + 1) / 131072 = b.val; omega
    | ⟨1, _⟩ => show (((b.val * 4096 + t.val) * 16 + i.val) * 2 + 1) / 32 % 4096 = t.val; omega
    | ⟨2, _⟩ => show (((b.val * 4096 + t.val) * 16 + i.val) * 2 + 1) % 32 = 2 * i.val + 1; omega)

theorem k_lo_memberA (b : Fin 8) (t : Fin 4096) (i : Fin 16) :
    val_main_v5 (F := Ideal) x0 x6 (ix3 b t i) = proj (c3 x0) (c2 x6) b t ⟨2 * i.val, by omega⟩ := by
  rw [val_main_v5_apply, k_lo_dropA, val_main_v4_apply, k_lo_sliceA, val_main_v3_apply, val_main_v1_apply,
    k_lo_lane0, k_proj]

theorem k_lo_memberB (b : Fin 8) (t : Fin 4096) (i : Fin 16) :
    val_main_v7 (F := Ideal) x0 x6 (ix3 b t i) = proj (c3 x0) (c2 x6) b t ⟨2 * i.val + 1, by omega⟩ := by
  rw [val_main_v7_apply, k_lo_dropB, val_main_v6_apply, k_lo_sliceB, val_main_v3_apply, val_main_v1_apply,
    k_lo_lane1, k_proj]

theorem k_lo_spread1 (b : Fin 8) (t : Fin 4096) (i : Fin 16) : idx_main_v14 (ix3 b t i) = ix3 (0 : Fin 1) t i := funext fun a => Fin.ext (by match a with | ⟨0, _⟩ => rfl | ⟨1, _⟩ => rfl | ⟨2, _⟩ => rfl)
theorem k_lo_spread2 (b : Fin 8) (t : Fin 4096) (i : Fin 16) : idx_main_v16 (ix3 b t i) = ix3 (0 : Fin 1) t i := funext fun a => Fin.ext (by match a with | ⟨0, _⟩ => rfl | ⟨1, _⟩ => rfl | ⟨2, _⟩ => rfl)
theorem k_lo_spread3 (b : Fin 8) (t : Fin 4096) (i : Fin 16) : idx_main_v19 (ix3 b t i) = ix3 (0 : Fin 1) t i := funext fun a => Fin.ext (by match a with | ⟨0, _⟩ => rfl | ⟨1, _⟩ => rfl | ⟨2, _⟩ => rfl)
theorem k_lo_spread4 (b : Fin 8) (t : Fin 4096) (i : Fin 16) : idx_main_v21 (ix3 b t i) = ix3 (0 : Fin 1) t i := funext fun a => Fin.ext (by match a with | ⟨0, _⟩ => rfl | ⟨1, _⟩ => rfl | ⟨2, _⟩ => rfl)
theorem k_lo_cosB (t : Fin 4096) (i : Fin 16) : idx_main_v10 (ix3 (0 : Fin 1) t i) = ix2 t i := funext fun a => Fin.ext (by match a with | ⟨0, _⟩ => rfl | ⟨1, _⟩ => rfl)
theorem k_lo_sinB (t : Fin 4096) (i : Fin 16) : idx_main_v13 (ix3 (0 : Fin 1) t i) = ix2 t i := funext fun a => Fin.ext (by match a with | ⟨0, _⟩ => rfl | ⟨1, _⟩ => rfl)
theorem k_lo_cosR (t : Fin 4096) (i : Fin 16) : idx_main_v9 (ix2 t i) = ix3 t i (0 : Fin 1) :=
  funext fun a => Fin.ext (by
    have ht := t.isLt; have hi := i.isLt
    match a with
    | ⟨0, _⟩ => show (t.val * 16 + i.val) / 16 = t.val; omega
    | ⟨1, _⟩ => show (t.val * 16 + i.val) / 1 % 16 = i.val; omega
    | ⟨2, _⟩ => rfl)
theorem k_lo_sinR (t : Fin 4096) (i : Fin 16) : idx_main_v12 (ix2 t i) = ix3 t i (0 : Fin 1) :=
  funext fun a => Fin.ext (by
    have ht := t.isLt; have hi := i.isLt
    match a with
    | ⟨0, _⟩ => show (t.val * 16 + i.val) / 16 = t.val; omega
    | ⟨1, _⟩ => show (t.val * 16 + i.val) / 1 % 16 = i.val; omega
    | ⟨2, _⟩ => rfl)
theorem k_lo_cosS (t : Fin 4096) (i : Fin 16) : idx_main_v8 (ix3 t i (0 : Fin 1)) = ix3 t i (0 : Fin 2) := funext fun a => Fin.ext (by match a with | ⟨0, _⟩ => rfl | ⟨1, _⟩ => rfl | ⟨2, _⟩ => rfl)
theorem k_lo_sinS (t : Fin 4096) (i : Fin 16) : idx_main_v11 (ix3 t i (0 : Fin 1)) = ix3 t i (1 : Fin 2) := funext fun a => Fin.ext (by match a with | ⟨0, _⟩ => rfl | ⟨1, _⟩ => rfl | ⟨2, _⟩ => rfl)

/-- The cosine of the pair (t, i). -/
theorem k_lo_cos (t : Fin 4096) (i : Fin 16) : val_main_v10 (F := Ideal) x4 (ix3 (0 : Fin 1) t i) = c3 x4 t i 0 := by
  rw [val_main_v10_apply, k_lo_cosB, val_main_v9_apply, k_lo_cosR, val_main_v8_apply, k_lo_cosS]

/-- The sine of the pair (t, i). -/
theorem k_lo_sin (t : Fin 4096) (i : Fin 16) : val_main_v13 (F := Ideal) x4 (ix3 (0 : Fin 1) t i) = c3 x4 t i 1 := by
  rw [val_main_v13_apply, k_lo_sinB, val_main_v12_apply, k_lo_sinR, val_main_v11_apply, k_lo_sinS]

/-- a·cos − b·sin at the half's pair i. -/
theorem k_lo_first (b : Fin 8) (t : Fin 4096) (i : Fin 16) :
    val_main_v18 (F := Ideal) x0 x4 x6 (ix3 b t i)
      = proj (c3 x0) (c2 x6) b t ⟨2 * i.val, by omega⟩ * c3 x4 t i 0
        - proj (c3 x0) (c2 x6) b t ⟨2 * i.val + 1, by omega⟩ * c3 x4 t i 1 := by
  rw [val_main_v18_apply, val_main_v15_apply, val_main_v17_apply, val_main_v14_apply, val_main_v16_apply,
    k_lo_spread1, k_lo_spread2, k_lo_cos, k_lo_sin, k_lo_memberA, k_lo_memberB]
  rfl

/-- a·sin + b·cos at the half's pair i. -/
theorem k_lo_second (b : Fin 8) (t : Fin 4096) (i : Fin 16) :
    val_main_v23 (F := Ideal) x0 x4 x6 (ix3 b t i)
      = proj (c3 x0) (c2 x6) b t ⟨2 * i.val, by omega⟩ * c3 x4 t i 1
        + proj (c3 x0) (c2 x6) b t ⟨2 * i.val + 1, by omega⟩ * c3 x4 t i 0 := by
  rw [val_main_v23_apply, val_main_v20_apply, val_main_v22_apply, val_main_v19_apply, val_main_v21_apply,
    k_lo_spread3, k_lo_spread4, k_lo_cos, k_lo_sin, k_lo_memberA, k_lo_memberB]
  rfl

theorem k_lo_unit1 (b : Fin 8) (t : Fin 4096) (i : Fin 16) : idx_main_v24 (ix4 b t i (0 : Fin 1)) = ix3 b t i := funext fun a => Fin.ext (by match a with | ⟨0, _⟩ => rfl | ⟨1, _⟩ => rfl | ⟨2, _⟩ => rfl)
theorem k_lo_unit2 (b : Fin 8) (t : Fin 4096) (i : Fin 16) : idx_main_v25 (ix4 b t i (0 : Fin 1)) = ix3 b t i := funext fun a => Fin.ext (by match a with | ⟨0, _⟩ => rfl | ⟨1, _⟩ => rfl | ⟨2, _⟩ => rfl)

/-- Member 0 of the joined pair is the first combination. -/
theorem k_lo_join0 (b : Fin 8) (t : Fin 4096) (i : Fin 16) :
    val_main_v26 (F := Ideal) x0 x4 x6 (ix4 b t i (0 : Fin 2)) = val_main_v18 (F := Ideal) x0 x4 x6 (ix3 b t i) := by
  rw [← k_lo_unit1 b t i, ← val_main_v24_apply]
  unfold val_main_v26
  generalize val_main_v24 (F := Ideal) x0 x4 x6 = y1
  generalize val_main_v25 (F := Ideal) x0 x4 x6 = y2
  exact concatenate_pair_apply_left (3 : Fin S8x4096x16x2.rank) y1 y2 _ (ix4 b t i (0 : Fin 2)) rfl (ix4 b t i (0 : Fin 1))
    (fun a => match a with | ⟨0, _⟩ => rfl | ⟨1, _⟩ => rfl | ⟨2, _⟩ => rfl | ⟨3, _⟩ => rfl)

/-- Member 1 of the joined pair is the second combination. -/
theorem k_lo_join1 (b : Fin 8) (t : Fin 4096) (i : Fin 16) :
    val_main_v26 (F := Ideal) x0 x4 x6 (ix4 b t i (1 : Fin 2)) = val_main_v23 (F := Ideal) x0 x4 x6 (ix3 b t i) := by
  rw [← k_lo_unit2 b t i, ← val_main_v25_apply]
  unfold val_main_v26
  generalize val_main_v24 (F := Ideal) x0 x4 x6 = y1
  generalize val_main_v25 (F := Ideal) x0 x4 x6 = y2
  exact concatenate_pair_apply_right (3 : Fin S8x4096x16x2.rank) y1 y2 _ (ix4 b t i (1 : Fin 2)) rfl rfl (ix4 b t i (0 : Fin 1))
    (fun a => match a with | ⟨0, _⟩ => fun _ => rfl | ⟨1, _⟩ => fun _ => rfl | ⟨2, _⟩ => fun _ => rfl | ⟨3, _⟩ => fun hne => absurd rfl hne)
    rfl

/-- Lane j of the half is member j % 2 of its pair j / 2. -/
theorem k_lo_back (b : Fin 8) (t : Fin 4096) (j : Fin 32) :
    idx_main_v27 (ix3 b t j) = ix4 b t (⟨j.val / 2, by omega⟩ : Fin 16) (⟨j.val % 2, by omega⟩ : Fin 2) :=
  funext fun a => Fin.ext (by
    have hb := b.isLt; have ht := t.isLt; have hj := j.isLt
    match a with
    | ⟨0, _⟩ => show ((b.val * 4096 + t.val) * 32 + j.val) / 131072 = b.val; omega
    | ⟨1, _⟩ => show ((b.val * 4096 + t.val) * 32 + j.val) / 32 % 4096 = t.val; omega
    | ⟨2, _⟩ => show ((b.val * 4096 + t.val) * 32 + j.val) / 2 % 16 = j.val / 2; omega
    | ⟨3, _⟩ => show ((b.val * 4096 + t.val) * 32 + j.val) % 2 = j.val % 2; omega)

/-! ## The second 32 lanes of a key row (pairs 16–31, table x5) -/

theorem k_hi_dropA (b : Fin 8) (t : Fin 4096) (i : Fin 16) : idx_main_v30 (ix3 b t i) = ix4 b t i (0 : Fin 1) :=
  funext fun a => Fin.ext (by
    have hb := b.isLt; have ht := t.isLt; have hi := i.isLt
    match a with
    | ⟨0, _⟩ => show ((b.val * 4096 + t.val) * 16 + i.val) / 65536 = b.val; omega
    | ⟨1, _⟩ => show ((b.val * 4096 + t.val) * 16 + i.val) / 16 % 4096 = t.val; omega
    | ⟨2, _⟩ => show ((b.val * 4096 + t.val) * 16 + i.val) / 1 % 16 = i.val; omega
    | ⟨3, _⟩ => rfl)
theorem k_hi_dropB (b : Fin 8) (t : Fin 4096) (i : Fin 16) : idx_main_v32 (ix3 b t i) = ix4 b t i (0 : Fin 1) :=
  funext fun a => Fin.ext (by
    have hb := b.isLt; have ht := t.isLt; have hi := i.isLt
    match a with
    | ⟨0, _⟩ => show ((b.val * 4096 + t.val) * 16 + i.val) / 65536 = b.val; omega
    | ⟨1, _⟩ => show ((b.val * 4096 + t.val) * 16 + i.val) / 16 % 4096 = t.val; omega
    | ⟨2, _⟩ => show ((b.val * 4096 + t.val) * 16 + i.val) / 1 % 16 = i.val; omega
    | ⟨3, _⟩ => rfl)
theorem k_hi_sliceA (b : Fin 8) (t : Fin 4096) (i : Fin 16) : idx_main_v29 (ix4 b t i (0 : Fin 1)) = ix4 b t i (0 : Fin 2) := funext fun a => Fin.ext (by match a with | ⟨0, _⟩ => rfl | ⟨1, _⟩ => rfl | ⟨2, _⟩ => rfl | ⟨3, _⟩ => rfl)
theorem k_hi_sliceB (b : Fin 8) (t : Fin 4096) (i : Fin 16) : idx_main_v31 (ix4 b t i (0 : Fin 1)) = ix4 b t i (1 : Fin 2) := funext fun a => Fin.ext (by match a with | ⟨0, _⟩ => rfl | ⟨1, _⟩ => rfl | ⟨2, _⟩ => rfl | ⟨3, _⟩ => rfl)
/-- Member 0 of the half's pair i is lane 32 + 2 * i of the whole row. -/
theorem k_hi_lane0 (b : Fin 8) (t : Fin 4096) (i : Fin 16) :
    idx_main_v2 (idx_main_v28 (ix4 b t i (0 : Fin 2))) = ix3 b t (⟨32 + 2 * i.val, by omega⟩ : Fin 64) :=
  funext fun a => Fin.ext (by
    have hb := b.isLt; have ht := t.isLt; have hi := i.isLt
    match a with
    | ⟨0, _⟩ => show (((b.val * 4096 + t.val) * 16 + i.val) * 2 + 0) / 131072 = b.val; omega
    | ⟨1, _⟩ => show (((b.val * 4096 + t.val) * 16 + i.val) * 2 + 0) / 32 % 4096 = t.val; omega
    | ⟨2, _⟩ => show 32 + (((b.val * 4096 + t.val) * 16 + i.val) * 2 + 0) % 32 = 32 + 2 * i.val; omega)
/-- Member 1 of the half's pair i is lane 32 + 2 * i + 1 of the whole row. -/
theorem k_hi_lane1 (b : Fin 8) (t : Fin 4096) (i : Fin 16) :
    idx_main_v2 (idx_main_v28 (ix4 b t i (1 : Fin 2))) = ix3 b t (⟨32 + 2 * i.val + 1, by omega⟩ : Fin 64) :=
  funext fun a => Fin.ext (by
    have hb := b.isLt; have ht := t.isLt; have hi := i.isLt
    match a with
    | ⟨0, _⟩ => show (((b.val * 4096 + t.val) * 16 + i.val) * 2 + 1) / 131072 = b.val; omega
    | ⟨1, _⟩ => show (((b.val * 4096 + t.val) * 16 + i.val) * 2 + 1) / 32 % 4096 = t.val; omega
    | ⟨2, _⟩ => show 32 + (((b.val * 4096 + t.val) * 16 + i.val) * 2 + 1) % 32 = 32 + 2 * i.val + 1; omega)

theorem k_hi_memberA (b : Fin 8) (t : Fin 4096) (i : Fin 16) :
    val_main_v30 (F := Ideal) x0 x6 (ix3 b t i) = proj (c3 x0) (c2 x6) b t ⟨32 + 2 * i.val, by omega⟩ := by
  rw [val_main_v30_apply, k_hi_dropA, val_main_v29_apply, k_hi_sliceA, val_main_v28_apply, val_main_v2_apply,
    k_hi_lane0, k_proj]

theorem k_hi_memberB (b : Fin 8) (t : Fin 4096) (i : Fin 16) :
    val_main_v32 (F := Ideal) x0 x6 (ix3 b t i) = proj (c3 x0) (c2 x6) b t ⟨32 + 2 * i.val + 1, by omega⟩ := by
  rw [val_main_v32_apply, k_hi_dropB, val_main_v31_apply, k_hi_sliceB, val_main_v28_apply, val_main_v2_apply,
    k_hi_lane1, k_proj]

theorem k_hi_spread1 (b : Fin 8) (t : Fin 4096) (i : Fin 16) : idx_main_v39 (ix3 b t i) = ix3 (0 : Fin 1) t i := funext fun a => Fin.ext (by match a with | ⟨0, _⟩ => rfl | ⟨1, _⟩ => rfl | ⟨2, _⟩ => rfl)
theorem k_hi_spread2 (b : Fin 8) (t : Fin 4096) (i : Fin 16) : idx_main_v41 (ix3 b t i) = ix3 (0 : Fin 1) t i := funext fun a => Fin.ext (by match a with | ⟨0, _⟩ => rfl | ⟨1, _⟩ => rfl | ⟨2, _⟩ => rfl)
theorem k_hi_spread3 (b : Fin 8) (t : Fin 4096) (i : Fin 16) : idx_main_v44 (ix3 b t i) = ix3 (0 : Fin 1) t i := funext fun a => Fin.ext (by match a with | ⟨0, _⟩ => rfl | ⟨1, _⟩ => rfl | ⟨2, _⟩ => rfl)
theorem k_hi_spread4 (b : Fin 8) (t : Fin 4096) (i : Fin 16) : idx_main_v46 (ix3 b t i) = ix3 (0 : Fin 1) t i := funext fun a => Fin.ext (by match a with | ⟨0, _⟩ => rfl | ⟨1, _⟩ => rfl | ⟨2, _⟩ => rfl)
theorem k_hi_cosB (t : Fin 4096) (i : Fin 16) : idx_main_v35 (ix3 (0 : Fin 1) t i) = ix2 t i := funext fun a => Fin.ext (by match a with | ⟨0, _⟩ => rfl | ⟨1, _⟩ => rfl)
theorem k_hi_sinB (t : Fin 4096) (i : Fin 16) : idx_main_v38 (ix3 (0 : Fin 1) t i) = ix2 t i := funext fun a => Fin.ext (by match a with | ⟨0, _⟩ => rfl | ⟨1, _⟩ => rfl)
theorem k_hi_cosR (t : Fin 4096) (i : Fin 16) : idx_main_v34 (ix2 t i) = ix3 t i (0 : Fin 1) :=
  funext fun a => Fin.ext (by
    have ht := t.isLt; have hi := i.isLt
    match a with
    | ⟨0, _⟩ => show (t.val * 16 + i.val) / 16 = t.val; omega
    | ⟨1, _⟩ => show (t.val * 16 + i.val) / 1 % 16 = i.val; omega
    | ⟨2, _⟩ => rfl)
theorem k_hi_sinR (t : Fin 4096) (i : Fin 16) : idx_main_v37 (ix2 t i) = ix3 t i (0 : Fin 1) :=
  funext fun a => Fin.ext (by
    have ht := t.isLt; have hi := i.isLt
    match a with
    | ⟨0, _⟩ => show (t.val * 16 + i.val) / 16 = t.val; omega
    | ⟨1, _⟩ => show (t.val * 16 + i.val) / 1 % 16 = i.val; omega
    | ⟨2, _⟩ => rfl)
theorem k_hi_cosS (t : Fin 4096) (i : Fin 16) : idx_main_v33 (ix3 t i (0 : Fin 1)) = ix3 t i (0 : Fin 2) := funext fun a => Fin.ext (by match a with | ⟨0, _⟩ => rfl | ⟨1, _⟩ => rfl | ⟨2, _⟩ => rfl)
theorem k_hi_sinS (t : Fin 4096) (i : Fin 16) : idx_main_v36 (ix3 t i (0 : Fin 1)) = ix3 t i (1 : Fin 2) := funext fun a => Fin.ext (by match a with | ⟨0, _⟩ => rfl | ⟨1, _⟩ => rfl | ⟨2, _⟩ => rfl)

/-- The cosine of the pair (t, i). -/
theorem k_hi_cos (t : Fin 4096) (i : Fin 16) : val_main_v35 (F := Ideal) x5 (ix3 (0 : Fin 1) t i) = c3 x5 t i 0 := by
  rw [val_main_v35_apply, k_hi_cosB, val_main_v34_apply, k_hi_cosR, val_main_v33_apply, k_hi_cosS]

/-- The sine of the pair (t, i). -/
theorem k_hi_sin (t : Fin 4096) (i : Fin 16) : val_main_v38 (F := Ideal) x5 (ix3 (0 : Fin 1) t i) = c3 x5 t i 1 := by
  rw [val_main_v38_apply, k_hi_sinB, val_main_v37_apply, k_hi_sinR, val_main_v36_apply, k_hi_sinS]

/-- a·cos − b·sin at the half's pair i. -/
theorem k_hi_first (b : Fin 8) (t : Fin 4096) (i : Fin 16) :
    val_main_v43 (F := Ideal) x0 x5 x6 (ix3 b t i)
      = proj (c3 x0) (c2 x6) b t ⟨32 + 2 * i.val, by omega⟩ * c3 x5 t i 0
        - proj (c3 x0) (c2 x6) b t ⟨32 + 2 * i.val + 1, by omega⟩ * c3 x5 t i 1 := by
  rw [val_main_v43_apply, val_main_v40_apply, val_main_v42_apply, val_main_v39_apply, val_main_v41_apply,
    k_hi_spread1, k_hi_spread2, k_hi_cos, k_hi_sin, k_hi_memberA, k_hi_memberB]
  rfl

/-- a·sin + b·cos at the half's pair i. -/
theorem k_hi_second (b : Fin 8) (t : Fin 4096) (i : Fin 16) :
    val_main_v48 (F := Ideal) x0 x5 x6 (ix3 b t i)
      = proj (c3 x0) (c2 x6) b t ⟨32 + 2 * i.val, by omega⟩ * c3 x5 t i 1
        + proj (c3 x0) (c2 x6) b t ⟨32 + 2 * i.val + 1, by omega⟩ * c3 x5 t i 0 := by
  rw [val_main_v48_apply, val_main_v45_apply, val_main_v47_apply, val_main_v44_apply, val_main_v46_apply,
    k_hi_spread3, k_hi_spread4, k_hi_cos, k_hi_sin, k_hi_memberA, k_hi_memberB]
  rfl

theorem k_hi_unit1 (b : Fin 8) (t : Fin 4096) (i : Fin 16) : idx_main_v49 (ix4 b t i (0 : Fin 1)) = ix3 b t i := funext fun a => Fin.ext (by match a with | ⟨0, _⟩ => rfl | ⟨1, _⟩ => rfl | ⟨2, _⟩ => rfl)
theorem k_hi_unit2 (b : Fin 8) (t : Fin 4096) (i : Fin 16) : idx_main_v50 (ix4 b t i (0 : Fin 1)) = ix3 b t i := funext fun a => Fin.ext (by match a with | ⟨0, _⟩ => rfl | ⟨1, _⟩ => rfl | ⟨2, _⟩ => rfl)

/-- Member 0 of the joined pair is the first combination. -/
theorem k_hi_join0 (b : Fin 8) (t : Fin 4096) (i : Fin 16) :
    val_main_v51 (F := Ideal) x0 x5 x6 (ix4 b t i (0 : Fin 2)) = val_main_v43 (F := Ideal) x0 x5 x6 (ix3 b t i) := by
  rw [← k_hi_unit1 b t i, ← val_main_v49_apply]
  unfold val_main_v51
  generalize val_main_v49 (F := Ideal) x0 x5 x6 = y1
  generalize val_main_v50 (F := Ideal) x0 x5 x6 = y2
  exact concatenate_pair_apply_left (3 : Fin S8x4096x16x2.rank) y1 y2 _ (ix4 b t i (0 : Fin 2)) rfl (ix4 b t i (0 : Fin 1))
    (fun a => match a with | ⟨0, _⟩ => rfl | ⟨1, _⟩ => rfl | ⟨2, _⟩ => rfl | ⟨3, _⟩ => rfl)

/-- Member 1 of the joined pair is the second combination. -/
theorem k_hi_join1 (b : Fin 8) (t : Fin 4096) (i : Fin 16) :
    val_main_v51 (F := Ideal) x0 x5 x6 (ix4 b t i (1 : Fin 2)) = val_main_v48 (F := Ideal) x0 x5 x6 (ix3 b t i) := by
  rw [← k_hi_unit2 b t i, ← val_main_v50_apply]
  unfold val_main_v51
  generalize val_main_v49 (F := Ideal) x0 x5 x6 = y1
  generalize val_main_v50 (F := Ideal) x0 x5 x6 = y2
  exact concatenate_pair_apply_right (3 : Fin S8x4096x16x2.rank) y1 y2 _ (ix4 b t i (1 : Fin 2)) rfl rfl (ix4 b t i (0 : Fin 1))
    (fun a => match a with | ⟨0, _⟩ => fun _ => rfl | ⟨1, _⟩ => fun _ => rfl | ⟨2, _⟩ => fun _ => rfl | ⟨3, _⟩ => fun hne => absurd rfl hne)
    rfl

/-- Lane j of the half is member j % 2 of its pair j / 2. -/
theorem k_hi_back (b : Fin 8) (t : Fin 4096) (j : Fin 32) :
    idx_main_v52 (ix3 b t j) = ix4 b t (⟨j.val / 2, by omega⟩ : Fin 16) (⟨j.val % 2, by omega⟩ : Fin 2) :=
  funext fun a => Fin.ext (by
    have hb := b.isLt; have ht := t.isLt; have hj := j.isLt
    match a with
    | ⟨0, _⟩ => show ((b.val * 4096 + t.val) * 32 + j.val) / 131072 = b.val; omega
    | ⟨1, _⟩ => show ((b.val * 4096 + t.val) * 32 + j.val) / 32 % 4096 = t.val; omega
    | ⟨2, _⟩ => show ((b.val * 4096 + t.val) * 32 + j.val) / 2 % 16 = j.val / 2; omega
    | ⟨3, _⟩ => show ((b.val * 4096 + t.val) * 32 + j.val) % 2 = j.val % 2; omega)

/-! ## The two halves side by side -/

/-- A lane below 32 of the joined row is that lane of the first turned half. -/
theorem k_cat_lo (b : Fin 8) (t : Fin 4096) (h : Fin 64) (hlt : h.val < 32) :
    val_main_v53 (F := Ideal) x0 x4 x5 x6 (ix3 b t h) = val_main_v27 (F := Ideal) x0 x4 x6 (ix3 b t (⟨h.val, hlt⟩ : Fin 32)) := by
  unfold val_main_v53
  generalize val_main_v27 (F := Ideal) x0 x4 x6 = y1
  generalize val_main_v52 (F := Ideal) x0 x5 x6 = y2
  exact concatenate_pair_apply_left (2 : Fin S8x4096x64.rank) y1 y2 _ (ix3 b t h) rfl (ix3 b t (⟨h.val, hlt⟩ : Fin 32))
    (fun a => match a with | ⟨0, _⟩ => rfl | ⟨1, _⟩ => rfl | ⟨2, _⟩ => rfl)

/-- A lane from 32 on of the joined row is the lane 32 back of the second turned half. -/
theorem k_cat_hi (b : Fin 8) (t : Fin 4096) (h : Fin 64) (hge : 32 ≤ h.val) :
    val_main_v53 (F := Ideal) x0 x4 x5 x6 (ix3 b t h)
      = val_main_v52 (F := Ideal) x0 x5 x6 (ix3 b t (⟨h.val - 32, by have := h.isLt; omega⟩ : Fin 32)) := by
  unfold val_main_v53
  generalize val_main_v27 (F := Ideal) x0 x4 x6 = y1
  generalize val_main_v52 (F := Ideal) x0 x5 x6 = y2
  exact concatenate_pair_apply_right (2 : Fin S8x4096x64.rank) y1 y2 _ (ix3 b t h) rfl rfl
    (ix3 b t (⟨h.val - 32, by have := h.isLt; omega⟩ : Fin 32))
    (fun a => match a with | ⟨0, _⟩ => fun _ => rfl | ⟨1, _⟩ => fun _ => rfl | ⟨2, _⟩ => fun hne => absurd rfl hne)
    (by show h.val - 32 + 32 = h.val; omega)

/-- The joined pair at a member known to be 0, or 1. -/
theorem k_lo_pair0 (b : Fin 8) (t : Fin 4096) (i : Fin 16) (p : Fin 2) (hp : p.val = 0) :
    val_main_v26 (F := Ideal) x0 x4 x6 (ix4 b t i p) = val_main_v18 (F := Ideal) x0 x4 x6 (ix3 b t i) := by
  obtain rfl : p = 0 := Fin.ext hp
  exact k_lo_join0 x0 x4 x6 b t i
theorem k_lo_pair1 (b : Fin 8) (t : Fin 4096) (i : Fin 16) (p : Fin 2) (hp : p.val = 1) :
    val_main_v26 (F := Ideal) x0 x4 x6 (ix4 b t i p) = val_main_v23 (F := Ideal) x0 x4 x6 (ix3 b t i) := by
  obtain rfl : p = 1 := Fin.ext hp
  exact k_lo_join1 x0 x4 x6 b t i
theorem k_hi_pair0 (b : Fin 8) (t : Fin 4096) (i : Fin 16) (p : Fin 2) (hp : p.val = 0) :
    val_main_v51 (F := Ideal) x0 x5 x6 (ix4 b t i p) = val_main_v43 (F := Ideal) x0 x5 x6 (ix3 b t i) := by
  obtain rfl : p = 0 := Fin.ext hp
  exact k_hi_join0 x0 x5 x6 b t i
theorem k_hi_pair1 (b : Fin 8) (t : Fin 4096) (i : Fin 16) (p : Fin 2) (hp : p.val = 1) :
    val_main_v51 (F := Ideal) x0 x5 x6 (ix4 b t i p) = val_main_v48 (F := Ideal) x0 x5 x6 (ix3 b t i) := by
  obtain rfl : p = 1 := Fin.ext hp
  exact k_hi_join1 x0 x5 x6 b t i

end

/-- The reference's turned key rows are the specification's. -/
theorem ref_keys (x0 : (⟨S8x4096x512, .f32⟩ : BufTy).Contents (Elt Ideal)) (x4 : (⟨S4096x16x2, .f32⟩ : BufTy).Contents (Elt Ideal)) (x5 : (⟨S4096x16x2, .f32⟩ : BufTy).Contents (Elt Ideal)) (x6 : (⟨S64x512, .f32⟩ : BufTy).Contents (Elt Ideal))
    (b : Fin 8) (t : Fin 4096) (h : Fin 64) :
    val_main_v53 (F := Ideal) x0 x4 x5 x6 (ix3 b t h) = keys (c3 x0) (c2 x6) (c3 x4) (c3 x5) b t h := by
  have hh := h.isLt
  unfold keys turn
  by_cases hlt : h.val < 32
  · -- the first half: pair h / 2 of the first table
    have hi : (half h).val < 16 := by show h.val / 2 < 16; omega
    refine (k_cat_lo x0 x4 x5 x6 b t h hlt).trans ?_
    refine (val_main_v27_apply x0 x4 x6 _).trans ?_
    rw [k_lo_back, keyTable_lo _ _ _ _ _ hi, keyTable_lo _ _ _ _ _ hi]
    by_cases e : h.val % 2 = 0
    · refine (k_lo_pair0 x0 x4 x6 b t _ _ e).trans ?_
      rw [k_lo_first, if_pos e]
      refine congrArg₂ (· - ·)
        (congrArg₂ (· * ·) (congrArg (proj (c3 x0) (c2 x6) b t) ?_) (congrArg (fun i => c3 x4 t i 0) ?_))
        (congrArg₂ (· * ·) (congrArg (proj (c3 x0) (c2 x6) b t) ?_) (congrArg (fun i => c3 x4 t i 1) ?_)) <;> lane_eq
    · have e1 : h.val % 2 = 1 := by omega
      refine (k_lo_pair1 x0 x4 x6 b t _ _ e1).trans ?_
      rw [k_lo_second, if_neg e]
      refine congrArg₂ (· + ·)
        (congrArg₂ (· * ·) (congrArg (proj (c3 x0) (c2 x6) b t) ?_) (congrArg (fun i => c3 x4 t i 1) ?_))
        (congrArg₂ (· * ·) (congrArg (proj (c3 x0) (c2 x6) b t) ?_) (congrArg (fun i => c3 x4 t i 0) ?_)) <;> lane_eq
  · -- the second half: pair h / 2 − 16 of the second table
    have hge : 32 ≤ h.val := by omega
    have hi : 16 ≤ (half h).val := by show 16 ≤ h.val / 2; omega
    refine (k_cat_hi x0 x4 x5 x6 b t h hge).trans ?_
    refine (val_main_v52_apply x0 x5 x6 _).trans ?_
    rw [k_hi_back, keyTable_hi _ _ _ _ _ hi, keyTable_hi _ _ _ _ _ hi]
    by_cases e : h.val % 2 = 0
    · have e0 : (h.val - 32) % 2 = 0 := by omega
      refine (k_hi_pair0 x0 x5 x6 b t _ _ e0).trans ?_
      rw [k_hi_first, if_pos e]
      refine congrArg₂ (· - ·)
        (congrArg₂ (· * ·) (congrArg (proj (c3 x0) (c2 x6) b t) ?_) (congrArg (fun i => c3 x5 t i 0) ?_))
        (congrArg₂ (· * ·) (congrArg (proj (c3 x0) (c2 x6) b t) ?_) (congrArg (fun i => c3 x5 t i 1) ?_)) <;> lane_eq
    · have e1 : (h.val - 32) % 2 = 1 := by omega
      refine (k_hi_pair1 x0 x5 x6 b t _ _ e1).trans ?_
      rw [k_hi_second, if_neg e]
      refine congrArg₂ (· + ·)
        (congrArg₂ (· * ·) (congrArg (proj (c3 x0) (c2 x6) b t) ?_) (congrArg (fun i => c3 x5 t i 1) ?_))
        (congrArg₂ (· * ·) (congrArg (proj (c3 x0) (c2 x6) b t) ?_) (congrArg (fun i => c3 x5 t i 0) ?_)) <;> lane_eq

end Cert.Attn.Ref

end
-- ==== Proof.RefQueries.lean ====
/-
  The reference's turned query rows.

  The reference projects a text row to 64 lanes, views the row as 32 (even, odd) pairs, takes the even members
  a and the odd members b, reads the cosine c and the sine d of the row's position for each pair, forms
  a·c − b·d and a·d + b·c, and interleaves the two back into 64 lanes. Read at a lane h: pair h / 2, and the
  first expression when h is even, the second when h is odd. On an even lane a is the lane itself and b the
  next one; on an odd lane b is the lane itself and a the one before. That is the specification's turn.
-/
import proofs.«127364_j36429912605016_1_alg».proof.Proof.Gen.ReferenceIdeal.Read
import proofs.«127364_j36429912605016_1_alg».proof.Proof.Spec

noncomputable section

namespace Cert.Attn.Ref

open Cert.Attn Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section
variable (x1 : (⟨S8x2048x128, .f32⟩ : BufTy).Contents (Elt Ideal)) (x3 : (⟨S2048x32x2, .f32⟩ : BufTy).Contents (Elt Ideal)) (x7 : (⟨S64x128, .f32⟩ : BufTy).Contents (Elt Ideal))

/-- The projected text row at a lane: the sum over the 128 channels. -/
theorem q_proj (b : Fin 8) (s : Fin 2048) (h : Fin 64) :
    val_main_v54 (F := Ideal) x1 x7 (ix3 b s h) = proj (c3 x1) (c2 x7) b s h := by
  rw [val_main_v54_apply]
  unfold proj
  refine Finset.sum_congr rfl fun c _ => ?_
  have el : lidx_main_v54 (ix3 b s h) c = ix3 b s c := funext fun a => Fin.ext (by match a with | ⟨0, _⟩ => rfl | ⟨1, _⟩ => rfl | ⟨2, _⟩ => rfl)
  have er : ridx_main_v54 (ix3 b s h) c = ix2 h c := funext fun a => Fin.ext (by match a with | ⟨0, _⟩ => rfl | ⟨1, _⟩ => rfl)
  exact congrArg₂ (· * ·) (congrArg x1 el) (congrArg x7 er)

/-! ### Where each layout step reads

Row-major positions: the entry (b, s, i, p) of the array of pairs is the entry (b, s, 2 i + p) of the row. -/

/-- Dropping the unit last axis: (b, s, i) comes from (b, s, i, 0). -/
theorem q_idx57 (b : Fin 8) (s : Fin 2048) (i : Fin 32) : idx_main_v57 (ix3 b s i) = ix4 b s i (0 : Fin 1) :=
  funext fun a => Fin.ext (by
    have hb := b.isLt; have hs := s.isLt; have hi := i.isLt
    match a with
    | ⟨0, _⟩ => show ((b.val * 2048 + s.val) * 32 + i.val) / 65536 = b.val; omega
    | ⟨1, _⟩ => show ((b.val * 2048 + s.val) * 32 + i.val) / 32 % 2048 = s.val; omega
    | ⟨2, _⟩ => show ((b.val * 2048 + s.val) * 32 + i.val) / 1 % 32 = i.val; omega
    | ⟨3, _⟩ => rfl)

theorem q_idx59 (b : Fin 8) (s : Fin 2048) (i : Fin 32) : idx_main_v59 (ix3 b s i) = ix4 b s i (0 : Fin 1) :=
  funext fun a => Fin.ext (by
    have hb := b.isLt; have hs := s.isLt; have hi := i.isLt
    match a with
    | ⟨0, _⟩ => show ((b.val * 2048 + s.val) * 32 + i.val) / 65536 = b.val; omega
    | ⟨1, _⟩ => show ((b.val * 2048 + s.val) * 32 + i.val) / 32 % 2048 = s.val; omega
    | ⟨2, _⟩ => show ((b.val * 2048 + s.val) * 32 + i.val) / 1 % 32 = i.val; omega
    | ⟨3, _⟩ => rfl)

/-- The slice of the even members keeps the pair's member 0, the slice of the odd members its member 1. -/
theorem q_idx56 (b : Fin 8) (s : Fin 2048) (i : Fin 32) : idx_main_v56 (ix4 b s i (0 : Fin 1)) = ix4 b s i (0 : Fin 2) :=
  funext fun a => Fin.ext (by match a with | ⟨0, _⟩ => rfl | ⟨1, _⟩ => rfl | ⟨2, _⟩ => rfl | ⟨3, _⟩ => rfl)

theorem q_idx58 (b : Fin 8) (s : Fin 2048) (i : Fin 32) : idx_main_v58 (ix4 b s i (0 : Fin 1)) = ix4 b s i (1 : Fin 2) :=
  funext fun a => Fin.ext (by match a with | ⟨0, _⟩ => rfl | ⟨1, _⟩ => rfl | ⟨2, _⟩ => rfl | ⟨3, _⟩ => rfl)

/-- Member 0 of pair i is lane 2 i of the row. -/
theorem q_idx55_0 (b : Fin 8) (s : Fin 2048) (i : Fin 32) :
    idx_main_v55 (ix4 b s i (0 : Fin 2)) = ix3 b s (⟨2 * i.val, by omega⟩ : Fin 64) :=
  funext fun a => Fin.ext (by
    have hb := b.isLt; have hs := s.isLt; have hi := i.isLt
    match a with
    | ⟨0, _⟩ => show (((b.val * 2048 + s.val) * 32 + i.val) * 2 + 0) / 131072 = b.val; omega
    | ⟨1, _⟩ => show (((b.val * 2048 + s.val) * 32 + i.val) * 2 + 0) / 64 % 2048 = s.val; omega
    | ⟨2, _⟩ => show (((b.val * 2048 + s.val) * 32 + i.val) * 2 + 0) % 64 = 2 * i.val; omega)

/-- Member 1 of pair i is lane 2 i + 1 of the row. -/
theorem q_idx55_1 (b : Fin 8) (s : Fin 2048) (i : Fin 32) :
    idx_main_v55 (ix4 b s i (1 : Fin 2)) = ix3 b s (⟨2 * i.val + 1, by omega⟩ : Fin 64) :=
  funext fun a => Fin.ext (by
    have hb := b.isLt; have hs := s.isLt; have hi := i.isLt
    match a with
    | ⟨0, _⟩ => show (((b.val * 2048 + s.val) * 32 + i.val) * 2 + 1) / 131072 = b.val; omega
    | ⟨1, _⟩ => show (((b.val * 2048 + s.val) * 32 + i.val) * 2 + 1) / 64 % 2048 = s.val; omega
    | ⟨2, _⟩ => show (((b.val * 2048 + s.val) * 32 + i.val) * 2 + 1) % 64 = 2 * i.val + 1; omega)

/-- The even members: entry (b, s, i) is the projected row's lane 2 i. -/
theorem q_even_member (b : Fin 8) (s : Fin 2048) (i : Fin 32) :
    val_main_v57 (F := Ideal) x1 x7 (ix3 b s i) = proj (c3 x1) (c2 x7) b s ⟨2 * i.val, by omega⟩ := by
  rw [val_main_v57_apply, q_idx57, val_main_v56_apply, q_idx56, val_main_v55_apply, q_idx55_0, q_proj]

/-- The odd members: entry (b, s, i) is the projected row's lane 2 i + 1. -/
theorem q_odd_member (b : Fin 8) (s : Fin 2048) (i : Fin 32) :
    val_main_v59 (F := Ideal) x1 x7 (ix3 b s i) = proj (c3 x1) (c2 x7) b s ⟨2 * i.val + 1, by omega⟩ := by
  rw [val_main_v59_apply, q_idx59, val_main_v58_apply, q_idx58, val_main_v55_apply, q_idx55_1, q_proj]

/-! ### The table: the cosine is member 0 of the table's pair (s, i), the sine member 1, whatever the batch -/

theorem q_idxB (b : Fin 8) (s : Fin 2048) (i : Fin 32) : idx_main_v66 (ix3 b s i) = ix3 (0 : Fin 1) s i := funext fun a => Fin.ext (by match a with | ⟨0, _⟩ => rfl | ⟨1, _⟩ => rfl | ⟨2, _⟩ => rfl)
theorem q_idxB68 (b : Fin 8) (s : Fin 2048) (i : Fin 32) : idx_main_v68 (ix3 b s i) = ix3 (0 : Fin 1) s i := funext fun a => Fin.ext (by match a with | ⟨0, _⟩ => rfl | ⟨1, _⟩ => rfl | ⟨2, _⟩ => rfl)
theorem q_idxB71 (b : Fin 8) (s : Fin 2048) (i : Fin 32) : idx_main_v71 (ix3 b s i) = ix3 (0 : Fin 1) s i := funext fun a => Fin.ext (by match a with | ⟨0, _⟩ => rfl | ⟨1, _⟩ => rfl | ⟨2, _⟩ => rfl)
theorem q_idxB73 (b : Fin 8) (s : Fin 2048) (i : Fin 32) : idx_main_v73 (ix3 b s i) = ix3 (0 : Fin 1) s i := funext fun a => Fin.ext (by match a with | ⟨0, _⟩ => rfl | ⟨1, _⟩ => rfl | ⟨2, _⟩ => rfl)
theorem q_idx62 (s : Fin 2048) (i : Fin 32) : idx_main_v62 (ix3 (0 : Fin 1) s i) = ix2 s i := funext fun a => Fin.ext (by match a with | ⟨0, _⟩ => rfl | ⟨1, _⟩ => rfl)
theorem q_idx65 (s : Fin 2048) (i : Fin 32) : idx_main_v65 (ix3 (0 : Fin 1) s i) = ix2 s i := funext fun a => Fin.ext (by match a with | ⟨0, _⟩ => rfl | ⟨1, _⟩ => rfl)
theorem q_idx61 (s : Fin 2048) (i : Fin 32) : idx_main_v61 (ix2 s i) = ix3 s i (0 : Fin 1) :=
  funext fun a => Fin.ext (by
    have hs := s.isLt; have hi := i.isLt
    match a with
    | ⟨0, _⟩ => show (s.val * 32 + i.val) / 32 = s.val; omega
    | ⟨1, _⟩ => show (s.val * 32 + i.val) / 1 % 32 = i.val; omega
    | ⟨2, _⟩ => rfl)
theorem q_idx64 (s : Fin 2048) (i : Fin 32) : idx_main_v64 (ix2 s i) = ix3 s i (0 : Fin 1) :=
  funext fun a => Fin.ext (by
    have hs := s.isLt; have hi := i.isLt
    match a with
    | ⟨0, _⟩ => show (s.val * 32 + i.val) / 32 = s.val; omega
    | ⟨1, _⟩ => show (s.val * 32 + i.val) / 1 % 32 = i.val; omega
    | ⟨2, _⟩ => rfl)
theorem q_idx60 (s : Fin 2048) (i : Fin 32) : idx_main_v60 (ix3 s i (0 : Fin 1)) = ix3 s i (0 : Fin 2) := funext fun a => Fin.ext (by match a with | ⟨0, _⟩ => rfl | ⟨1, _⟩ => rfl | ⟨2, _⟩ => rfl)
theorem q_idx63 (s : Fin 2048) (i : Fin 32) : idx_main_v63 (ix3 s i (0 : Fin 1)) = ix3 s i (1 : Fin 2) := funext fun a => Fin.ext (by match a with | ⟨0, _⟩ => rfl | ⟨1, _⟩ => rfl | ⟨2, _⟩ => rfl)

/-- The cosines spread over the batch. -/
theorem q_cos (s : Fin 2048) (i : Fin 32) : val_main_v62 (F := Ideal) x3 (ix3 (0 : Fin 1) s i) = c3 x3 s i 0 := by
  rw [val_main_v62_apply, q_idx62, val_main_v61_apply, q_idx61, val_main_v60_apply, q_idx60]

/-- The sines spread over the batch. -/
theorem q_sin (s : Fin 2048) (i : Fin 32) : val_main_v65 (F := Ideal) x3 (ix3 (0 : Fin 1) s i) = c3 x3 s i 1 := by
  rw [val_main_v65_apply, q_idx65, val_main_v64_apply, q_idx64, val_main_v63_apply, q_idx63]

/-! ### The two combinations -/

/-- a·cos − b·sin at the pair (b, s, i). -/
theorem q_first (b : Fin 8) (s : Fin 2048) (i : Fin 32) :
    val_main_v70 (F := Ideal) x1 x3 x7 (ix3 b s i)
      = proj (c3 x1) (c2 x7) b s ⟨2 * i.val, by omega⟩ * c3 x3 s i 0
        - proj (c3 x1) (c2 x7) b s ⟨2 * i.val + 1, by omega⟩ * c3 x3 s i 1 := by
  rw [val_main_v70_apply, val_main_v67_apply, val_main_v69_apply, val_main_v66_apply, val_main_v68_apply,
    q_idxB, q_idxB68, q_cos, q_sin, q_even_member, q_odd_member]
  rfl

/-- a·sin + b·cos at the pair (b, s, i). -/
theorem q_second (b : Fin 8) (s : Fin 2048) (i : Fin 32) :
    val_main_v75 (F := Ideal) x1 x3 x7 (ix3 b s i)
      = proj (c3 x1) (c2 x7) b s ⟨2 * i.val, by omega⟩ * c3 x3 s i 1
        + proj (c3 x1) (c2 x7) b s ⟨2 * i.val + 1, by omega⟩ * c3 x3 s i 0 := by
  rw [val_main_v75_apply, val_main_v72_apply, val_main_v74_apply, val_main_v71_apply, val_main_v73_apply,
    q_idxB71, q_idxB73, q_cos, q_sin, q_even_member, q_odd_member]
  rfl

/-! ### Interleaving: member 0 of the joined pair is the first combination, member 1 the second -/

theorem q_idx76 (b : Fin 8) (s : Fin 2048) (i : Fin 32) : idx_main_v76 (ix4 b s i (0 : Fin 1)) = ix3 b s i := funext fun a => Fin.ext (by match a with | ⟨0, _⟩ => rfl | ⟨1, _⟩ => rfl | ⟨2, _⟩ => rfl)
theorem q_idx77 (b : Fin 8) (s : Fin 2048) (i : Fin 32) : idx_main_v77 (ix4 b s i (0 : Fin 1)) = ix3 b s i := funext fun a => Fin.ext (by match a with | ⟨0, _⟩ => rfl | ⟨1, _⟩ => rfl | ⟨2, _⟩ => rfl)

theorem q_join0 (b : Fin 8) (s : Fin 2048) (i : Fin 32) :
    val_main_v78 (F := Ideal) x1 x3 x7 (ix4 b s i (0 : Fin 2)) = val_main_v70 (F := Ideal) x1 x3 x7 (ix3 b s i) := by
  rw [← q_idx76 b s i, ← val_main_v76_apply]
  unfold val_main_v78
  generalize val_main_v76 (F := Ideal) x1 x3 x7 = y1
  generalize val_main_v77 (F := Ideal) x1 x3 x7 = y2
  exact concatenate_pair_apply_left (3 : Fin S8x2048x32x2.rank) y1 y2 _ (ix4 b s i (0 : Fin 2)) rfl (ix4 b s i (0 : Fin 1))
    (fun a => match a with | ⟨0, _⟩ => rfl | ⟨1, _⟩ => rfl | ⟨2, _⟩ => rfl | ⟨3, _⟩ => rfl)

theorem q_join1 (b : Fin 8) (s : Fin 2048) (i : Fin 32) :
    val_main_v78 (F := Ideal) x1 x3 x7 (ix4 b s i (1 : Fin 2)) = val_main_v75 (F := Ideal) x1 x3 x7 (ix3 b s i) := by
  rw [← q_idx77 b s i, ← val_main_v77_apply]
  unfold val_main_v78
  generalize val_main_v76 (F := Ideal) x1 x3 x7 = y1
  generalize val_main_v77 (F := Ideal) x1 x3 x7 = y2
  exact concatenate_pair_apply_right (3 : Fin S8x2048x32x2.rank) y1 y2 _ (ix4 b s i (1 : Fin 2)) rfl rfl (ix4 b s i (0 : Fin 1))
    (fun a => match a with | ⟨0, _⟩ => fun _ => rfl | ⟨1, _⟩ => fun _ => rfl | ⟨2, _⟩ => fun _ => rfl | ⟨3, _⟩ => fun hne => absurd rfl hne)
    rfl

/-- Lane h of the turned row is member h % 2 of pair h / 2. -/
theorem q_idx79 (b : Fin 8) (s : Fin 2048) (h : Fin 64) :
    idx_main_v79 (ix3 b s h) = ix4 b s (half h) (⟨h.val % 2, by omega⟩ : Fin 2) :=
  funext fun a => Fin.ext (by
    have hb := b.isLt; have hs := s.isLt; have hh := h.isLt
    match a with
    | ⟨0, _⟩ => show ((b.val * 2048 + s.val) * 64 + h.val) / 131072 = b.val; omega
    | ⟨1, _⟩ => show ((b.val * 2048 + s.val) * 64 + h.val) / 64 % 2048 = s.val; omega
    | ⟨2, _⟩ => show ((b.val * 2048 + s.val) * 64 + h.val) / 2 % 32 = h.val / 2; omega
    | ⟨3, _⟩ => show ((b.val * 2048 + s.val) * 64 + h.val) % 2 = h.val % 2; omega)

end

/-- The reference's turned query rows are the specification's. -/
theorem ref_queries (x1 : (⟨S8x2048x128, .f32⟩ : BufTy).Contents (Elt Ideal)) (x3 : (⟨S2048x32x2, .f32⟩ : BufTy).Contents (Elt Ideal)) (x7 : (⟨S64x128, .f32⟩ : BufTy).Contents (Elt Ideal))
    (b : Fin 8) (s : Fin 2048) (h : Fin 64) :
    val_main_v79 (F := Ideal) x1 x3 x7 (ix3 b s h) = queries (c3 x1) (c2 x7) (c3 x3) b s h := by
  rw [val_main_v79_apply, q_idx79]
  unfold queries turn
  by_cases e : h.val % 2 = 0
  · -- an even lane: the lane is 2 (h / 2), the next one 2 (h / 2) + 1
    have e0 : (⟨h.val % 2, by omega⟩ : Fin 2) = (0 : Fin 2) := Fin.ext e
    have eh : (⟨2 * (half h).val, by have := (half h).isLt; omega⟩ : Fin 64) = h := Fin.ext (by show 2 * (h.val / 2) = h.val; omega)
    have en : (⟨2 * (half h).val + 1, by have := (half h).isLt; omega⟩ : Fin 64) = Cert.Attn.next h :=
      Fin.ext (by have := h.isLt; show 2 * (h.val / 2) + 1 = (h.val + 1) % 64; omega)
    rw [if_pos e, e0, q_join0, q_first, eh, en]
  · -- an odd lane: the lane is 2 (h / 2) + 1, the one before 2 (h / 2)
    have e1 : (⟨h.val % 2, by omega⟩ : Fin 2) = (1 : Fin 2) := Fin.ext (by show h.val % 2 = 1; omega)
    have eh : (⟨2 * (half h).val + 1, by have := (half h).isLt; omega⟩ : Fin 64) = h := Fin.ext (by show 2 * (h.val / 2) + 1 = h.val; omega)
    have ep : (⟨2 * (half h).val, by have := (half h).isLt; omega⟩ : Fin 64) = Cert.Attn.prev h :=
      Fin.ext (by have := h.isLt; show 2 * (h.val / 2) = (h.val + 63) % 64; omega)
    rw [if_neg e, e1, q_join1, q_second, eh, ep]

end Cert.Attn.Ref

end
-- ==== Proof.RefVals.lean ====
/-
  The reference's value rows. Its contraction of an image row against each row of the value weights, read at the
  coordinates (b, t, h), is the sum over the 512 channels of the row's entry times the weight's entry: the
  specification's projection.
-/
import proofs.«127364_j36429912605016_1_alg».proof.Proof.Gen.ReferenceIdeal.Read
import proofs.«127364_j36429912605016_1_alg».proof.Proof.Spec

noncomputable section

namespace Cert.Attn.Ref

open Cert.Attn Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The value rows are the projection of the image tokens by the value weights. -/
theorem ref_vals (x0 : (⟨S8x4096x512, .f32⟩ : BufTy).Contents (Elt Ideal)) (x8 : (⟨S64x512, .f32⟩ : BufTy).Contents (Elt Ideal))
    (b : Fin 8) (t : Fin 4096) (h : Fin 64) :
    val_main_v80 (F := Ideal) x0 x8 (ix3 b t h) = vals (c3 x0) (c2 x8) b t h := by
  rw [val_main_v80_apply]
  unfold vals proj
  refine Finset.sum_congr rfl fun c _ => ?_
  -- the left operand is read at (b, t, c), the right at (h, c)
  have el : lidx_main_v80 (ix3 b t h) c = ix3 b t c :=
    funext fun a => Fin.ext (by match a with | ⟨0, _⟩ => rfl | ⟨1, _⟩ => rfl | ⟨2, _⟩ => rfl)
  have er : ridx_main_v80 (ix3 b t h) c = ix2 h c :=
    funext fun a => Fin.ext (by match a with | ⟨0, _⟩ => rfl | ⟨1, _⟩ => rfl)
  exact congrArg₂ (· * ·) (congrArg x0 el) (congrArg x8 er)

end Cert.Attn.Ref

end
-- ==== Proof.RefResult.lean ====
/-
  The reference's result.

  From the turned queries Q, the turned keys K and the value rows V the reference forms, for each text position s
  and image position t, the inner product of Q's and K's rows over the 64 lanes divided by the constant
  11863283 / 524288 — a nonzero real, so the quotient is the product with its reciprocal 524288 / 11863283 —;
  takes each row's maximum over t, starting from −∞ and once more against −∞; subtracts it, exponentiates, sums
  each row from zero, divides by the sum, and contracts the weights against V over t. These are, stage by stage,
  the specification's scores, row maximum, exponentials, weights and weighted sum.
-/
import proofs.«127364_j36429912605016_1_alg».proof.Proof.Gen.ReferenceIdeal.Read
import proofs.«127364_j36429912605016_1_alg».proof.Proof.Spec
import proofs.«127364_j36429912605016_1_alg».proof.Proof.Consts
import proofs.«127364_j36429912605016_1_alg».proof.Proof.RefKeys
import proofs.«127364_j36429912605016_1_alg».proof.Proof.RefQueries
import proofs.«127364_j36429912605016_1_alg».proof.Proof.RefVals

noncomputable section

namespace Cert.Attn.Ref

open Cert.Attn Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The index over (b, s) whose coordinate on the reduced axis is k is (b, s, k). -/
theorem r_lift (h : S8x2048x4096.Reduces [2] S8x2048) (b : Fin 8) (s : Fin 2048) (k : Fin (S8x2048x4096.size 2)) :
    h.lift (ix2 b s) k = ix3 b s (⟨k.val, k.isLt⟩ : Fin 4096) := by
  funext c; apply Fin.ext
  fin_cases c <;> rfl

section
variable (x0 : (⟨S8x4096x512, .f32⟩ : BufTy).Contents (Elt Ideal)) (x1 : (⟨S8x2048x128, .f32⟩ : BufTy).Contents (Elt Ideal)) (x3 : (⟨S2048x32x2, .f32⟩ : BufTy).Contents (Elt Ideal))
  (x4 x5 : (⟨S4096x16x2, .f32⟩ : BufTy).Contents (Elt Ideal)) (x6 : (⟨S64x512, .f32⟩ : BufTy).Contents (Elt Ideal)) (x7 : (⟨S64x128, .f32⟩ : BufTy).Contents (Elt Ideal))

/-- The specification's scores of the reference's inputs. -/
abbrev refS : Fin 8 → Fin 2048 → Fin 4096 → EReal :=
  scores (queries (c3 x1) (c2 x7) (c3 x3)) (keys (c3 x0) (c2 x6) (c3 x4) (c3 x5))

/-- The scaled scores. -/
theorem r_scores (b : Fin 8) (s : Fin 2048) (t : Fin 4096) :
    val_main_v83 (F := Ideal) x0 x1 x3 x4 x5 x6 x7 (ix3 b s t) = refS x0 x1 x3 x4 x5 x6 x7 b s t := by
  -- the divisor is the real 11863283 / 524288
  have hd : val_main_v82 (F := Ideal) (ix3 b s t) = ((11863283 / 524288 : ℝ) : EReal) := by
    rw [val_main_v82_apply, val_main_cst_apply]; exact Consts.ofBits_scale
  -- the contraction over the 64 lanes of the turned query row s and the turned key row t
  have hs : val_main_v81 (F := Ideal) x0 x1 x3 x4 x5 x6 x7 (ix3 b s t)
      = ∑ h : Fin 64, queries (c3 x1) (c2 x7) (c3 x3) b s h * keys (c3 x0) (c2 x6) (c3 x4) (c3 x5) b t h := by
    rw [val_main_v81_apply]
    refine Finset.sum_congr rfl fun k _ => ?_
    have el : lidx_main_v81 (ix3 b s t) k = ix3 b s k := funext fun a => Fin.ext (by match a with | ⟨0, _⟩ => rfl | ⟨1, _⟩ => rfl | ⟨2, _⟩ => rfl)
    have er : ridx_main_v81 (ix3 b s t) k = ix3 b t k := funext fun a => Fin.ext (by match a with | ⟨0, _⟩ => rfl | ⟨1, _⟩ => rfl | ⟨2, _⟩ => rfl)
    rw [el, er, ref_queries, ref_keys]
  have hr : (1 / (11863283 / 524288 : ℝ)) = (524288 / 11863283 : ℝ) := by norm_num
  rw [val_main_v83_apply, Ideal.hostDivf_def, hd, hs, Ideal.div_coe (by norm_num), hr]
  rfl

/-- The maximum-reduce of a row of scores, from −∞: the fold of the maximum over the row. -/
theorem r_rowfold (b : Fin 8) (s : Fin 2048) :
    val_main_v84 (F := Ideal) x0 x1 x3 x4 x5 x6 x7 (ix2 b s)
      = (Finset.univ : Finset (Fin 4096)).fold max (⊥ : EReal) (fun t => val_main_v83 (F := Ideal) x0 x1 x3 x4 x5 x6 x7 (ix3 b s t)) := by
  unfold val_main_v84
  generalize val_main_v83 (F := Ideal) x0 x1 x3 x4 x5 x6 x7 = y
  have h : S8x2048x4096.Reduces [2] S8x2048 := by decide
  refine (Host.reduce_eq_fold_single (FloatOps.maximumf (F := Ideal) (φ := .f32)) y _ _ h _ (ix2 b s)).trans ?_
  have hf : (y ∘ h.lift (ix2 b s)) = fun t : Fin 4096 => y (ix3 b s t) := funext fun k => congrArg y (r_lift h b s k)
  have hb : ∀ j, (val_main_cst_0 (F := Ideal)) j = (⊥ : EReal) := fun _ => Consts.ofBits_neg_inf
  rw [hb]
  exact congrArg (fun f => Finset.fold max (⊥ : EReal) f (Finset.univ : Finset (Fin 4096))) hf

/-- The row's maximum. -/
theorem r_rowMax (b : Fin 8) (s : Fin 2048) :
    val_main_v86 (F := Ideal) x0 x1 x3 x4 x5 x6 x7 (ix2 b s) = rowMax (refS x0 x1 x3 x4 x5 x6 x7) b s := by
  have hb : val_main_v85 (F := Ideal) (ix2 b s) = (⊥ : EReal) := by
    rw [val_main_v85_apply, val_main_cst_1_apply]; exact Consts.ofBits_neg_inf
  have hf : (fun t => val_main_v83 (F := Ideal) x0 x1 x3 x4 x5 x6 x7 (ix3 b s t)) = refS x0 x1 x3 x4 x5 x6 x7 b s :=
    funext fun t => r_scores x0 x1 x3 x4 x5 x6 x7 b s t
  rw [val_main_v86_apply, Ideal.maximumf_def, r_rowfold, hb, hf]
  rfl

/-- The exponential of a score less its row's maximum. -/
theorem r_expo (b : Fin 8) (s : Fin 2048) (t : Fin 4096) :
    val_main_v90 (F := Ideal) x0 x1 x3 x4 x5 x6 x7 (ix3 b s t) = expo (refS x0 x1 x3 x4 x5 x6 x7) b s t := by
  have e88 : idx_main_v88 (ix3 b s t) = ix3 b s (0 : Fin 1) := funext fun a => Fin.ext (by match a with | ⟨0, _⟩ => rfl | ⟨1, _⟩ => rfl | ⟨2, _⟩ => rfl)
  have e87 : idx_main_v87 (ix3 b s (0 : Fin 1)) = ix2 b s := funext fun a => Fin.ext (by match a with | ⟨0, _⟩ => rfl | ⟨1, _⟩ => rfl)
  rw [val_main_v90_apply, Ideal.hostUnary_exp_def, val_main_v89_apply, Ideal.subf_def, val_main_v88_apply, e88,
    val_main_v87_apply, e87, r_rowMax, r_scores]
  rfl

/-- The row's sum of exponentials, from zero. -/
theorem r_sum (b : Fin 8) (s : Fin 2048) :
    val_main_v91 (F := Ideal) x0 x1 x3 x4 x5 x6 x7 (ix2 b s) = ∑ u : Fin 4096, expo (refS x0 x1 x3 x4 x5 x6 x7) b s u := by
  have hz : ∀ j, (val_main_cst_2 (F := Ideal)) j = (0 : EReal) := fun _ => Consts.ofBits_zero
  rw [val_main_v91_apply, hz, zero_add]
  refine Finset.sum_congr rfl fun k _ => ?_
  have e : idx_main_v91 (ix2 b s) k = ix3 b s k := funext fun a => Fin.ext (by match a with | ⟨0, _⟩ => rfl | ⟨1, _⟩ => rfl | ⟨2, _⟩ => rfl)
  rw [e, r_expo]

/-- The weights: each exponential over its row's sum. -/
theorem r_weights (b : Fin 8) (s : Fin 2048) (t : Fin 4096) :
    val_main_v94 (F := Ideal) x0 x1 x3 x4 x5 x6 x7 (ix3 b s t) = weights (refS x0 x1 x3 x4 x5 x6 x7) b s t := by
  have e93 : idx_main_v93 (ix3 b s t) = ix3 b s (0 : Fin 1) := funext fun a => Fin.ext (by match a with | ⟨0, _⟩ => rfl | ⟨1, _⟩ => rfl | ⟨2, _⟩ => rfl)
  have e92 : idx_main_v92 (ix3 b s (0 : Fin 1)) = ix2 b s := funext fun a => Fin.ext (by match a with | ⟨0, _⟩ => rfl | ⟨1, _⟩ => rfl)
  rw [val_main_v94_apply, Ideal.hostDivf_def, val_main_v93_apply, e93, val_main_v92_apply, e92, r_sum, r_expo]
  rfl

end

/-- The reference's result is the specification's. -/
theorem ref_result (x0 : (⟨S8x4096x512, .f32⟩ : BufTy).Contents (Elt Ideal)) (x1 : (⟨S8x2048x128, .f32⟩ : BufTy).Contents (Elt Ideal)) (x3 : (⟨S2048x32x2, .f32⟩ : BufTy).Contents (Elt Ideal))
    (x4 x5 : (⟨S4096x16x2, .f32⟩ : BufTy).Contents (Elt Ideal)) (x6 : (⟨S64x512, .f32⟩ : BufTy).Contents (Elt Ideal)) (x7 : (⟨S64x128, .f32⟩ : BufTy).Contents (Elt Ideal)) (x8 : (⟨S64x512, .f32⟩ : BufTy).Contents (Elt Ideal))
    (b : Fin 8) (s : Fin 2048) (h : Fin 64) :
    val_main_v95 (F := Ideal) x0 x1 x3 x4 x5 x6 x7 x8 (ix3 b s h)
      = result (c3 x0) (c3 x1) (c3 x3) (c3 x4) (c3 x5) (c2 x6) (c2 x7) (c2 x8) b s h := by
  rw [val_main_v95_apply]
  unfold result attend
  refine Finset.sum_congr rfl fun k _ => ?_
  -- the weights are read at (b, s, k), the value rows at (b, k, h)
  have el : lidx_main_v95 (ix3 b s h) k = ix3 b s k := funext fun a => Fin.ext (by match a with | ⟨0, _⟩ => rfl | ⟨1, _⟩ => rfl | ⟨2, _⟩ => rfl)
  have er : ridx_main_v95 (ix3 b s h) k = ix3 b k h := funext fun a => Fin.ext (by match a with | ⟨0, _⟩ => rfl | ⟨1, _⟩ => rfl | ⟨2, _⟩ => rfl)
  rw [el, er, r_weights, ref_vals]

end Cert.Attn.Ref

end
-- ==== Proof.lean ====
/-
  Cross-attention of text queries over image keys and values, with rotary position turns: the kernel of three
  regions against the plain reference, equal as functions on the extended reals.

  Both programs project the image tokens to keys and values and the text tokens to queries (a row against each row of
  a weight matrix), turn each adjacent (even, odd) pair of the 64 key and query lanes by the angle a table gives for
  that pair — (a, b) ↦ (a·cos − b·sin, a·sin + b·cos) —, take the inner products of the turned rows, scale them, shift
  each row of scores by its maximum, exponentiate, normalise by the row sum, and weight the value rows.
  They differ in three ways, none of which changes the function:
  * the kernel turns lanes with two cyclic shifts, a parity mask and a ∓1 factor over tables spread to the lanes, the
    reference by splitting the last axis into pairs; on an even lane the product with −1 is a negation and adding a
    negation is subtracting, on an odd lane the sum is commuted (Proof/Turn.lean);
  * the kernel works block by block — 1024 image rows, one batch entry of text rows, 256 query rows at a time — and
    every block is the restriction of one function of the whole arrays, the blocks tiling the outputs
    (Proof/KeysRegion.lean, Proof/QueriesRegion.lean, Proof/Region2.lean);
  * the kernel multiplies the scores by a constant that denotes 524288/11863283, the reference divides them by
    11863283/524288; a quotient by a nonzero real is the product with its reciprocal on every extended real.
  No step uses finiteness of the inputs. The function itself is Proof/Spec.lean's `result`; Proof/KernelValue.lean
  shows the kernel's result array ends at it, Proof/RefResult.lean that the reference's does.
-/
import proofs.«127364_j36429912605016_1_alg».proof.Defs
import proofs.«127364_j36429912605016_1_alg».proof.Proof.Gen.Kernel
import proofs.«127364_j36429912605016_1_alg».proof.Proof.Gen.Kernel.Skeleton
import proofs.«127364_j36429912605016_1_alg».proof.Proof.Gen.Kernel.Launch
import proofs.«127364_j36429912605016_1_alg».proof.Proof.Gen.Kernel.Points
import proofs.«127364_j36429912605016_1_alg».proof.Proof.Gen.Kernel.Frame
import proofs.«127364_j36429912605016_1_alg».proof.Proof.Gen.KernelIdeal
import proofs.«127364_j36429912605016_1_alg».proof.Proof.Gen.KernelIdeal.Skeleton
import proofs.«127364_j36429912605016_1_alg».proof.Proof.Gen.KernelIdeal.Launch
import proofs.«127364_j36429912605016_1_alg».proof.Proof.Gen.KernelIdeal.Points
import proofs.«127364_j36429912605016_1_alg».proof.Proof.Gen.KernelIdeal.Frame
import proofs.«127364_j36429912605016_1_alg».proof.Proof.Gen.ReferenceIdeal
import proofs.«127364_j36429912605016_1_alg».proof.Proof.Gen.ReferenceIdeal.Run
import proofs.«127364_j36429912605016_1_alg».proof.Proof.Gen.ReferenceIdeal.Read
import proofs.«127364_j36429912605016_1_alg».proof.Proof.Gen.Pre_finite_inputs
import proofs.«127364_j36429912605016_1_alg».proof.Proof.KernelRun
import proofs.«127364_j36429912605016_1_alg».proof.Proof.KernelValue
import proofs.«127364_j36429912605016_1_alg».proof.Proof.RefResult
import Idealize.ShloMosaic.Adequacy
import Idealize.ShloMosaic.Init

noncomputable section

namespace Cert.Proof

open Idealize.ShloMosaic Idealize.SL.Sem Idealize.ShloMosaic.ValueIdx Cert.Attn

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale constant is named, and the name denotes 524288/11863283. -/
theorem preserves : Cert.preserves_Kernel_KernelIdeal :=
  IdealRules.named_const.statement Cert.KernelIdeal.κ "inv_scale" .f32 0x3D3504F3#32 ((524288 / 11863283 : ℝ) : EReal) rfl

/-- From memories that agree on the arguments both runs end with the result array at `result` of the arguments. -/
theorem algebraic : Cert.algebraic_KernelIdeal_ReferenceIdeal := by
  intro m ρ m' ρ' _ hagree
  refine ⟨fun c => (show Cert.KernelIdeal.S8x2048x64.Idx → EReal from fun i =>
      result (c3 (n0 := 8) (n1 := 4096) (n2 := 512) (m ((c.tc : Thread Cert.KernelIdeal.nD Cert.KernelIdeal.τ).loc Cert.KernelIdeal.main_arg0))) (c3 (n0 := 8) (n1 := 2048) (n2 := 128) (m ((c.tc : Thread Cert.KernelIdeal.nD Cert.KernelIdeal.τ).loc Cert.KernelIdeal.main_arg1)))
        (c3 (n0 := 2048) (n1 := 32) (n2 := 2) (m ((c.tc : Thread Cert.KernelIdeal.nD Cert.KernelIdeal.τ).loc Cert.KernelIdeal.main_arg3))) (c3 (n0 := 4096) (n1 := 16) (n2 := 2) (m ((c.tc : Thread Cert.KernelIdeal.nD Cert.KernelIdeal.τ).loc Cert.KernelIdeal.main_arg4)))
        (c3 (n0 := 4096) (n1 := 16) (n2 := 2) (m ((c.tc : Thread Cert.KernelIdeal.nD Cert.KernelIdeal.τ).loc Cert.KernelIdeal.main_arg5))) (c2 (n0 := 64) (n1 := 512) (m ((c.tc : Thread Cert.KernelIdeal.nD Cert.KernelIdeal.τ).loc Cert.KernelIdeal.main_arg6)))
        (c2 (n0 := 64) (n1 := 128) (m ((c.tc : Thread Cert.KernelIdeal.nD Cert.KernelIdeal.τ).loc Cert.KernelIdeal.main_arg7))) (c2 (n0 := 64) (n1 := 512) (m ((c.tc : Thread Cert.KernelIdeal.nD Cert.KernelIdeal.τ).loc Cert.KernelIdeal.main_arg8))) (i 0) (i 1) (i 2)), ?_, ?_⟩
  · refine (θ_run Cert.KernelIdeal.defs _ _).mono (fun r h c => ⟨(h c).1.trans ?_, (h c).2⟩)
      (Cert.KernelIdeal.RunValue.run (F := Ideal) m ρ)
    funext i
    rw [eq_ix3 i]
    exact Cert.Attn.KernelValue.result_value m ρ c (i 0) (i 1) (i 2)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v95_eq, e0, e1, e3, e4, e5, e6, e7, e8]
    funext i
    rw [eq_ix3 i]
    exact Cert.Attn.Ref.ref_result _ _ _ _ _ _ _ _ (i 0) (i 1) (i 2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
